-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part5 {F : FTy → Type} [FloatOps F] (main_v83 : IVec S_ 1) (main_v84 : FVec F S128x64 .f32) (main_cst_32 : FVec F S_ .f32) : IVec S_ 1 :=
  let main_v85 : FVec F S128x64 .f32 := broadcastInDim S128x64 ![] bcast_S_S128x64 main_cst_32
  let main_v86 : IVec S128x64 1 := cmpf .olt main_v84 main_v85
  let main_c_33 : IVec S_ 1 := constantI S_ 1 1#1
  let main_v87 : IVec S_ 1 := (fun x v => Host.reduce IntOp.andi x v reducesTo_S128x64_S_d0_1 h_S_) main_v86 main_c_33
  let main_v88 : IVec S_ 1 := andi main_v83 main_v87
  main_v88

def fn_part4 {F : FTy → Type} [FloatOps F] (main_arg15 : FVec F S128 .f32) (main_arg16 : FVec F S128x64 .f32) (main_arg17 : FVec F S64 .f32) (main_arg18 : FVec F S128x64 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x64 .f32 := Host.absf main_arg16
  let main_cst_28 : FVec F S_ .f32 := constant S_ .f32 0x7F800000#32
  let main_v75 : FVec F S128x64 .f32 := broadcastInDim S128x64 ![] bcast_S_S128x64 main_cst_28
  let main_v76 : IVec S128x64 1 := cmpf .olt main_v74 main_v75
  let main_c_29 : IVec S_ 1 := constantI S_ 1 1#1
  let main_v77 : IVec S_ 1 := (fun x v => Host.reduce IntOp.andi x v reducesTo_S128x64_S_d0_1 h_S_) main_v76 main_c_29
  let main_v78 : IVec S_ 1 := andi main_v73 main_v77
  let main_v79 : FVec F S64 .f32 := Host.absf main_arg17
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S128x64 .f32 := Host.absf main_arg18
  let main_cst_32 : FVec F S_ .f32 := constant S_ .f32 0x7F800000#32
  fn_part5 (F := F) main_v83 main_v84 main_cst_32

def fn_part3 {F : FTy → Type} [FloatOps F] (main_arg12 : FVec F S128 .f32) (main_arg13 : FVec F S128 .f32) (main_arg14 : FVec F S128 .f32) (main_arg15 : FVec F S128 .f32) (main_arg16 : FVec F S128x64 .f32) (main_arg17 : FVec F S64 .f32) (main_arg18 : FVec F S128x64 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_arg17 main_arg18 main_v63 main_v67

def fn_part2 {F : FTy → Type} [FloatOps F] (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128x64 .f32) (main_arg17 : FVec F S64 .f32) (main_arg18 : FVec F S128x64 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_arg14 main_arg15 main_arg16 main_arg17 main_arg18 main_v48 main_v49 main_v50

def fn_part1 {F : FTy → Type} [FloatOps F] (main_arg5 : FVec F S128 .f32) (main_arg6 : FVec F S128 .f32) (main_arg7 : FVec F S128 .f32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128x64 .f32) (main_arg17 : FVec F S64 .f32) (main_arg18 : FVec F S128x64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128 .f32) (main_arg7 : FVec F S128 .f32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128x64 .f32) (main_arg17 : FVec F S64 .f32) (main_arg18 : FVec F S128x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_arg16 main_arg17 main_arg18 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S4000x128 : Shape := ⟨2, ![4000, 128]⟩
abbrev S4000x1 : Shape := ⟨2, ![4000, 1]⟩
abbrev S1x128 : Shape := ⟨2, ![1, 128]⟩
abbrev S100000x64 : Shape := ⟨2, ![100000, 64]⟩
abbrev S4000x64 : Shape := ⟨2, ![4000, 64]⟩
abbrev S1x64 : Shape := ⟨2, ![1, 64]⟩
abbrev S1600000x64 : Shape := ⟨2, ![1600000, 64]⟩
abbrev S4000 : Shape := ⟨1, ![4000]⟩

abbrev nBuf : Space → Nat
  | .hbm => 81
  | .vmem => 47
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128x64, .f32⟩
  | .hbm, ⟨17, _⟩ => ⟨S64, .f32⟩
  | .hbm, ⟨18, _⟩ => ⟨S128x64, .f32⟩
  | .hbm, ⟨19, _⟩ => ⟨S1x1600000, .i32⟩
  | .hbm, ⟨20, _⟩ => ⟨S1600000, .i32⟩
  | .hbm, ⟨21, _⟩ => ⟨S1x1600000, .i32⟩
  | .hbm, ⟨22, _⟩ => ⟨S1600000, .i32⟩
  | .hbm, ⟨23, _⟩ => ⟨S_, .f32⟩
  | .hbm, ⟨24, _⟩ => ⟨S1600000, .f32⟩
  | .hbm, ⟨25, _⟩ => ⟨S_, .f32⟩
  | .hbm, ⟨26, _⟩ => ⟨S100000, .f32⟩
  | .hbm, ⟨27, _⟩ => ⟨S1600000x1, .i32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x128, .f32⟩
  | .hbm, ⟨45, _⟩ => ⟨S_, .f32⟩
  | .hbm, ⟨46, _⟩ => ⟨S100000x128, .f32⟩
  | .hbm, ⟨47, _⟩ => ⟨S1600000x1, .i32⟩
  | .hbm, ⟨48, _⟩ => ⟨S100000x128, .f32⟩
  | .hbm, ⟨49, _⟩ => ⟨S100000x128, .bf16⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x128, .bf16⟩
  | .hbm, ⟨59, _⟩ => ⟨S1600000x128, .f32⟩
  | .hbm, ⟨60, _⟩ => ⟨S_, .f32⟩
  | .hbm, ⟨61, _⟩ => ⟨S100000x128, .f32⟩
  | .hbm, ⟨62, _⟩ => ⟨S1600000x1, .i32⟩
  | .hbm, ⟨63, _⟩ => ⟨S100000x128, .f32⟩
  | .hbm, ⟨64, _⟩ => ⟨S100000x128, .bf16⟩
  | .hbm, ⟨65, _⟩ => ⟨S100000x64, .f32⟩
  | .hbm, ⟨66, _⟩ => ⟨S100000x64, .f32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000x64, .f32⟩
  | .hbm, ⟨76, _⟩ => ⟨S_, .f32⟩
  | .hbm, ⟨77, _⟩ => ⟨S100000x64, .f32⟩
  | .hbm, ⟨78, _⟩ => ⟨S1600000x1, .i32⟩
  | .hbm, ⟨79, _⟩ => ⟨S100000x64, .f32⟩
  | .hbm, ⟨80, _⟩ => ⟨S100000x64, .f32⟩
  | .local _ .vmem, ⟨0, _⟩ => ⟨S4000x128, .f32⟩
  | .local _ .vmem, ⟨1, _⟩ => ⟨S4000x128, .f32⟩
  | .local _ .vmem, ⟨2, _⟩ => ⟨S4000x1, .f32⟩
  | .local _ .vmem, ⟨3, _⟩ => ⟨S4000x1, .f32⟩
  | .local _ .vmem, ⟨4, _⟩ => ⟨S4000x128, .f32⟩
  | .local _ .vmem, ⟨5, _⟩ => ⟨S4000x128, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S128, .f32⟩
  | .local _ .vmem, ⟨10, _⟩ => ⟨S128, .f32⟩
  | .local _ .vmem, ⟨11, _⟩ => ⟨S128, .f32⟩
  | .local _ .vmem, ⟨12, _⟩ => ⟨S128, .f32⟩
  | .local _ .vmem, ⟨13, _⟩ => ⟨S4000x128, .bf16⟩
  | .local _ .vmem, ⟨14, _⟩ => ⟨S4000x128, .bf16⟩
  | .local _ .vmem, ⟨15, _⟩ => ⟨S4000x128, .f32⟩
  | .local _ .vmem, ⟨16, _⟩ => ⟨S4000x128, .f32⟩
  | .local _ .vmem, ⟨17, _⟩ => ⟨S4000x1, .f32⟩
  | .local _ .vmem, ⟨18, _⟩ => ⟨S4000x1, .f32⟩
  | .local _ .vmem, ⟨19, _⟩ => ⟨S4000x128, .bf16⟩
  | .local _ .vmem, ⟨20, _⟩ => ⟨S4000x128, .bf16⟩
  | .local _ .vmem, ⟨21, _⟩ => ⟨S128x128, .f32⟩
  | .local _ .vmem, ⟨22, _⟩ => ⟨S128, .f32⟩
  | .local _ .vmem, ⟨23, _⟩ => ⟨S128x128, .f32⟩
  | .local _ .vmem, ⟨24, _⟩ => ⟨S128, .f32⟩
  | .local _ .vmem, ⟨25, _⟩ => ⟨S128, .f32⟩
  | .local _ .vmem, ⟨26, _⟩ => ⟨S128, .f32⟩
  | .local _ .vmem, ⟨27, _⟩ => ⟨S128, .f32⟩
  | .local _ .vmem, ⟨28, _⟩ => ⟨S4000x128, .bf16⟩
  | .local _ .vmem, ⟨29, _⟩ => ⟨S4000x128, .bf16⟩
  | .local _ .vmem, ⟨30, _⟩ => ⟨S4000x128, .bf16⟩
  | .local _ .vmem, ⟨31, _⟩ => ⟨S4000x128, .bf16⟩
  | .local _ .vmem, ⟨32, _⟩ => ⟨S128x64, .f32⟩
  | .local _ .vmem, ⟨33, _⟩ => ⟨S64, .f32⟩
  | .local _ .vmem, ⟨34, _⟩ => ⟨S128x64, .f32⟩
  | .local _ .vmem, ⟨35, _⟩ => ⟨S4000x64, .f32⟩
  | .local _ .vmem, ⟨36, _⟩ => ⟨S4000x64, .f32⟩
  | .local _ .vmem, ⟨37, _⟩ => ⟨S4000x64, .f32⟩
  | .local _ .vmem, ⟨38, _⟩ => ⟨S4000x64, .f32⟩
  | .local _ .vmem, ⟨39, _⟩ => ⟨S4000x64, .f32⟩
  | .local _ .vmem, ⟨40, _⟩ => ⟨S4000x64, .f32⟩
  | .local _ .vmem, ⟨41, _⟩ => ⟨S4000x1, .f32⟩
  | .local _ .vmem, ⟨42, _⟩ => ⟨S4000x1, .f32⟩
  | .local _ .vmem, ⟨43, _⟩ => ⟨S4000x64, .f32⟩
  | .local _ .vmem, ⟨44, _⟩ => ⟨S4000x64, .f32⟩
  | .local _ .vmem, ⟨45, _⟩ => ⟨S4000x64, .f32⟩
  | .local _ .vmem, ⟨46, _⟩ => ⟨S4000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_cst_0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_1 : Ref sig .tc := ⟨.hbm, 29, rfl⟩
abbrev main_v8 : Ref sig .tc := ⟨.hbm, 30, rfl⟩
abbrev main_v9 : Ref sig .tc := ⟨.hbm, 31, rfl⟩
abbrev main_cst_2 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_c : Ref sig .tc := ⟨.hbm, 36, rfl⟩
abbrev main_v13 : Ref sig .tc := ⟨.hbm, 37, rfl⟩
abbrev main_v14 : Ref sig .tc := ⟨.hbm, 38, rfl⟩
abbrev main_c_3 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst_4 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_c_5 : Ref sig .tc := ⟨.hbm, 50, rfl⟩
abbrev main_v24 : Ref sig .tc := ⟨.hbm, 51, rfl⟩
abbrev main_v25 : Ref sig .tc := ⟨.hbm, 52, rfl⟩
abbrev main_c_6 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_7 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36_0 : Ref sig .tc := ⟨.hbm, 65, rfl⟩
abbrev main_v36_1 : Ref sig .tc := ⟨.hbm, 66, rfl⟩
abbrev main_c_8 : Ref sig .tc := ⟨.hbm, 67, rfl⟩
abbrev main_v37 : Ref sig .tc := ⟨.hbm, 68, rfl⟩
abbrev main_v38 : Ref sig .tc := ⟨.hbm, 69, rfl⟩
abbrev main_c_9 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_cst_10 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg9_0 : Ref sig .tc := ⟨.vmem, 27, rfl⟩
abbrev cc1_stg10_0 : Ref sig .tc := ⟨.vmem, 28, rfl⟩
abbrev cc1_stg10_1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg2_0 : Ref sig .tc := ⟨.vmem, 33, rfl⟩
abbrev cc2_stg3_0 : Ref sig .tc := ⟨.vmem, 34, rfl⟩
abbrev cc2_stg4_0 : Ref sig .tc := ⟨.vmem, 35, rfl⟩
abbrev cc2_stg4_1 : Ref sig .tc := ⟨.vmem, 36, rfl⟩
abbrev cc2_stg5_0 : Ref sig .tc := ⟨.vmem, 37, rfl⟩
abbrev cc2_stg5_1 : Ref sig .tc := ⟨.vmem, 38, rfl⟩
abbrev cc3_stg0_0 : Ref sig .tc := ⟨.vmem, 39, rfl⟩
abbrev cc3_stg0_1 : Ref sig .tc := ⟨.vmem, 40, rfl⟩
abbrev cc3_stg1_0 : Ref sig .tc := ⟨.vmem, 41, rfl⟩
abbrev cc3_stg1_1 : Ref sig .tc := ⟨.vmem, 42, rfl⟩
abbrev cc3_stg2_0 : Ref sig .tc := ⟨.vmem, 43, rfl⟩
abbrev cc3_stg2_1 : Ref sig .tc := ⟨.vmem, 44, rfl⟩
abbrev cc3_stg3_0 : Ref sig .tc := ⟨.vmem, 45, rfl⟩
abbrev cc3_stg3_1 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem9_0 : DmaSem sig := 27
abbrev cc1_sem10_0 : DmaSem sig := 28
abbrev cc1_sem10_1 : DmaSem sig := 29
abbrev cc2_sem0_0 : DmaSem sig := 30
abbrev cc2_sem0_1 : DmaSem sig := 31
abbrev cc2_sem1_0 : DmaSem sig := 32
abbrev cc2_sem2_0 : DmaSem sig := 33
abbrev cc2_sem3_0 : DmaSem sig := 34
abbrev cc2_sem4_0 : DmaSem sig := 35
abbrev cc2_sem4_1 : DmaSem sig := 36
abbrev cc2_sem5_0 : DmaSem sig := 37
abbrev cc2_sem5_1 : DmaSem sig := 38
abbrev cc3_sem0_0 : DmaSem sig := 39
abbrev cc3_sem0_1 : DmaSem sig := 40
abbrev cc3_sem1_0 : DmaSem sig := 41
abbrev cc3_sem1_1 : DmaSem sig := 42
abbrev cc3_sem2_0 : DmaSem sig := 43
abbrev cc3_sem2_1 : DmaSem sig := 44
abbrev cc3_sem3_0 : DmaSem sig := 45
abbrev cc3_sem3_1 : DmaSem sig := 46

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4000x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S4000x128 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S4000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S4000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  packedbf16_S4000x128_S4000x128_0_0 : (Rect.unit (s := S4000x128) ![0, 0] S4000x128.size inb_S4000x128_S4000x128_0_0).PackedRows (EltTy.packing .bf16)
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  bcast_S_S100000x64 : S_.BroadcastsInDim S100000x64 (![] : Fin 0 → Fin S100000x64.rank)
  shapeCasts_S4000x64_S4000x64 : S4000x64.ShapeCasts S4000x64
  broadcasts_S4000x1_S4000x64 : S4000x1.Broadcasts S4000x64
  reduces_S4000x64_S4000 : S4000x64.Reduces [1] S4000
  shapeCasts_S4000_S4000x1 : S4000.ShapeCasts S4000x1
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  dot_S4000x128_S128x64_S4000x64_1_0_0_1_n_n_wf : DotDims.WF S4000x128 S128x64 S4000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4000x128.size a ≤ S100000x128.size a
  hwx0_10 : ∀ i : grid0.Coords, EltTy.bits .bf16 = 32 ∨ (Rect.block (s := S100000x128) S4000x128.size (cc0_transform_10 i) (hinb0_10 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S100000x128.size a
  hwx1_2 : ∀ i : grid1.Coords, EltTy.bits .bf16 = 32 ∨ (Rect.block (s := S100000x128) S4000x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128.size a ≤ S128.size a
  hwx1_8 : ∀ i : grid1.Coords, EltTy.bits .f32 = 32 ∨ (Rect.block (s := S128) S128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128.size a ≤ S128.size a
  hwx1_9 : ∀ i : grid1.Coords, EltTy.bits .f32 = 32 ∨ (Rect.block (s := S128) S128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S4000x128.size a ≤ S100000x128.size a
  hwx1_10 : ∀ i : grid1.Coords, EltTy.bits .bf16 = 32 ∨ (Rect.block (s := S100000x128) S4000x128.size (cc1_transform_10 i) (hinb1_10 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .bf16 = 32 ∨ (Rect.block (s := S100000x128) S4000x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x64.size a ≤ S100000x64.size a
  hwx2_4 : ∀ i : grid2.Coords, EltTy.bits .f32 = 32 ∨ (Rect.block (s := S100000x64) S4000x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x64.size a ≤ S100000x64.size a
  hwx2_5 : ∀ i : grid2.Coords, EltTy.bits .f32 = 32 ∨ (Rect.block (s := S100000x64) S4000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S100000x64.size a
  hwx3_0 : ∀ i : grid3.Coords, EltTy.bits .f32 = 32 ∨ (Rect.block (s := S100000x64) S4000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x1.size a ≤ S100000x1.size a
  hwx3_1 : ∀ i : grid3.Coords, EltTy.bits .f32 = 32 ∨ (Rect.block (s := S100000x1) S4000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x64.size a ≤ S100000x64.size a
  hwx3_2 : ∀ i : grid3.Coords, EltTy.bits .f32 = 32 ∨ (Rect.block (s := S100000x64) S4000x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x64.size a ≤ S100000x64.size a
  hwx3_3 : ∀ i : grid3.Coords, EltTy.bits .f32 = 32 ∨ (Rect.block (s := S100000x64) S4000x64.size (cc3_transform_3 i) (hinb3_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_v22) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v23) S4000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v34) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S4000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg12) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg13) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg14) S128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg15) S128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v35) S4000x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v35) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg16) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg17) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg18) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v36_0) S4000x64.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v36_1) S4000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v46) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S4000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v36_1) S4000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v47) S4000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 169
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128, .f32⟩
  | 7 => ⟨S128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128, .f32⟩
  | 14 => ⟨S128, .f32⟩
  | 15 => ⟨S128, .f32⟩
  | 16 => ⟨S128x64, .f32⟩
  | 17 => ⟨S64, .f32⟩
  | 18 => ⟨S128x64, .f32⟩
  | 19 => ⟨S1x1600000, .i32⟩
  | 20 => ⟨S1600000, .i32⟩
  | 21 => ⟨S1x1600000, .i32⟩
  | 22 => ⟨S1600000, .i32⟩
  | 23 => ⟨S_, .f32⟩
  | 24 => ⟨S1600000, .f32⟩
  | 25 => ⟨S_, .f32⟩
  | 26 => ⟨S100000, .f32⟩
  | 27 => ⟨S1600000x1, .i32⟩
  | 28 => ⟨S100000, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000x128, .f32⟩
  | 38 => ⟨S_, .f32⟩
  | 39 => ⟨S100000x128, .f32⟩
  | 40 => ⟨S1600000x1, .i32⟩
  | 41 => ⟨S100000x128, .f32⟩
  | 42 => ⟨S_, .f32⟩
  | 43 => ⟨S100000, .f32⟩
  | 44 => ⟨S100000, .f32⟩
  | 45 => ⟨S100000x1, .f32⟩
  | 46 => ⟨S100000x128, .f32⟩
  | 47 => ⟨S100000x128, .f32⟩
  | 48 => ⟨S100000x128, .f32⟩
  | 49 => ⟨S1x128, .f32⟩
  | 50 => ⟨S100000x128, .f32⟩
  | 51 => ⟨S100000x128, .f32⟩
  | 52 => ⟨S100000x128, .f32⟩
  | 53 => ⟨S100000x128, .f32⟩
  | 54 => ⟨S1x128, .f32⟩
  | 55 => ⟨S100000x128, .f32⟩
  | 56 => ⟨S100000x128, .f32⟩
  | 57 => ⟨S1x128, .f32⟩
  | 58 => ⟨S100000x128, .f32⟩
  | 59 => ⟨S100000x128, .f32⟩
  | 60 => ⟨S_, .f32⟩
  | 61 => ⟨S128, .f32⟩
  | 62 => ⟨S128, .f32⟩
  | 63 => ⟨S128, .f32⟩
  | 64 => ⟨S1x128, .f32⟩
  | 65 => ⟨S100000x128, .f32⟩
  | 66 => ⟨S100000x128, .f32⟩
  | 67 => ⟨S1x128, .f32⟩
  | 68 => ⟨S100000x128, .f32⟩
  | 69 => ⟨S100000x128, .f32⟩
  | 70 => ⟨S_, .f32⟩
  | 71 => ⟨S100000x128, .f32⟩
  | 72 => ⟨S100000x128, .f32⟩
  | 73 => ⟨S_, .f32⟩
  | 74 => ⟨S1600000, .f32⟩
  | 75 => ⟨S_, .f32⟩
  | 76 => ⟨S100000, .f32⟩
  | 77 => ⟨S1600000x1, .i32⟩
  | 78 => ⟨S100000, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1600000x128, .f32⟩
  | 88 => ⟨S_, .f32⟩
  | 89 => ⟨S100000x128, .f32⟩
  | 90 => ⟨S1600000x1, .i32⟩
  | 91 => ⟨S100000x128, .f32⟩
  | 92 => ⟨S_, .f32⟩
  | 93 => ⟨S100000, .f32⟩
  | 94 => ⟨S100000, .f32⟩
  | 95 => ⟨S100000x1, .f32⟩
  | 96 => ⟨S100000x128, .f32⟩
  | 97 => ⟨S100000x128, .f32⟩
  | 98 => ⟨S100000x128, .f32⟩
  | 99 => ⟨S1x128, .f32⟩
  | 100 => ⟨S100000x128, .f32⟩
  | 101 => ⟨S100000x128, .f32⟩
  | 102 => ⟨S100000x128, .f32⟩
  | 103 => ⟨S100000x128, .f32⟩
  | 104 => ⟨S1x128, .f32⟩
  | 105 => ⟨S100000x128, .f32⟩
  | 106 => ⟨S100000x128, .f32⟩
  | 107 => ⟨S1x128, .f32⟩
  | 108 => ⟨S100000x128, .f32⟩
  | 109 => ⟨S100000x128, .f32⟩
  | 110 => ⟨S_, .f32⟩
  | 111 => ⟨S128, .f32⟩
  | 112 => ⟨S128, .f32⟩
  | 113 => ⟨S128, .f32⟩
  | 114 => ⟨S1x128, .f32⟩
  | 115 => ⟨S100000x128, .f32⟩
  | 116 => ⟨S100000x128, .f32⟩
  | 117 => ⟨S1x128, .f32⟩
  | 118 => ⟨S100000x128, .f32⟩
  | 119 => ⟨S100000x128, .f32⟩
  | 120 => ⟨S_, .f32⟩
  | 121 => ⟨S100000x128, .f32⟩
  | 122 => ⟨S100000x128, .f32⟩
  | 123 => ⟨S_, .f32⟩
  | 124 => ⟨S1600000, .f32⟩
  | 125 => ⟨S_, .f32⟩
  | 126 => ⟨S100000, .f32⟩
  | 127 => ⟨S1600000x1, .i32⟩
  | _ => ⟨S100000x128, .f32⟩

abbrev hbmTy0_1 (i : Nat) : BufTy := match i % 128 with
  | 0 => ⟨S100000, .f32⟩
  | 1 => ⟨S_, .i32⟩
  | 2 => ⟨S1600000, .i32⟩
  | 3 => ⟨S1600000, .i1⟩
  | 4 => ⟨S_, .i32⟩
  | 5 => ⟨S1600000, .i32⟩
  | 6 => ⟨S1600000, .i32⟩
  | 7 => ⟨S1600000, .i32⟩
  | 8 => ⟨S1600000x1, .i32⟩
  | 9 => ⟨S1600000x128, .f32⟩
  | 10 => ⟨S_, .f32⟩
  | 11 => ⟨S100000x128, .f32⟩
  | 12 => ⟨S1600000x1, .i32⟩
  | 13 => ⟨S100000x128, .f32⟩
  | 14 => ⟨S_, .f32⟩
  | 15 => ⟨S100000, .f32⟩
  | 16 => ⟨S100000, .f32⟩
  | 17 => ⟨S100000x1, .f32⟩
  | 18 => ⟨S100000x128, .f32⟩
  | 19 => ⟨S100000x128, .f32⟩
  | 20 => ⟨S100000x64, .f32⟩
  | 21 => ⟨S1x64, .f32⟩
  | 22 => ⟨S100000x64, .f32⟩
  | 23 => ⟨S100000x64, .f32⟩
  | 24 => ⟨S100000x64, .f32⟩
  | 25 => ⟨S100000x64, .f32⟩
  | 26 => ⟨S_, .f32⟩
  | 27 => ⟨S100000, .f32⟩
  | 28 => ⟨S_, .f32⟩
  | 29 => ⟨S100000, .f32⟩
  | 30 => ⟨S100000, .f32⟩
  | 31 => ⟨S100000x1, .f32⟩
  | 32 => ⟨S100000x64, .f32⟩
  | 33 => ⟨S100000x64, .f32⟩
  | 34 => ⟨S100000x64, .f32⟩
  | 35 => ⟨S_, .f32⟩
  | 36 => ⟨S100000, .f32⟩
  | 37 => ⟨S100000x1, .f32⟩
  | 38 => ⟨S100000x1, .f32⟩
  | 39 => ⟨S100000x64, .f32⟩
  | 40 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_cst_0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_c : Ref sig .tc := ⟨.hbm, 29, rfl⟩
abbrev main_v8 : Ref sig .tc := ⟨.hbm, 30, rfl⟩
abbrev main_v9 : Ref sig .tc := ⟨.hbm, 31, rfl⟩
abbrev main_c_1 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_cst_2 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_3 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_4 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_call0_cst : Ref sig .tc := ⟨.hbm, 70, rfl⟩
abbrev main_call0_v0 : Ref sig .tc := ⟨.hbm, 71, rfl⟩
abbrev main_v44 : Ref sig .tc := ⟨.hbm, 72, rfl⟩
abbrev main_cst_5 : Ref sig .tc := ⟨.hbm, 73, rfl⟩
abbrev main_v45 : Ref sig .tc := ⟨.hbm, 74, rfl⟩
abbrev main_cst_6 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_c_7 : Ref sig .tc := ⟨.hbm, 79, rfl⟩
abbrev main_v49 : Ref sig .tc := ⟨.hbm, 80, rfl⟩
abbrev main_v50 : Ref sig .tc := ⟨.hbm, 81, rfl⟩
abbrev main_c_8 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_9 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_10 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_11 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_call1_cst : Ref sig .tc := ⟨.hbm, 120, rfl⟩
abbrev main_call1_v0 : Ref sig .tc := ⟨.hbm, 121, rfl⟩
abbrev main_v85 : Ref sig .tc := ⟨.hbm, 122, rfl⟩
abbrev main_cst_12 : Ref sig .tc := ⟨.hbm, 123, rfl⟩
abbrev main_v86 : Ref sig .tc := ⟨.hbm, 124, rfl⟩
abbrev main_cst_13 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_c_14 : Ref sig .tc := ⟨.hbm, 129, rfl⟩
abbrev main_v90 : Ref sig .tc := ⟨.hbm, 130, rfl⟩
abbrev main_v91 : Ref sig .tc := ⟨.hbm, 131, rfl⟩
abbrev main_c_15 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_cst_16 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_cst_17 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_call2_cst : Ref sig .tc := ⟨.hbm, 154, rfl⟩
abbrev main_call2_v0 : Ref sig .tc := ⟨.hbm, 155, rfl⟩
abbrev main_call2_cst_0 : Ref sig .tc := ⟨.hbm, 156, rfl⟩
abbrev main_call2_v1 : Ref sig .tc := ⟨.hbm, 157, rfl⟩
abbrev main_call2_v2 : Ref sig .tc := ⟨.hbm, 158, rfl⟩
abbrev main_call2_v3 : Ref sig .tc := ⟨.hbm, 159, rfl⟩
abbrev main_call2_v4 : Ref sig .tc := ⟨.hbm, 160, rfl⟩
abbrev main_call2_v5 : Ref sig .tc := ⟨.hbm, 161, rfl⟩
abbrev main_call2_v6 : Ref sig .tc := ⟨.hbm, 162, rfl⟩
abbrev main_call2_cst_1 : Ref sig .tc := ⟨.hbm, 163, rfl⟩
abbrev main_call2_v7 : Ref sig .tc := ⟨.hbm, 164, rfl⟩
abbrev main_call2_v8 : Ref sig .tc := ⟨.hbm, 165, rfl⟩
abbrev main_call2_v9 : Ref sig .tc := ⟨.hbm, 166, rfl⟩
abbrev main_call2_v10 : Ref sig .tc := ⟨.hbm, 167, rfl⟩
abbrev main_v111 : Ref sig .tc := ⟨.hbm, 168, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000x1_S100000x64_0_1 : S100000x1.BroadcastsInDim S100000x64 (![0, 1] : Fin 2 → Fin S100000x64.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.LibHostLine.lean ====
/-
  Two general facts about a straight line of host array operations.

  1. The buffers after a concatenated line `l₁ ++ l₂` are the buffers after `l₂` from the buffers after `l₁`: a long
     line can be cut into short parts and each part read on its own, at an arbitrary state of the buffers.
  2. The operations of a called function read and write each buffer through its tensor type: a value is carried into the
     buffer's type (`TRef.toBuf`) and back (`TRef.ofBuf`) along the equation between the two types. There and back is
     the identity, for ANY typed reference (by substituting the equation, without evaluating the buffer table), and
     either way the carried value is the value it was (as a heterogeneous equation, which becomes an equation wherever
     the two types are the same by computation).
-/
import Idealize.ShloMosaic.Lib.StableHlo.Run

namespace Cert.HostLine

open Idealize.ShloMosaic Idealize.ShloMosaic.StableHlo

/-- The fold of a concatenated line is the fold of its second part over the fold of its first. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Into a buffer's type and back is the identity. -/
theorem ofBuf_toBuf {sig : RefSig} {T : BufTy} {Val : EltTy → Type} (x : TRef sig T) (v : T.Contents Val) :
    x.ofBuf (x.toBuf v) = v := by
  obtain ⟨r, h, h1, h2⟩ := x
  subst h
  rfl

/-- A value carried into a buffer's type is that value. -/
theorem toBuf_heq {sig : RefSig} {T : BufTy} {Val : EltTy → Type} (x : TRef sig T) (v : T.Contents Val) : HEq (x.toBuf v) v :=
  cast_heq _ _

/-- A buffer's contents read at its tensor type are those contents. -/
theorem ofBuf_heq {sig : RefSig} {T : BufTy} {Val : EltTy → Type} (x : TRef sig T) (v : x.ref.ty.Contents Val) : HEq (x.ofBuf v) v :=
  cast_heq _ _

end Cert.HostLine
-- ==== Proof.RefRunFirstLayer.lean ====
/-
  The reference program's first 54 host operations, read on their own.

  From ANY contents W of the buffers, these operations leave: in the buffer of the first hidden layer the staged
  value of that layer, a function of the first nine arguments' contents in W; in the buffers of the edges' source and
  target indices their staged values, functions of the edge argument; and the ten later arguments' buffers as W has
  them (no operation writes an argument).  Each value is read off the 54 operations alone, and meets the staged
  definition by unfolding it.
-/
import proofs.«164546_j60851096649749_2_alg».proof.Proof.GenPReferenceIdealRead

noncomputable section

open scoped BigOperators

namespace Cert.MeanAgg.Reference

open Idealize.ShloMosaic Idealize.ShloMosaic.ValueIdx Idealize.ShloMosaic.TcCoe Idealize.SL.Sem Cert.ReferenceIdeal Cert.ReferenceIdeal.Gen Cert.ReferenceIdeal.Value Cert.ReferenceIdeal.Read Idealize.ShloMosaic.StableHlo

set_option maxRecDepth 8192 in
set_option maxHeartbeats 4000000 in
/-- The first stretch: the first hidden layer, the edge indices, and the later arguments kept. -/
theorem first_layer_stretch (W : Valuation τ sig (Elt Ideal)) :
    after ((ops (F := Ideal)).take 54) W (Proc.devRef .tc main_v44) = val_main_v44 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8))
    ∧ after ((ops (F := Ideal)).take 54) W (Proc.devRef .tc main_v1) = val_main_v1 (F := Ideal) (W (Proc.devRef .tc main_arg1))
    ∧ after ((ops (F := Ideal)).take 54) W (Proc.devRef .tc main_v3) = val_main_v3 (F := Ideal) (W (Proc.devRef .tc main_arg1))
    ∧ after ((ops (F := Ideal)).take 54) W (Proc.devRef .tc main_arg9) = W (Proc.devRef .tc main_arg9)
    ∧ after ((ops (F := Ideal)).take 54) W (Proc.devRef .tc main_arg10) = W (Proc.devRef .tc main_arg10)
    ∧ after ((ops (F := Ideal)).take 54) W (Proc.devRef .tc main_arg11) = W (Proc.devRef .tc main_arg11)
    ∧ after ((ops (F := Ideal)).take 54) W (Proc.devRef .tc main_arg12) = W (Proc.devRef .tc main_arg12)
    ∧ after ((ops (F := Ideal)).take 54) W (Proc.devRef .tc main_arg13) = W (Proc.devRef .tc main_arg13)
    ∧ after ((ops (F := Ideal)).take 54) W (Proc.devRef .tc main_arg14) = W (Proc.devRef .tc main_arg14)
    ∧ after ((ops (F := Ideal)).take 54) W (Proc.devRef .tc main_arg15) = W (Proc.devRef .tc main_arg15)
    ∧ after ((ops (F := Ideal)).take 54) W (Proc.devRef .tc main_arg16) = W (Proc.devRef .tc main_arg16)
    ∧ after ((ops (F := Ideal)).take 54) W (Proc.devRef .tc main_arg17) = W (Proc.devRef .tc main_arg17)
    ∧ after ((ops (F := Ideal)).take 54) W (Proc.devRef .tc main_arg18) = W (Proc.devRef .tc main_arg18) := by
  simp only [ops, List.take_succ_cons, List.take_zero]
  refine ⟨?_, ?_, ?_, ?_, ?_, ?_, ?_, ?_, ?_, ?_, ?_, ?_, ?_⟩ <;> after_results_simp <;> rfl

end Cert.MeanAgg.Reference

end
-- ==== Proof.RefRunSecondLayer.lean ====
/-
  The reference program's operations 54 … 103 (the second hidden layer), read on their own.

  From ANY contents G of the buffers in which the first hidden layer's buffer and the two index buffers hold their
  staged values (of some x0 … x8) and the arguments 9 … 15 hold x9 … x15, these fifty operations leave the second hidden
  layer's buffer at ITS staged value of x0 … x15, the index buffers as they were, and the last three arguments as G
  has them.  The value is read off the fifty operations with G opaque; the staged definition unfolds to the same
  operations over the same staged first layer.
-/
import proofs.«164546_j60851096649749_2_alg».proof.Proof.GenPReferenceIdealRead

noncomputable section

open scoped BigOperators

namespace Cert.MeanAgg.Reference

open Idealize.ShloMosaic Idealize.ShloMosaic.ValueIdx Idealize.ShloMosaic.TcCoe Idealize.SL.Sem Cert.ReferenceIdeal Cert.ReferenceIdeal.Gen Cert.ReferenceIdeal.Value Cert.ReferenceIdeal.Read Idealize.ShloMosaic.StableHlo

set_option maxRecDepth 8192 in
set_option maxHeartbeats 4000000 in
/-- The second stretch. -/
theorem second_layer_stretch (G : Valuation τ sig (Elt Ideal)) (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) (x15 : (⟨S128, .f32⟩ : BufTy).Contents (Elt Ideal))
    (h44 : G (Proc.devRef .tc main_v44) = val_main_v44 (F := Ideal) x0 x1 x2 x3 x4 x5 x6 x7 x8)
    (h1 : G (Proc.devRef .tc main_v1) = val_main_v1 (F := Ideal) x1) (h3 : G (Proc.devRef .tc main_v3) = val_main_v3 (F := Ideal) x1)
    (h9a : G (Proc.devRef .tc main_arg9) = x9) (h10a : G (Proc.devRef .tc main_arg10) = x10) (h11a : G (Proc.devRef .tc main_arg11) = x11) (h12a : G (Proc.devRef .tc main_arg12) = x12) (h13a : G (Proc.devRef .tc main_arg13) = x13) (h14a : G (Proc.devRef .tc main_arg14) = x14) (h15a : G (Proc.devRef .tc main_arg15) = x15) :
    after (((ops (F := Ideal)).drop 54).take 50) G (Proc.devRef .tc main_v85) = val_main_v85 (F := Ideal) x0 x1 x2 x3 x4 x5 x6 x7 x8 x9 x10 x11 x12 x13 x14 x15
    ∧ after (((ops (F := Ideal)).drop 54).take 50) G (Proc.devRef .tc main_v1) = val_main_v1 (F := Ideal) x1
    ∧ after (((ops (F := Ideal)).drop 54).take 50) G (Proc.devRef .tc main_v3) = val_main_v3 (F := Ideal) x1
    ∧ after (((ops (F := Ideal)).drop 54).take 50) G (Proc.devRef .tc main_arg16) = G (Proc.devRef .tc main_arg16)
    ∧ after (((ops (F := Ideal)).drop 54).take 50) G (Proc.devRef .tc main_arg17) = G (Proc.devRef .tc main_arg17)
    ∧ after (((ops (F := Ideal)).drop 54).take 50) G (Proc.devRef .tc main_arg18) = G (Proc.devRef .tc main_arg18) := by
  simp only [ops, List.drop_succ_cons, List.drop_zero, List.take_succ_cons, List.take_zero]
  refine ⟨?_, ?_, ?_, ?_, ?_, ?_⟩
  · after_results_simp
    rw [h44, h1, h3, h9a, h10a, h11a, h12a, h13a, h14a, h15a]
    rfl
  · after_results_simp
    exact h1
  · after_results_simp
    exact h3
  · after_results_simp
  · after_results_simp
  · after_results_simp

end Cert.MeanAgg.Reference

end
-- ==== Proof.RefRunOutputLayer.lean ====
/-
  The reference program's last 46 host operations (the output layer and the logarithm of the softmax), read on
  their own, in two stretches.

  Operations 104 … 134: from ANY contents G in which the second hidden layer's buffer and the two index buffers hold
  their staged values and the last three arguments hold x16, x17, x18, they leave the output layer's buffer (before the
  softmax) at its staged value.  Operations 135 … 149: from ANY contents in which that buffer holds its staged value,
  they leave the result buffer at the last staged value (a called function's operations carry each value into its
  buffer's type and back, which is the identity).
-/
import proofs.«164546_j60851096649749_2_alg».proof.Proof.GenPReferenceIdealRead
import proofs.«164546_j60851096649749_2_alg».proof.Proof.LibHostLine

noncomputable section

open scoped BigOperators

namespace Cert.MeanAgg.Reference

open Idealize.ShloMosaic Idealize.ShloMosaic.ValueIdx Idealize.ShloMosaic.TcCoe Idealize.SL.Sem Cert.ReferenceIdeal Cert.ReferenceIdeal.Gen Cert.ReferenceIdeal.Value Cert.ReferenceIdeal.Read Idealize.ShloMosaic.StableHlo

set_option maxRecDepth 8192 in
set_option maxHeartbeats 4000000 in
/-- The third stretch: the output layer before the softmax. -/
theorem output_layer_stretch (G : Valuation τ sig (Elt Ideal)) (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) (x15 : (⟨S128, .f32⟩ : BufTy).Contents (Elt Ideal)) (x16 : (⟨S128x64, .f32⟩ : BufTy).Contents (Elt Ideal)) (x17 : (⟨S64, .f32⟩ : BufTy).Contents (Elt Ideal)) (x18 : (⟨S128x64, .f32⟩ : BufTy).Contents (Elt Ideal))
    (h85 : G (Proc.devRef .tc main_v85) = val_main_v85 (F := Ideal) x0 x1 x2 x3 x4 x5 x6 x7 x8 x9 x10 x11 x12 x13 x14 x15)
    (h1 : G (Proc.devRef .tc main_v1) = val_main_v1 (F := Ideal) x1) (h3 : G (Proc.devRef .tc main_v3) = val_main_v3 (F := Ideal) x1)
    (h16a : G (Proc.devRef .tc main_arg16) = x16) (h17a : G (Proc.devRef .tc main_arg17) = x17) (h18a : G (Proc.devRef .tc main_arg18) = x18) :
    after (((ops (F := Ideal)).drop 104).take 31) G (Proc.devRef .tc main_v110) = val_main_v110 (F := Ideal) x0 x1 x2 x3 x4 x5 x6 x7 x8 x9 x10 x11 x12 x13 x14 x15 x16 x17 x18 := by
  simp only [ops, List.drop_succ_cons, List.drop_zero, List.take_succ_cons, List.take_zero]
  after_results_simp
  rw [h85, h1, h3, h16a, h17a, h18a]
  rfl

set_option maxRecDepth 8192 in
set_option maxHeartbeats 4000000 in
/-- The fourth stretch: the logarithm of the softmax along the channels. -/
theorem log_softmax_stretch (G : Valuation τ sig (Elt Ideal)) (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) (x15 : (⟨S128, .f32⟩ : BufTy).Contents (Elt Ideal)) (x16 : (⟨S128x64, .f32⟩ : BufTy).Contents (Elt Ideal)) (x17 : (⟨S64, .f32⟩ : BufTy).Contents (Elt Ideal)) (x18 : (⟨S128x64, .f32⟩ : BufTy).Contents (Elt Ideal))
    (h110 : G (Proc.devRef .tc main_v110) = val_main_v110 (F := Ideal) x0 x1 x2 x3 x4 x5 x6 x7 x8 x9 x10 x11 x12 x13 x14 x15 x16 x17 x18) :
    after ((ops (F := Ideal)).drop 135) G (Proc.devRef .tc main_v111) = val_main_v111 (F := Ideal) x0 x1 x2 x3 x4 x5 x6 x7 x8 x9 x10 x11 x12 x13 x14 x15 x16 x17 x18 := by
  simp only [ops, List.drop_succ_cons, List.drop_zero]
  after_results_simp
  rw [h110]
  simp only [Cert.HostLine.ofBuf_toBuf]
  rfl

end Cert.MeanAgg.Reference

end
-- ==== Proof.RefRunArgumentsKept.lean ====
/-
  No host operation of the reference program writes an argument's buffer.

  So from ANY contents W of the buffers, after all 150 operations each of the nineteen arguments' buffers holds what W
  has there: every operation's result buffer is another buffer than the argument's.
-/
import proofs.«164546_j60851096649749_2_alg».proof.Proof.GenPReferenceIdealRead

noncomputable section

open scoped BigOperators

namespace Cert.MeanAgg.Reference

open Idealize.ShloMosaic Idealize.ShloMosaic.ValueIdx Idealize.ShloMosaic.TcCoe Idealize.SL.Sem Cert.ReferenceIdeal Cert.ReferenceIdeal.Gen Cert.ReferenceIdeal.Value Cert.ReferenceIdeal.Read Idealize.ShloMosaic.StableHlo

set_option maxRecDepth 8192 in
set_option maxHeartbeats 4000000 in
/-- The nineteen arguments' buffers after the whole line are as before it. -/
theorem arguments_kept (W : Valuation τ sig (Elt Ideal)) :
    after (ops (F := Ideal)) W (Proc.devRef .tc main_arg0) = W (Proc.devRef .tc main_arg0)
    ∧ after (ops (F := Ideal)) W (Proc.devRef .tc main_arg1) = W (Proc.devRef .tc main_arg1)
    ∧ after (ops (F := Ideal)) W (Proc.devRef .tc main_arg2) = W (Proc.devRef .tc main_arg2)
    ∧ after (ops (F := Ideal)) W (Proc.devRef .tc main_arg3) = W (Proc.devRef .tc main_arg3)
    ∧ after (ops (F := Ideal)) W (Proc.devRef .tc main_arg4) = W (Proc.devRef .tc main_arg4)
    ∧ after (ops (F := Ideal)) W (Proc.devRef .tc main_arg5) = W (Proc.devRef .tc main_arg5)
    ∧ after (ops (F := Ideal)) W (Proc.devRef .tc main_arg6) = W (Proc.devRef .tc main_arg6)
    ∧ after (ops (F := Ideal)) W (Proc.devRef .tc main_arg7) = W (Proc.devRef .tc main_arg7)
    ∧ after (ops (F := Ideal)) W (Proc.devRef .tc main_arg8) = W (Proc.devRef .tc main_arg8)
    ∧ after (ops (F := Ideal)) W (Proc.devRef .tc main_arg9) = W (Proc.devRef .tc main_arg9)
    ∧ after (ops (F := Ideal)) W (Proc.devRef .tc main_arg10) = W (Proc.devRef .tc main_arg10)
    ∧ after (ops (F := Ideal)) W (Proc.devRef .tc main_arg11) = W (Proc.devRef .tc main_arg11)
    ∧ after (ops (F := Ideal)) W (Proc.devRef .tc main_arg12) = W (Proc.devRef .tc main_arg12)
    ∧ after (ops (F := Ideal)) W (Proc.devRef .tc main_arg13) = W (Proc.devRef .tc main_arg13)
    ∧ after (ops (F := Ideal)) W (Proc.devRef .tc main_arg14) = W (Proc.devRef .tc main_arg14)
    ∧ after (ops (F := Ideal)) W (Proc.devRef .tc main_arg15) = W (Proc.devRef .tc main_arg15)
    ∧ after (ops (F := Ideal)) W (Proc.devRef .tc main_arg16) = W (Proc.devRef .tc main_arg16)
    ∧ after (ops (F := Ideal)) W (Proc.devRef .tc main_arg17) = W (Proc.devRef .tc main_arg17)
    ∧ after (ops (F := Ideal)) W (Proc.devRef .tc main_arg18) = W (Proc.devRef .tc main_arg18) := by
  refine ⟨?_, ?_, ?_, ?_, ?_, ?_, ?_, ?_, ?_, ?_, ?_, ?_, ?_, ?_, ?_, ?_, ?_, ?_, ?_⟩ <;> after_results_simp

end Cert.MeanAgg.Reference

end
-- ==== Proof.RefRun.lean ====
/-
  The idealized reference program's run, read stretch by stretch.

  The program is a straight line of 150 host array operations.  Its run ends with every buffer at the fold of the
  operations over the launch contents.  The line is cut after the first hidden layer (54 operations), after the second
  (50 more), and before the softmax (31 more, then 15): the buffers after the whole line are the buffers after the
  last part from the buffers after the parts before it.  Each part is read on its own from ARBITRARY contents in which
  the few buffers it reads hold their staged values, so no part's reading ever contains another's: the first hidden
  layer enters the second part as one staged value, however many operations read it.  Chaining the four parts gives the
  result buffer at the last staged value of the nineteen arguments' launch contents; and no operation writes an
  argument's buffer.
-/
import proofs.«164546_j60851096649749_2_alg».proof.Proof.GenPReferenceIdealRead
import proofs.«164546_j60851096649749_2_alg».proof.Proof.LibHostLine
import proofs.«164546_j60851096649749_2_alg».proof.Proof.RefRunFirstLayer
import proofs.«164546_j60851096649749_2_alg».proof.Proof.RefRunSecondLayer
import proofs.«164546_j60851096649749_2_alg».proof.Proof.RefRunOutputLayer
import proofs.«164546_j60851096649749_2_alg».proof.Proof.RefRunArgumentsKept

noncomputable section

open scoped BigOperators

namespace Cert.MeanAgg.Reference

open Idealize.ShloMosaic Idealize.ShloMosaic.ValueIdx Idealize.ShloMosaic.TcCoe Idealize.SL.Sem Cert.ReferenceIdeal Cert.ReferenceIdeal.Gen Cert.ReferenceIdeal.Value Cert.ReferenceIdeal.Read Idealize.ShloMosaic.StableHlo

set_option maxRecDepth 8192 in
/-- The line is its four parts, one after another. -/
theorem line_parts : (ops (F := Ideal)) = ((ops (F := Ideal)).take 54) ++ ((((ops (F := Ideal)).drop 54).take 50) ++ ((((ops (F := Ideal)).drop 104).take 31) ++ ((ops (F := Ideal)).drop 135))) := by
  rfl

/-- THE RESULT after the whole line, from any contents W: the last staged value of the arguments' contents in W. -/
theorem result_value (W : Valuation τ sig (Elt Ideal)) :
    after (ops (F := Ideal)) W (Proc.devRef .tc main_v111) = val_main_v111 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg18)) := by
  obtain ⟨e44, e1, e3, k9, k10, k11, k12, k13, k14, k15, k16, k17, k18⟩ := first_layer_stretch W
  obtain ⟨e85, e1', e3', k16', k17', k18'⟩ := second_layer_stretch (after ((ops (F := Ideal)).take 54) W) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15))
    e44 e1 e3 k9 k10 k11 k12 k13 k14 k15
  have e110 := output_layer_stretch (after (((ops (F := Ideal)).drop 54).take 50) (after ((ops (F := Ideal)).take 54) W)) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg18))
    e85 e1' e3' (k16'.trans k16) (k17'.trans k17) (k18'.trans k18)
  have e111 := log_softmax_stretch (after (((ops (F := Ideal)).drop 104).take 31) (after (((ops (F := Ideal)).drop 54).take 50) (after ((ops (F := Ideal)).take 54) W))) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg18)) e110
  refine (congrArg (fun l => after l W (Proc.devRef .tc main_v111)) line_parts).trans ?_
  show after (((ops (F := Ideal)).take 54) ++ ((((ops (F := Ideal)).drop 54).take 50) ++ ((((ops (F := Ideal)).drop 104).take 31) ++ ((ops (F := Ideal)).drop 135)))) W (Proc.devRef .tc main_v111) = _
  rw [Cert.HostLine.after_append, Cert.HostLine.after_append, Cert.HostLine.after_append]
  exact e111

/-- The idealized reference program's run: every weakly fair execution ends with the result array at the last stage
    of the operations read one after another, a function of the launch contents of the arguments, and the
    arguments as launched. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v111)
        = val_main_v111 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) := by
  refine (θ_run (defs (F := Ideal)) _ _).mono (fun r h c => ?_)
    (run_seq scopedRefs_eq scopedSems_eq (defs (F := Ideal)) (main (F := Ideal)) (fun _ => ops (F := Ideal)) main_eq (fun _ => ops_sub) m ρ)
  obtain ⟨a0, a1, a2, a3, a4, a5, a6, a7, a8, a9, a10, a11, a12, a13, a14, a15, a16, a17, a18⟩ := arguments_kept (launchContents m c)
  exact ⟨(h c main_v111).trans (result_value (launchContents m c)),
    (h c main_arg0).trans a0,
    (h c main_arg1).trans a1,
    (h c main_arg2).trans a2,
    (h c main_arg3).trans a3,
    (h c main_arg4).trans a4,
    (h c main_arg5).trans a5,
    (h c main_arg6).trans a6,
    (h c main_arg7).trans a7,
    (h c main_arg8).trans a8,
    (h c main_arg9).trans a9,
    (h c main_arg10).trans a10,
    (h c main_arg11).trans a11,
    (h c main_arg12).trans a12,
    (h c main_arg13).trans a13,
    (h c main_arg14).trans a14,
    (h c main_arg15).trans a15,
    (h c main_arg16).trans a16,
    (h c main_arg17).trans a17,
    (h c main_arg18).trans a18⟩

end Cert.MeanAgg.Reference

end
-- ==== Proof.LibRowScatter.lean ====
/-
  An accumulating row scatter read at an index, over the extended reals.

  What a segment sum of the rows of a matrix `upd : [E, C]` into `x : [N, C]` at an index column `idx : [E, 1]` lowers
  to: `stablehlo.scatter` with an `add` body, update_window_dims `[1]`, inserted_window_dims `[0]`,
  scatter_dims_to_operand_dims `[0]` and index_vector_dim 1. Update element `(e, c')` lands at the row `idx[e, 0]
  read as a signed integer` (not clamped) and the column `c'` when that row lies in `[0, N)`, and is dropped
  otherwise: on operand axis 0 (named by the scatter-dims map, an inserted window axis) the result index is the start
  alone, on operand axis 1 (not named by the map, so its start is 0; the one window axis) it is the update's second
  coordinate. So the updates landing on `(n, c)` are exactly the `(e, c)` with `idx[e, 0] = n`, and the result there is
  the operand's element plus the sum of those updates. The same holds for a vector `upd : [E]` scattered into
  `x : [N]` (no window axis at all): the result at `n` is `x n` plus the sum of `upd e` over the `e` with
  `idx[e, 0] = n`.
-/
import Idealize.ShloMosaic.PureOps.Ideal
import Idealize.ShloMosaic.Lib.ValueIdx

open scoped BigOperators

namespace Idealize.ShloMosaic.RowScatter

open Idealize.ShloMosaic Idealize.ShloMosaic.ValueIdx

/-- The update rows whose target row, `idx[e, 0]` read as a signed integer, is `n`. -/
def hits {N E w : Nat} (idx : IVec ⟨2, ![E, 1]⟩ w) (n : Fin N) : Finset (Fin E) :=
  Finset.univ.filter fun e => (idx (ix2 e (0 : Fin 1))).toInt = (n.val : Int)

/-- Membership in `hits`: the target row of `e`, read signed, is `n`. -/
theorem mem_hits {N E w : Nat} (idx : IVec ⟨2, ![E, 1]⟩ w) (n : Fin N) (e : Fin E) :
    e ∈ hits idx n ↔ (idx (ix2 e (0 : Fin 1))).toInt = (n.val : Int) := by
  simp [hits]

/-! ## The row scatter -/

/-- The row scatter's dimension numbers for an operand `[N, C]`, scatter indices `[E, 1]` and updates `[E, C]`; their
    conditions `wf` are decided on a program's literal shapes. -/
abbrev rowDims (N C E : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Where an update of the row scatter lands: update `(e, c')` lands on `(n, c)` exactly when its target row
    `idx[e, 0]`, read signed, is `n` and its column `c'` is `c`. -/
theorem rowDims_resultIdx?_eq_some_iff {N C E w : Nat}
    (wf : ScatterDims.WF ⟨2, ![N, C]⟩ ⟨2, ![E, 1]⟩ ⟨2, ![E, C]⟩ [1] [0] [0] 1)
    (idx : IVec ⟨2, ![E, 1]⟩ w) (e : Fin E) (c' : Fin C) (n : Fin N) (c : Fin C) :
    (rowDims N C E wf).resultIdx? (ix2 e c') idx = some (ix2 n c)
      ↔ (idx (ix2 e (0 : Fin 1))).toInt = (n.val : Int) ∧ c' = c := by
  have hs0 : (rowDims N C E wf).start (ix2 e c') idx 0 = (idx (ix2 e (0 : Fin 1))).toInt := by
    unfold ScatterDims.start
    rw [dif_pos (show (0 : Fin 2) ∈ (rowDims N C E wf).scatterDimsToOperandDims from List.mem_singleton.mpr rfl)]
    have hsi : (rowDims N C E wf).siIdx (ix2 e c') ⟨List.idxOf (0 : Fin 2) (rowDims N C E wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (rowDims N C E wf).start (ix2 e c') idx 1 = 0 := by
    unfold ScatterDims.start
    rw [dif_neg (show ¬ (1 : Fin 2) ∈ (rowDims N C E wf).scatterDimsToOperandDims from
      (by decide : (1 : Fin 2) ∉ ([0] : List (Fin 2))))]
  have hk : (rowDims N C E wf).sKept = [1] := rfl
  have hw0 : (rowDims N C E wf).window (ix2 e c') 0 = 0 := by
    unfold ScatterDims.window
    rw [dif_neg (by rw [hk]; exact (by decide : (0 : Fin 2) ∉ ([1] : List (Fin 2))))]
  have hw1 : (rowDims N C E wf).window (ix2 e c') 1 = c'.val := by
    unfold ScatterDims.window
    rw [dif_pos (by rw [hk]; exact List.mem_singleton.mpr rfl)]
    rfl
  unfold ScatterDims.resultIdx?
  by_cases h : ∀ a, 0 ≤ (rowDims N C E wf).start (ix2 e c') idx a + (rowDims N C E wf).window (ix2 e c') a
      ∧ (rowDims N C E wf).start (ix2 e c') idx a + (rowDims N C E wf).window (ix2 e c') a
        < (⟨2, ![N, C]⟩ : Shape).size a
  · rw [dif_pos h, Option.some.injEq]
    have h0 := h 0
    rw [hs0, hw0] at h0
    constructor
    · intro hf
      have e0 : ((rowDims N C E wf).start (ix2 e c') idx 0 + (rowDims N C E wf).window (ix2 e c') 0).toNat = n.val :=
        congrArg Fin.val (congrFun hf 0)
      have e1 : ((rowDims N C E wf).start (ix2 e c') idx 1 + (rowDims N C E wf).window (ix2 e c') 1).toNat = c.val :=
        congrArg Fin.val (congrFun hf 1)
      rw [hs0, hw0] at e0
      rw [hs1, hw1] at e1
      refine ⟨by omega, Fin.ext (by omega)⟩
    · rintro ⟨ht, rfl⟩
      funext a; refine Fin.ext ?_
      match a with
      | ⟨0, _⟩ =>
        show ((rowDims N C E wf).start (ix2 e c') idx 0 + (rowDims N C E wf).window (ix2 e c') 0).toNat = n.val
        rw [hs0, hw0]; omega
      | ⟨1, _⟩ =>
        show ((rowDims N C E wf).start (ix2 e c') idx 1 + (rowDims N C E wf).window (ix2 e c') 1).toNat = c'.val
        rw [hs1, hw1]; omega
  · rw [dif_neg h]
    constructor
    · intro hf; cases hf
    · rintro ⟨ht, rfl⟩
      refine absurd (fun a => ?_) h
      match a with
      | ⟨0, _⟩ =>
        show 0 ≤ (rowDims N C E wf).start (ix2 e c') idx 0 + (rowDims N C E wf).window (ix2 e c') 0
          ∧ (rowDims N C E wf).start (ix2 e c') idx 0 + (rowDims N C E wf).window (ix2 e c') 0 < (N : Int)
        rw [hs0, hw0]; have := n.isLt; omega
      | ⟨1, _⟩ =>
        show 0 ≤ (rowDims N C E wf).start (ix2 e c') idx 1 + (rowDims N C E wf).window (ix2 e c') 1
          ∧ (rowDims N C E wf).start (ix2 e c') idx 1 + (rowDims N C E wf).window (ix2 e c') 1 < (C : Int)
        rw [hs1, hw1]; have := c'.isLt; omega

/-- THE ROW SCATTER READ AT `(n, c)`, for the record `rowDims`: the operand's element plus the sum of the updates
    `(e, c)` over the rows `e` whose target row `idx[e, 0]`, read signed, is `n`. -/
theorem rowDims_scatterAdd_apply {N C E w : Nat} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ)
    (n : Fin N) (c : Fin C) :
    Host.scatterAdd (F := Ideal) (rowDims N C E wf) x idx upd (ix2 n c)
      = x (ix2 n c) + ∑ e ∈ hits idx n, upd (ix2 e c) := by
  have hdef : Host.scatterAdd (F := Ideal) (rowDims N C E wf) x idx upd
      = Ideal.hostScatterAdd (rowDims N C E wf) x idx upd := rfl
  rw [hdef]
  simp only [Ideal.hostScatterAdd]
  congr 1
  rw [Finset.sum_filter, sum_idx2]
  unfold hits
  rw [Finset.sum_filter]
  refine Finset.sum_congr rfl fun e _ => ?_
  simp only [rowDims_resultIdx?_eq_some_iff]
  by_cases ht : (idx (ix2 e (0 : Fin 1))).toInt = (n.val : Int)
  · simp only [ht, true_and, if_true]
    rw [Finset.sum_ite_eq' Finset.univ c (fun b => upd (ix2 e b)), if_pos (Finset.mem_univ c)]
  · simp only [ht, false_and, if_false]
    exact Finset.sum_const_zero

/-- THE ROW SCATTER READ AT `(n, c)`, for any record with the row scatter's dimension numbers: the operand's element
    plus the sum of the updates `(e, c)` over the rows `e` whose target row `idx[e, 0]`, read signed, is `n`
    (an update whose target row is outside `[0, N)` is dropped). -/
theorem rowScatterAdd_apply {N C E w : Nat} {φ : FTy}
    (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (x : FVec Ideal ⟨2, ![N, C]⟩ φ) (idx : IVec ⟨2, ![E, 1]⟩ w) (upd : FVec Ideal ⟨2, ![E, C]⟩ φ)
    (n : Fin N) (c : Fin C) :
    Host.scatterAdd (F := Ideal) d x idx upd (ix2 n c) = x (ix2 n c) + ∑ e ∈ hits idx n, upd (ix2 e c) := by
  obtain ⟨uw, iw, sd, iv, wf⟩ := d
  simp only at h1 h2 h3 h4
  subst h1 h2 h3 h4
  exact rowDims_scatterAdd_apply wf x idx upd n c

/-! ## The vector scatter -/

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The vector scatter's dimension numbers for an operand `[N]`, scatter indices `[E, 1]` and updates `[E]` (no window
    axis); their conditions `wf` are decided on a program's literal shapes. -/
abbrev vecDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Where an update of the vector scatter lands: update `e` lands on `n` exactly when its target `idx[e, 0]`, read
    signed, is `n`. -/
theorem vecDims_resultIdx?_eq_some_iff {N E w : Nat}
    (wf : ScatterDims.WF ⟨1, ![N]⟩ ⟨2, ![E, 1]⟩ ⟨1, ![E]⟩ [] [0] [0] 1)
    (idx : IVec ⟨2, ![E, 1]⟩ w) (e : Fin E) (n : Fin N) :
    (vecDims N E wf).resultIdx? (ix1 e) idx = some (ix1 n)
      ↔ (idx (ix2 e (0 : Fin 1))).toInt = (n.val : Int) := by
  have hs0 : (vecDims N E wf).start (ix1 e) idx 0 = (idx (ix2 e (0 : Fin 1))).toInt := by
    unfold ScatterDims.start
    rw [dif_pos (show (0 : Fin 1) ∈ (vecDims N E wf).scatterDimsToOperandDims from List.mem_singleton.mpr rfl)]
    have hsi : (vecDims N E wf).siIdx (ix1 e) ⟨List.idxOf (0 : Fin 1) (vecDims N E wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hk : (vecDims N E wf).sKept = [] := rfl
  have hw0 : (vecDims N E wf).window (ix1 e) 0 = 0 := by
    unfold ScatterDims.window
    rw [dif_neg (by rw [hk]; exact List.not_mem_nil)]
  unfold ScatterDims.resultIdx?
  by_cases h : ∀ a, 0 ≤ (vecDims N E wf).start (ix1 e) idx a + (vecDims N E wf).window (ix1 e) a
      ∧ (vecDims N E wf).start (ix1 e) idx a + (vecDims N E wf).window (ix1 e) a
        < (⟨1, ![N]⟩ : Shape).size a
  · rw [dif_pos h, Option.some.injEq]
    have h0 := h 0
    rw [hs0, hw0] at h0
    constructor
    · intro hf
      have e0 : ((vecDims N E wf).start (ix1 e) idx 0 + (vecDims N E wf).window (ix1 e) 0).toNat = n.val :=
        congrArg Fin.val (congrFun hf 0)
      rw [hs0, hw0] at e0
      omega
    · intro ht
      funext a; refine Fin.ext ?_
      match a with
      | ⟨0, _⟩ =>
        show ((vecDims N E wf).start (ix1 e) idx 0 + (vecDims N E wf).window (ix1 e) 0).toNat = n.val
        rw [hs0, hw0]; omega
  · rw [dif_neg h]
    constructor
    · intro hf; cases hf
    · intro ht
      refine absurd (fun a => ?_) h
      match a with
      | ⟨0, _⟩ =>
        show 0 ≤ (vecDims N E wf).start (ix1 e) idx 0 + (vecDims N E wf).window (ix1 e) 0
          ∧ (vecDims N E wf).start (ix1 e) idx 0 + (vecDims N E wf).window (ix1 e) 0 < (N : Int)
        rw [hs0, hw0]; have := n.isLt; omega

/-- THE VECTOR SCATTER READ AT `n`, for the record `vecDims`: the operand's element plus the sum of the updates `e`
    whose target `idx[e, 0]`, read signed, is `n`. -/
theorem vecDims_scatterAdd_apply {N E w : Nat} {φ : FTy}
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (F := Ideal) (vecDims N E wf) x idx upd (ix1 n)
      = x (ix1 n) + ∑ e ∈ hits idx n, upd (ix1 e) := by
  have hdef : Host.scatterAdd (F := Ideal) (vecDims N E wf) x idx upd
      = Ideal.hostScatterAdd (vecDims N E wf) x idx upd := rfl
  rw [hdef]
  simp only [Ideal.hostScatterAdd]
  congr 1
  rw [Finset.sum_filter, sum_idx1]
  unfold hits
  rw [Finset.sum_filter]
  refine Finset.sum_congr rfl fun e _ => ?_
  simp only [vecDims_resultIdx?_eq_some_iff]

/-- THE VECTOR SCATTER READ AT `n`, for any record with the vector scatter's dimension numbers: the operand's element
    plus the sum of the updates `e` whose target `idx[e, 0]`, read signed, is `n` (an update whose target is outside
    `[0, N)` is dropped). With every update equal to one this counts the rows aimed at `n`. -/
theorem vecScatterAdd_apply {N E w : Nat} {φ : FTy}
    (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (x : FVec Ideal ⟨1, ![N]⟩ φ) (idx : IVec ⟨2, ![E, 1]⟩ w) (upd : FVec Ideal ⟨1, ![E]⟩ φ) (n : Fin N) :
    Host.scatterAdd (F := Ideal) d x idx upd (ix1 n) = x (ix1 n) + ∑ e ∈ hits idx n, upd (ix1 e) := by
  obtain ⟨uw, iw, sd, iv, wf⟩ := d
  simp only at h1 h2 h3 h4
  subst h1 h2 h3 h4
  exact vecDims_scatterAdd_apply wf x idx upd n

end Idealize.ShloMosaic.RowScatter
-- ==== Proof.Spec.lean ====
/-
  A three-layer mean-aggregation graph network on 100000 nodes and 1600000 directed edges, as functions on the
  extended reals.  An edge e carries a source row (the row a gather reads: the source index read as a signed
  integer and clamped into the node range) and lands on the node its target index names (an edge whose target is
  no node lands nowhere).  A layer averages the source rows of the edges landing on a node — their sum divided by
  max(number of such edges, 1) —, multiplies the average by one weight matrix and the node's own row by another,
  adds a bias; the first two layers then normalise per channel, g (h - m) / sqrt(v + eps) + b, and clip below at
  zero; the last takes the logarithm of the softmax along the 64 channels.

  Two arrangements are stated.  The "reciprocal" one multiplies a neighbour sum by the reciprocal 1 / max(deg, 1),
  adds the two matrix products before the bias, and in the last layer multiplies by the weight matrix BEFORE
  summing over the edges.  The "quotient" one divides the neighbour sum, adds the bias before the second product,
  and in the last layer sums over the edges first.  Algebra.lean proves them equal.
-/
import Idealize.ShloMosaic.PureOps.Ideal
import Idealize.ShloMosaic.Lib.ValueIdx
import proofs.«164546_j60851096649749_2_alg».proof.Proof.LibRowScatter

noncomputable section

open scoped BigOperators

namespace Cert.MeanAgg

open Idealize.ShloMosaic Idealize.ShloMosaic.ValueIdx

/-- An [a, b] array of extended reals. -/
abbrev Mat (a b : Nat) : Type := (⟨2, ![a, b]⟩ : Shape).Idx → EReal
/-- An [a] array of extended reals. -/
abbrev Row (a : Nat) : Type := (⟨1, ![a]⟩ : Shape).Idx → EReal
/-- A column of 1600000 integer words, one per edge. -/
abbrev EdgeCol : Type := IVec ⟨2, ![1600000, 1]⟩ 32

/-- The row an edge's source index selects: the index read signed, clamped into [0, 99999]. -/
def srcRow (src : EdgeCol) (e : Fin 1600000) : Fin 100000 :=
  ⟨min (src (ix2 e ⟨0, Nat.one_pos⟩)).toInt.toNat (100000 - 1), by omega⟩

/-- The edges landing on node n. -/
abbrev into (dst : EdgeCol) (n : Fin 100000) : Finset (Fin 1600000) := RowScatter.hits dst n

/-- The number of edges landing on n, summed as ones from zero. -/
def indeg (dst : EdgeCol) (n : Fin 100000) : EReal :=
  Ideal.ofBits .f32 0x00000000#32 + ∑ _e ∈ into dst n, Ideal.ofBits .f32 0x3F800000#32

/-- max(deg n, 1). -/
def degMax (dst : EdgeCol) (n : Fin 100000) : EReal := max (indeg dst n) (Ideal.ofBits .f32 0x3F800000#32)

/-- 1 / max(deg n, 1). -/
def recip (dst : EdgeCol) (n : Fin 100000) : EReal := Ideal.div (Ideal.ofBits .f32 0x3F800000#32) (degMax dst n)

/-- The sum over the edges landing on n of their source rows of f, from zero. -/
def nbrSum {C : Nat} (src dst : EdgeCol) (f : Mat 100000 C) (n : Fin 100000) (c : Fin C) : EReal :=
  Ideal.ofBits .f32 0x00000000#32 + ∑ e ∈ into dst n, f (ix2 (srcRow src e) c)

/-- Normalise channel j and clip below at zero. -/
def normClip (g b m v : Row 128) (h : EReal) (j : Fin 128) : EReal :=
  max ((g (ix1 j) * (h - m (ix1 j))) * Ideal.rsqrt (v (ix1 j) + Ideal.ofBits .f32 0x3727C5AC#32) + b (ix1 j))
    (Ideal.ofBits .f32 0x00000000#32)

/-- Row h's maximum from -infinity, once more against -infinity. -/
def rowTop (h : Fin 64 → EReal) : EReal :=
  max (Ideal.ofBits .f32 0xFF800000#32) (Finset.univ.fold max (Ideal.ofBits .f32 0xFF800000#32) h)

/-- The logarithm of the softmax of a row of 64, at channel c. -/
def logSoftmax (h : Fin 64 → EReal) (c : Fin 64) : EReal :=
  (h c - rowTop h) - Ideal.log (Ideal.ofBits .f32 0x00000000#32 + ∑ c' : Fin 64, Ideal.exp (h c' - rowTop h))

/-! ## The reciprocal arrangement -/

/-- One hidden layer from a neighbour SUM s and the column of reciprocals. -/
def hiddenRecip (s : Mat 100000 128) (inv : Mat 100000 1) (x : Mat 100000 128) (Wl : Mat 128 128) (bl : Row 128)
    (Wr : Mat 128 128) (g b m v : Row 128) (n : Fin 100000) (j : Fin 128) : EReal :=
  normClip g b m v
    (((∑ k : Fin 128, (s (ix2 n k) * inv (ix2 n (0 : Fin 1))) * Wl (ix2 k j)) + ∑ k : Fin 128, x (ix2 n k) * Wr (ix2 k j))
      + bl (ix1 j)) j

/-- The last layer's product with the neighbour weights, before any sum over edges. -/
def projNbr (h : Mat 100000 128) (Wl : Mat 128 64) (n : Fin 100000) (c : Fin 64) : EReal :=
  ∑ k : Fin 128, h (ix2 n k) * Wl (ix2 k c)

/-- The last layer's product with the root weights, plus the bias. -/
def projRoot (h : Mat 100000 128) (Wr : Mat 128 64) (bl : Row 64) (n : Fin 100000) (c : Fin 64) : EReal :=
  (∑ k : Fin 128, h (ix2 n k) * Wr (ix2 k c)) + bl (ix1 c)

/-- The last layer from the neighbour sum s of the projected rows, the reciprocals and the root part r. -/
def outRecip (s : Mat 100000 64) (inv : Mat 100000 1) (r : Mat 100000 64) (n : Fin 100000) (c : Fin 64) : EReal :=
  logSoftmax (fun c' => s (ix2 n c') * inv (ix2 n (0 : Fin 1)) + r (ix2 n c')) c

/-! ## The quotient arrangement -/

/-- One hidden layer from the neighbour MEAN a. -/
def hiddenQuot (a : Mat 100000 128) (x : Mat 100000 128) (Wl : Mat 128 128) (bl : Row 128)
    (Wr : Mat 128 128) (g b m v : Row 128) (n : Fin 100000) (j : Fin 128) : EReal :=
  normClip g b m v
    (((∑ k : Fin 128, a (ix2 n k) * Wl (ix2 k j)) + bl (ix1 j)) + ∑ k : Fin 128, x (ix2 n k) * Wr (ix2 k j)) j

/-- The last layer from the neighbour mean a of the hidden rows h. -/
def outQuot (a : Mat 100000 128) (h : Mat 100000 128) (Wl : Mat 128 64) (bl : Row 64) (Wr : Mat 128 64)
    (n : Fin 100000) (c : Fin 64) : EReal :=
  logSoftmax (fun c' => ((∑ k : Fin 128, a (ix2 n k) * Wl (ix2 k c')) + bl (ix1 c')) + ∑ k : Fin 128, h (ix2 n k) * Wr (ix2 k c')) c

/-- An array from its entries by coordinates. -/
def mat {a b : Nat} (f : Fin a → Fin b → EReal) : Mat a b := fun i => f (i 0) (i 1)

theorem mat_ix2 {a b : Nat} (f : Fin a → Fin b → EReal) (p : Fin a) (q : Fin b) : mat f (ix2 p q) = f p q := rfl

/-- The neighbour mean: the neighbour sum divided by max(deg, 1). -/
def nbrMean {C : Nat} (src dst : EdgeCol) (f : Mat 100000 C) : Mat 100000 C :=
  mat fun n c => Ideal.div (nbrSum src dst f n c) (degMax dst n)

/-- The column of reciprocals as an [N, 1] array. -/
def recipCol (dst : EdgeCol) : Mat 100000 1 := mat fun n _ => recip dst n

/-! ## The two networks whole -/

section Nets
variable (src dst : EdgeCol) (x : Mat 100000 128)
  (Wl0 : Mat 128 128) (bl0 : Row 128) (Wr0 : Mat 128 128) (g0 b0 m0 v0 : Row 128)
  (Wl1 : Mat 128 128) (bl1 : Row 128) (Wr1 : Mat 128 128) (g1 b1 m1 v1 : Row 128)
  (Wl2 : Mat 128 64) (bl2 : Row 64) (Wr2 : Mat 128 64)

/-- First hidden layer, reciprocal arrangement. -/
def hid0Recip : Mat 100000 128 :=
  mat (hiddenRecip (mat (nbrSum src dst x)) (recipCol dst) x Wl0 bl0 Wr0 g0 b0 m0 v0)
/-- Second hidden layer, reciprocal arrangement. -/
def hid1Recip : Mat 100000 128 :=
  mat (hiddenRecip (mat (nbrSum src dst (hid0Recip src dst x Wl0 bl0 Wr0 g0 b0 m0 v0))) (recipCol dst)
    (hid0Recip src dst x Wl0 bl0 Wr0 g0 b0 m0 v0) Wl1 bl1 Wr1 g1 b1 m1 v1)
/-- The network's result, reciprocal arrangement: project, then sum over the edges, then rescale. -/
def netRecip : Mat 100000 64 :=
  mat (outRecip
    (mat (nbrSum src dst (mat (projNbr (hid1Recip src dst x Wl0 bl0 Wr0 g0 b0 m0 v0 Wl1 bl1 Wr1 g1 b1 m1 v1) Wl2))))
    (recipCol dst)
    (mat (projRoot (hid1Recip src dst x Wl0 bl0 Wr0 g0 b0 m0 v0 Wl1 bl1 Wr1 g1 b1 m1 v1) Wr2 bl2)))

/-- First hidden layer, quotient arrangement. -/
def hid0Quot : Mat 100000 128 :=
  mat (hiddenQuot (nbrMean src dst x) x Wl0 bl0 Wr0 g0 b0 m0 v0)
/-- Second hidden layer, quotient arrangement. -/
def hid1Quot : Mat 100000 128 :=
  mat (hiddenQuot (nbrMean src dst (hid0Quot src dst x Wl0 bl0 Wr0 g0 b0 m0 v0))
    (hid0Quot src dst x Wl0 bl0 Wr0 g0 b0 m0 v0) Wl1 bl1 Wr1 g1 b1 m1 v1)
/-- The network's result, quotient arrangement. -/
def netQuot : Mat 100000 64 :=
  mat (outQuot (nbrMean src dst (hid1Quot src dst x Wl0 bl0 Wr0 g0 b0 m0 v0 Wl1 bl1 Wr1 g1 b1 m1 v1))
    (hid1Quot src dst x Wl0 bl0 Wr0 g0 b0 m0 v0 Wl1 bl1 Wr1 g1 b1 m1 v1) Wl2 bl2 Wr2)

end Nets

end Cert.MeanAgg

end
-- ==== Proof.LibScaledSum.lean ====
/-
  Scaling a finite sum over the extended reals by a non-negative real.

  Multiplication does not distribute over addition on all of the extended reals (`⊤ · (1 + (−1))` is `0`, while
  `⊤ · 1 + ⊤ · (−1)` is `⊤ + ⊥ = ⊥`), but it does when the factor is a non-negative real: then `q · (y + z) = q · y + q · z`
  for every `y`, `z`, and so `q · Σ f = Σ q · f` over any finite index set, by induction on the set.
-/
import Mathlib.Data.EReal.Operations
import Mathlib.Algebra.BigOperators.Group.Finset.Basic

open scoped BigOperators

namespace Idealize.ShloMosaic.ScaledSum

/-- A non-negative real factor moves inside a finite sum of extended reals. -/
theorem coe_mul_sum {ι : Type*} [DecidableEq ι] (s : Finset ι) (q : ℝ) (hq : 0 ≤ q) (f : ι → EReal) :
    (q : EReal) * ∑ i ∈ s, f i = ∑ i ∈ s, (q : EReal) * f i := by
  induction s using Finset.induction_on with
  | empty => simp
  | insert a s ha ih =>
    rw [Finset.sum_insert ha, Finset.sum_insert ha,
      EReal.left_distrib_of_nonneg_of_ne_top (EReal.coe_nonneg.mpr hq) (EReal.coe_ne_top q), ih]

/-- The same for a factor known to be a non-negative real. -/
theorem mul_sum_of_nonneg_real {ι : Type*} [DecidableEq ι] (s : Finset ι) (x : EReal)
    (hx : ∃ q : ℝ, 0 ≤ q ∧ x = (q : EReal)) (f : ι → EReal) :
    x * ∑ i ∈ s, f i = ∑ i ∈ s, x * f i := by
  obtain ⟨q, hq, rfl⟩ := hx
  exact coe_mul_sum s q hq f

end Idealize.ShloMosaic.ScaledSum
-- ==== Proof.Algebra.lean ====
/-
  The two arrangements of the mean-aggregation network are one function on the extended reals.

  * max(deg, 1) is a real number at least 1, so multiplying by its reciprocal and dividing by it agree on every
    extended real, the infinities included.
  * The two hidden layers differ by that and by the order of three summands.
  * In the last layer the reciprocal arrangement multiplies by the neighbour weights before summing over the edges
    landing on a node.  A hidden row is clipped below at zero, so its entries lie in [0, +inf]; on such entries the
    product distributes over the sum over the edges whatever the weight (no cancellation of infinities of opposite
    sign can occur inside one sum of non-negative terms), and a non-negative real factor moves through any finite sum.
-/
import Idealize.ShloMosaic.Lib.IdealHost
import proofs.«164546_j60851096649749_2_alg».proof.Proof.Spec
import proofs.«164546_j60851096649749_2_alg».proof.Proof.LibScaledSum

noncomputable section

open scoped BigOperators

namespace Cert.MeanAgg

open Idealize.ShloMosaic Idealize.ShloMosaic.ValueIdx

theorem zero_word : Ideal.ofBits .f32 0x00000000#32 = 0 := Ideal.ofBits_zero_f32
theorem one_word : Ideal.ofBits .f32 0x3F800000#32 = 1 := Ideal.ofBits_one_f32

/-- The number of edges landing on a node is that natural number. -/
theorem indeg_eq (dst : EdgeCol) (n : Fin 100000) : indeg dst n = (((into dst n).card : ℝ) : EReal) := by
  unfold indeg
  rw [zero_word, one_word, zero_add, Finset.sum_const, nsmul_one, EReal.coe_natCast]

/-- max(deg, 1) is a real number, at least 1. -/
theorem degMax_eq (dst : EdgeCol) (n : Fin 100000) :
    degMax dst n = ((max ((into dst n).card : ℝ) 1 : ℝ) : EReal) := by
  unfold degMax
  rw [indeg_eq, one_word]
  exact (EReal.coe_strictMono.monotone.map_max (a := ((into dst n).card : ℝ)) (b := (1 : ℝ))).symm

theorem degMax_ne (dst : EdgeCol) (n : Fin 100000) : max ((into dst n).card : ℝ) 1 ≠ 0 :=
  (lt_of_lt_of_le one_pos (le_max_right _ _)).ne'

/-- The reciprocal is the real 1 / max(deg, 1), which is not negative. -/
theorem recip_eq (dst : EdgeCol) (n : Fin 100000) :
    recip dst n = ((1 / max ((into dst n).card : ℝ) 1 : ℝ) : EReal) := by
  unfold recip
  rw [degMax_eq, Ideal.div_coe (degMax_ne dst n), one_word, one_mul]

theorem recip_nonneg (dst : EdgeCol) (n : Fin 100000) : (0 : ℝ) ≤ 1 / max ((into dst n).card : ℝ) 1 :=
  div_nonneg zero_le_one (le_trans zero_le_one (le_max_right _ _))

/-- Multiplying by the reciprocal is dividing by max(deg, 1), on every extended real. -/
theorem mul_recip (dst : EdgeCol) (n : Fin 100000) (s : EReal) :
    s * recip dst n = Ideal.div s (degMax dst n) := by
  rw [recip_eq, degMax_eq, Ideal.div_coe (degMax_ne dst n)]

/-- A product distributes over a finite sum of non-negative extended reals, whatever the factor. -/
theorem sum_mul_of_nonneg {ι : Type*} [DecidableEq ι] (s : Finset ι) (a : ι → EReal) (ha : ∀ i, 0 ≤ a i) (w : EReal) :
    (∑ i ∈ s, a i) * w = ∑ i ∈ s, a i * w := by
  induction s using Finset.induction_on with
  | empty => simp
  | insert i s hi ih =>
    rw [Finset.sum_insert hi, Finset.sum_insert hi,
      EReal.right_distrib_of_nonneg (ha i) (Finset.sum_nonneg fun j _ => ha j), ih]

/-! ## The hidden layers -/

theorem hidden_eq {src dst : EdgeCol} (f x : Mat 100000 128) (Wl : Mat 128 128) (bl : Row 128) (Wr : Mat 128 128)
    (g b m v : Row 128) (n : Fin 100000) (j : Fin 128) :
    hiddenRecip (mat (nbrSum src dst f)) (recipCol dst) x Wl bl Wr g b m v n j
      = hiddenQuot (nbrMean src dst f) x Wl bl Wr g b m v n j := by
  unfold hiddenRecip hiddenQuot
  refine congrArg (fun h => normClip g b m v h j) ?_
  rw [add_right_comm]
  refine congrArg (fun s => s + bl (ix1 j) + ∑ k : Fin 128, x (ix2 n k) * Wr (ix2 k j)) ?_
  refine Finset.sum_congr rfl fun k _ => ?_
  rw [show recipCol dst (ix2 n (0 : Fin 1)) = recip dst n from rfl,
    show mat (nbrSum src dst f) (ix2 n k) = nbrSum src dst f n k from rfl, mul_recip]
  rfl

section Nets
variable (src dst : EdgeCol) (x : Mat 100000 128)
  (Wl0 : Mat 128 128) (bl0 : Row 128) (Wr0 : Mat 128 128) (g0 b0 m0 v0 : Row 128)
  (Wl1 : Mat 128 128) (bl1 : Row 128) (Wr1 : Mat 128 128) (g1 b1 m1 v1 : Row 128)
  (Wl2 : Mat 128 64) (bl2 : Row 64) (Wr2 : Mat 128 64)

theorem hid0_eq : hid0Recip src dst x Wl0 bl0 Wr0 g0 b0 m0 v0 = hid0Quot src dst x Wl0 bl0 Wr0 g0 b0 m0 v0 := by
  unfold hid0Recip hid0Quot
  exact congrArg mat (funext fun n => funext fun j => hidden_eq x x Wl0 bl0 Wr0 g0 b0 m0 v0 n j)

theorem hid1_eq : hid1Recip src dst x Wl0 bl0 Wr0 g0 b0 m0 v0 Wl1 bl1 Wr1 g1 b1 m1 v1
    = hid1Quot src dst x Wl0 bl0 Wr0 g0 b0 m0 v0 Wl1 bl1 Wr1 g1 b1 m1 v1 := by
  unfold hid1Recip hid1Quot
  rw [hid0_eq]
  exact congrArg mat (funext fun n => funext fun j => hidden_eq _ _ Wl1 bl1 Wr1 g1 b1 m1 v1 n j)

/-- A hidden row's entries are not negative: the layer ends by clipping below at zero. -/
theorem hid1Quot_nonneg (i : (⟨2, ![100000, 128]⟩ : Shape).Idx) :
    0 ≤ hid1Quot src dst x Wl0 bl0 Wr0 g0 b0 m0 v0 Wl1 bl1 Wr1 g1 b1 m1 v1 i := by
  unfold hid1Quot mat hiddenQuot normClip
  rw [zero_word]
  exact le_max_right _ _

end Nets

/-! ## The last layer: project then sum, against sum then project -/

theorem project_commute (src dst : EdgeCol) (h : Mat 100000 128) (hh : ∀ i, 0 ≤ h i) (Wl : Mat 128 64)
    (n : Fin 100000) (c : Fin 64) :
    nbrSum src dst (mat (projNbr h Wl)) n c * recip dst n
      = ∑ k : Fin 128, nbrMean src dst h (ix2 n k) * Wl (ix2 k c) := by
  have hr := recip_eq dst n
  have hq := recip_nonneg dst n
  set q : ℝ := 1 / max ((into dst n).card : ℝ) 1 with hqdef
  -- the right side, entry by entry: (sum over edges) / max(deg, 1) = q * (sum over edges)
  have hmean : ∀ k : Fin 128, nbrMean src dst h (ix2 n k) = ∑ e ∈ into dst n, (q : EReal) * h (ix2 (srcRow src e) k) := by
    intro k
    show Ideal.div (nbrSum src dst h n k) (degMax dst n) = _
    rw [← mul_recip, hr, mul_comm, nbrSum, zero_word, zero_add, ScaledSum.coe_mul_sum _ q hq]
  have hnn : ∀ k : Fin 128, ∀ e : Fin 1600000, 0 ≤ (q : EReal) * h (ix2 (srcRow src e) k) := fun k e =>
    mul_nonneg (by exact_mod_cast hq) (hh _)
  simp only [hmean]
  rw [hr, mul_comm, nbrSum, zero_word, zero_add, ScaledSum.coe_mul_sum _ q hq]
  simp only [sum_mul_of_nonneg _ _ (hnn _)]
  rw [Finset.sum_comm]
  refine Finset.sum_congr rfl fun e _ => ?_
  show (q : EReal) * projNbr h Wl (srcRow src e) c = _
  unfold projNbr
  rw [ScaledSum.coe_mul_sum _ q hq]
  exact Finset.sum_congr rfl fun k _ => (mul_assoc _ _ _).symm

section Nets
variable (src dst : EdgeCol) (x : Mat 100000 128)
  (Wl0 : Mat 128 128) (bl0 : Row 128) (Wr0 : Mat 128 128) (g0 b0 m0 v0 : Row 128)
  (Wl1 : Mat 128 128) (bl1 : Row 128) (Wr1 : Mat 128 128) (g1 b1 m1 v1 : Row 128)
  (Wl2 : Mat 128 64) (bl2 : Row 64) (Wr2 : Mat 128 64)

/-- The two arrangements of the whole network agree at every entry. -/
theorem net_eq : netRecip src dst x Wl0 bl0 Wr0 g0 b0 m0 v0 Wl1 bl1 Wr1 g1 b1 m1 v1 Wl2 bl2 Wr2
    = netQuot src dst x Wl0 bl0 Wr0 g0 b0 m0 v0 Wl1 bl1 Wr1 g1 b1 m1 v1 Wl2 bl2 Wr2 := by
  unfold netRecip netQuot
  rw [hid1_eq]
  refine congrArg mat (funext fun n => funext fun c => ?_)
  unfold outRecip outQuot
  refine congrArg (fun f => logSoftmax f c) (funext fun c' => ?_)
  rw [show recipCol dst (ix2 n (0 : Fin 1)) = recip dst n from rfl,
    show mat (nbrSum src dst (mat (projNbr (hid1Quot src dst x Wl0 bl0 Wr0 g0 b0 m0 v0 Wl1 bl1 Wr1 g1 b1 m1 v1) Wl2))) (ix2 n c')
      = nbrSum src dst (mat (projNbr (hid1Quot src dst x Wl0 bl0 Wr0 g0 b0 m0 v0 Wl1 bl1 Wr1 g1 b1 m1 v1) Wl2)) n c' from rfl,
    project_commute src dst _ (hid1Quot_nonneg src dst x Wl0 bl0 Wr0 g0 b0 m0 v0 Wl1 bl1 Wr1 g1 b1 m1 v1) Wl2 n c']
  show _ + projRoot _ Wr2 bl2 n c' = _
  unfold projRoot
  rw [add_right_comm, add_assoc]

end Nets

end Cert.MeanAgg

end
-- ==== Proof.LibPlainDot.lean ====
/-
  A plain matrix product's contraction sum, read at an index.

  For the dimension numbers of an `[M, K] × [K, N] → [M, N]` product — the left operand contracted on its second
  axis, the right on its first, no batch axis — the contraction index has one coordinate, ranging over `Fin K`; at the
  result index `(r, c)` and contraction position `k` the left operand is read at `(r, k)` and the right at `(k, c)`.
  So a sum over the contraction index of any function of the two operand indices is the sum over `k : Fin K` of that
  function at `(r, k)` and `(k, c)`. Both a kernel's matrix unit product into a zero accumulator and the host's
  `dot_general` are such sums over the extended reals (of the products of the operands' entries), so this is the one
  re-indexing either needs.
-/
import Idealize.ShloMosaic.PureOps.Dims
import Idealize.ShloMosaic.Lib.ValueIdx

namespace Idealize.ShloMosaic.PlainDot

open Idealize.ShloMosaic Idealize.ShloMosaic.ValueIdx

/-- The left operand's index at result index `(r, c)` and contraction position `k` is `(r, k)`, the right operand's
    `(k, c)`, for any record with the plain product's dimension numbers; `e` is the bijection between the contraction
    index and `Fin K`. -/
theorem plain_idx {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (r : Fin M) (c : Fin N) (k : Fin K) :
    d.lhsIdx (ix2 r c) ((contrEquiv1 d K hr hs).symm k) = ix2 r k
      ∧ d.rhsIdx (ix2 r c) ((contrEquiv1 d K hr hs).symm k) = ix2 k c := by
  constructor
  · funext a
    refine Fin.ext ?_
    match a with
    | ⟨0, _⟩ =>
      show (d.lhsIdx (ix2 r c) ((contrEquiv1 d K hr hs).symm k) 0).val = r.val
      unfold DotDims.lhsIdx
      rw [dif_neg (by rw [h5]; exact List.not_mem_nil), dif_pos (by rw [h3]; exact List.mem_singleton.mpr rfl)]
      simp only [Fin.val_cast]
      have key : ∀ (p q : Nat) (hp : p < 2) (hq : q < 2), p = q →
          ((ix2 r c : (⟨2, ![M, N]⟩ : Shape).Idx) ⟨p, hp⟩).val = ((ix2 r c : (⟨2, ![M, N]⟩ : Shape).Idx) ⟨q, hq⟩).val :=
        fun p q hp hq h => by subst h; rfl
      exact key _ 0 _ (by decide) (by simp [h5, h3])
    | ⟨1, _⟩ =>
      show (d.lhsIdx (ix2 r c) ((contrEquiv1 d K hr hs).symm k) 1).val = k.val
      rw [d.lhsIdx_val_of_single h1]
      exact contrEquiv1_symm_val d K hr hs k
  · funext a
    refine Fin.ext ?_
    match a with
    | ⟨0, _⟩ =>
      show (d.rhsIdx (ix2 r c) ((contrEquiv1 d K hr hs).symm k) 0).val = k.val
      rw [d.rhsIdx_val_of_single h2]
      exact contrEquiv1_symm_val d K hr hs k
    | ⟨1, _⟩ =>
      show (d.rhsIdx (ix2 r c) ((contrEquiv1 d K hr hs).symm k) 1).val = c.val
      unfold DotDims.rhsIdx
      rw [dif_neg (by rw [h6]; exact List.not_mem_nil), dif_pos (by rw [h4]; exact List.mem_singleton.mpr rfl)]
      simp only [Fin.val_cast]
      have key : ∀ (p q : Nat) (hp : p < 2) (hq : q < 2), p = q →
          ((ix2 r c : (⟨2, ![M, N]⟩ : Shape).Idx) ⟨p, hp⟩).val = ((ix2 r c : (⟨2, ![M, N]⟩ : Shape).Idx) ⟨q, hq⟩).val :=
        fun p q hp hq h => by subst h; rfl
      exact key _ 1 _ (by decide) (by simp [h5, h3, h4])

/-- THE CONTRACTION SUM OF A PLAIN PRODUCT at `(r, c)`: the sum over `k : Fin K` at the operand indices `(r, k)` and
    `(k, c)`, in any commutative additive monoid. -/
theorem plain_sum {β : Type*} [AddCommMonoid β] {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K)
    (f : (⟨2, ![M, K]⟩ : Shape).Idx → (⟨2, ![K, N]⟩ : Shape).Idx → β) (r : Fin M) (c : Fin N) :
    ∑ q : d.contr.Idx, f (d.lhsIdx (ix2 r c) q) (d.rhsIdx (ix2 r c) q) = ∑ k : Fin K, f (ix2 r k) (ix2 k c) := by
  rw [← Equiv.sum_comp (contrEquiv1 d K hr hs).symm]
  refine Finset.sum_congr rfl fun k _ => ?_
  obtain ⟨hl, hr'⟩ := plain_idx d h1 h2 h3 h4 h5 h6 hr hs r c k
  rw [hl, hr']

end Idealize.ShloMosaic.PlainDot
-- ==== Proof.LibRowsTimes.lean ====
/-
  A plain matrix product over the extended reals, as one function of its two operands.

  `rowsTimes x w` is the array whose entry `(r, c)` is the sum over `k` of `x (r, k) · w (k, c)`. Both the matrix unit's
  product into a zero accumulator and the host's `dot_general` ARE this function when their dimension numbers are the plain
  product's (the left operand contracted on its second axis, the right on its first, no batch axis): each is by definition
  the sum, over the contraction index, of the products of the operands' entries at the record's operand indices, and that
  sum is re-indexed by `k : Fin K` (`PlainDot.plain_sum`). Nothing here uses finiteness: the two sides are the same sum of
  the same products, term by term.
-/
import proofs.«164546_j60851096649749_2_alg».proof.Proof.LibPlainDot
import Idealize.ShloMosaic.PureOps.Ideal.Laws

noncomputable section

namespace Idealize.ShloMosaic.RowsTimes

open Idealize.ShloMosaic Idealize.ShloMosaic.ValueIdx

/-- Entry `(r, c)` is the sum over `k` of `x (r, k) · w (k, c)`. -/
def rowsTimes {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem rowsTimes_apply {M K N : Nat} (x : (⟨2, ![M, K]⟩ : Shape).Idx → EReal) (w : (⟨2, ![K, N]⟩ : Shape).Idx → EReal)
    (r : Fin M) (c : Fin N) : rowsTimes x w (ix2 r c) = ∑ k : Fin K, x (ix2 r k) * w (ix2 k c) := rfl

/-- The matrix unit's product into the zero accumulator, at an entry: the plain sum of products. -/
theorem matmul_zero_apply {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (prec : Option ContractPrecision)
    (x : FVec Ideal ⟨2, ![M, K]⟩ φ₁) (w : FVec Ideal ⟨2, ![K, N]⟩ φ₂) (r : Fin M) (c : Fin N) :
    FloatOps.matmul d prec x w (constant ⟨2, ![M, N]⟩ .f32 0x00000000#32) (ix2 r c)
      = ∑ k : Fin K, x (ix2 r k) * w (ix2 k c) :=
  (Ideal.matmul_constant_zero_apply d prec x w (ix2 r c)).trans
    (PlainDot.plain_sum d h1 h2 h3 h4 h5 h6 hr hs (fun i j => x i * w j) r c)

/-- The host's `dot_general` of a plain product IS `rowsTimes` of its operands. -/
theorem hostDot_eq {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (prec : Option ContractPrecision)
    (x : FVec Ideal ⟨2, ![M, K]⟩ φ₁) (w : FVec Ideal ⟨2, ![K, N]⟩ φ₂) :
    Host.dotGeneral (F := Ideal) d prec x w = rowsTimes x w := by
  funext i
  obtain ⟨r, c, rfl⟩ : ∃ (r : Fin M) (c : Fin N), i = ix2 r c := ⟨i 0, i 1, eq_ix2 i⟩
  unfold Host.dotGeneral
  rw [Ideal.dotGeneral_apply]
  exact PlainDot.plain_sum d h1 h2 h3 h4 h5 h6 hr hs (fun i j => x i * w j) r c

end Idealize.ShloMosaic.RowsTimes

end
-- ==== Proof.LibPairStack.lean ====
/-
  Casts and broadcasts between a matrix, a stack of its rows, and the flattened stack, read at an index.

  A kernel that scores every pair `(i, j)` of rows builds, from an `[a, c]` and a `[b, c]` matrix, the `[a, b, c]` stack of
  their pairwise row combinations — each matrix gets a unit axis and is broadcast along it —, flattens the pair axes into
  one (`[a·b, c]`: the pair `(i, j)` becomes row `i·b + j`) for a matrix product, and unflattens the result.  Each lemma
  reads one of these re-layouts at an index written by coordinates: a cast keeps the row-major position, a broadcast
  reads the operand at `0` on its unit axes.  Also: a `[1, 1]` array broadcast to a matrix, and the index a reduction
  over the last axis of a rank-3 array sums over.
-/
import Idealize.ShloMosaic.Lib.ValueIdx
import Idealize.ShloMosaic.Lib.Pipeline.Value
import Idealize.ShloMosaic.PureOps.Reduce

namespace Idealize.ShloMosaic.PairStack

open Idealize.ShloMosaic Idealize.ShloMosaic.ValueIdx

variable {α : Type}

/-- An `[a, c]` matrix cast to `[a, 1, c]` reads, at `(i, u, k)`, the matrix at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, 1, c]` stack broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` stack broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A `[1, 1, c]` row broadcast to `[a, b, c]` reads, at `(i, j, k)`, the row at `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- THE FLATTENING: an `[a, b, c]` stack cast to `[n, c]` reads, at row `r = i·b + j` and column `k`, the stack at `(i, j, k)`. -/
theorem shapeCast_abc_nc_apply {a b c n : ℕ} (x : (⟨3, ![a, b, c]⟩ : Shape).Idx → α)
    (h : (⟨3, ![a, b, c]⟩ : Shape).ShapeCasts ⟨2, ![n, c]⟩) (r : Fin n) (k : Fin c) (i : Fin a) (j : Fin b)
    (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- THE UNFLATTENING: an `[n, c]` matrix cast to `[a, b, c]` reads, at `(i, j, k)`, the matrix at row `r = i·b + j`, column `k`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) :
    shapeCast ⟨3, ![a, b, c]⟩ x h (ix3 i j k) = x (ix2 r k) :=
  shapeCast_apply x h _ _ (by
    rw [Shape.rowMajor_val_three, Shape.rowMajor_val_two]
    show r.val * c + k.val = (i.val * b + j.val) * c + k.val
    rw [hr])

/-- A `[1, 1]` array broadcast to `[a, b]` reads its one entry everywhere. -/
theorem broadcastTo_11_ab_apply {a b : ℕ} (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

/-- The source index a reduction over the LAST axis of an `[a, b, c]` array sums over at result index `(i, j)`: `(i, j, k)`. -/
theorem lift_last {a b c : ℕ} (h : (⟨3, ![a, b, c]⟩ : Shape).Reduces [2] (⟨2, ![a, b]⟩ : Shape)) (i : Fin a) (j : Fin b)
    (k : Fin ((⟨3, ![a, b, c]⟩ : Shape).size 2)) : h.lift (ix2 i j) k = ix3 i j (⟨k.val, k.isLt⟩ : Fin c) := by
  funext d; apply Fin.ext
  fin_cases d <;> rfl

end Idealize.ShloMosaic.PairStack
-- ==== Proof.LibColumnBroadcast.lean ====
/-
  A column broadcast along the rows of a matrix, read at an index.

  A vector kept as an `[a, 1]` column (one entry per row) and broadcast to `[a, b]` repeats each row's entry across
  that row: at `(p, c)` the result is the column's entry of row `p`, whatever the column `c`. This is the form a
  per-row scale, bias or divisor takes before it meets an `[a, b]` matrix elementwise.
-/
import Idealize.ShloMosaic.Lib.ValueLayout

namespace Idealize.ShloMosaic.ValueIdx

open Idealize.ShloMosaic

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibKeepdimsSum.lean ====
/-
  A row sum kept as a column, read at an index.

  `jnp.sum(x, axis=-1, keepdims=True)` of an `[a, b]` matrix is computed as a sum along the last axis into an `[a]`
  vector, which a shape cast then stands up as an `[a, 1]` column. Over the extended reals the sum from the zero
  accumulator is the plain finite sum of the row, so the column's entry at `(p, 0)` is Σ_k x[p, k].
-/
import Idealize.ShloMosaic.Lib.ValueLayout
import Idealize.ShloMosaic.PureOps.Ideal.Laws

namespace Cert.KeepdimsSum

open Idealize.ShloMosaic Idealize.ShloMosaic.ValueIdx

variable {α : Type}

/-- An `[a]` vector cast to an `[a, 1]` column reads, at `(p, u)`, the vector's entry `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A float sum along the last axis of an `[a, b]` matrix from the zero accumulator, read over the extended reals:
    entry `p` of the result is the finite sum of row `p`. -/
theorem rowSum_apply {a b : ℕ} (src : FVec Ideal (⟨2, ![a, b]⟩ : Shape) .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun c => Fin.ext ?_)
  match c with
  | ⟨0, _⟩ => rfl
  | ⟨1, _⟩ => rfl

/-- The same sum kept as an `[a, 1]` column: its entry at `(p, u)` is the finite sum of row `p`. -/
theorem rowSum_column_apply {a b : ℕ} (src : FVec Ideal (⟨2, ![a, b]⟩ : Shape) .f32)
    (h : (⟨2, ![a, b]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (p : Fin a) (u : Fin 1) :
    shapeCast ⟨2, ![a, 1]⟩ (multiReduction .add [1] ⟨1, ![a]⟩ src 0x00000000#32 h hφ hacc) hc (ix2 p u)
      = ∑ k : Fin b, src (ix2 p k) :=
  (shapeCast_a_a1_apply _ hc p u).trans (rowSum_apply src h hφ hacc p)

end Cert.KeepdimsSum
-- ==== Proof.LibChannelRows.lean ====
/-
  Per-channel and per-row vectors met with a matrix or an image, read at an index; and a row's maximum.

  A vector of per-channel parameters (a bias, a mean, a scale) meets an `[m, n]` matrix or an `[a, b, n]` image after
  it is given unit axes in front and broadcast along them: at every row, or pixel, the result reads the vector at the
  channel. A vector of per-row values (a row's maximum, a row's sum) meets an `[a, b]` matrix after it is stood up as an
  `[a, 1]` column and broadcast across the columns: at `(p, c)` the result reads the vector at the row `p`. And over
  the extended reals the maximum along the last axis of an `[a, b]` matrix, taken from the accumulator word of −∞, is
  at row `p` the fold of `max` over the row's entries from that word's value.
-/
import Idealize.ShloMosaic.Lib.ValueLayout
import Idealize.ShloMosaic.PureOps.Ideal.Laws
import proofs.«164546_j60851096649749_2_alg».proof.Proof.LibPairStack
import proofs.«164546_j60851096649749_2_alg».proof.Proof.LibColumnBroadcast
import proofs.«164546_j60851096649749_2_alg».proof.Proof.LibKeepdimsSum

namespace Cert.ChannelRows

open Idealize.ShloMosaic Idealize.ShloMosaic.ValueIdx

variable {α : Type}

/-- An `[a]` vector cast to `[1, 1, a]` reads, at `(u, v, i)`, the vector's entry `i`. -/
theorem shapeCast_a_11a_apply {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]
    simp)

/-- A per-channel vector given two unit axes and broadcast over an `[a, b, n]` image reads, at every pixel, the
    vector at the channel. -/
theorem channel_over_image_apply {a b n : ℕ} (x : (⟨1, ![n]⟩ : Shape).Idx → α)
    (hc : (⟨1, ![n]⟩ : Shape).ShapeCasts ⟨3, ![1, 1, n]⟩) (hb : (⟨3, ![1, 1, n]⟩ : Shape).Broadcasts ⟨3, ![a, b, n]⟩)
    (i : Fin a) (j : Fin b) (k : Fin n) :
    broadcastTo ⟨3, ![a, b, n]⟩ (shapeCast ⟨3, ![1, 1, n]⟩ x hc) hb (ix3 i j k) = x (ix1 k) :=
  (PairStack.broadcastTo_11c_abc_apply _ hb i j k).trans (shapeCast_a_11a_apply x hc 0 0 k)

/-- A `[1, 1, n]` row broadcast over an `[a, b, n]` image, when the row's entries are known. -/
theorem row_over_image_apply {a b n : ℕ} (v : (⟨3, ![1, 1, n]⟩ : Shape).Idx → α)
    (hb : (⟨3, ![1, 1, n]⟩ : Shape).Broadcasts ⟨3, ![a, b, n]⟩) (i : Fin a) (j : Fin b) (k : Fin n) :
    broadcastTo ⟨3, ![a, b, n]⟩ v hb (ix3 i j k) = v (ix3 (0 : Fin 1) (0 : Fin 1) k) :=
  PairStack.broadcastTo_11c_abc_apply v hb i j k

/-- A per-channel vector given one unit axis and broadcast down the rows of an `[m, n]` matrix reads, at every row,
    the vector at the column. -/
theorem channel_over_rows_apply {m n : ℕ} (x : (⟨1, ![n]⟩ : Shape).Idx → α)
    (hc : (⟨1, ![n]⟩ : Shape).ShapeCasts ⟨2, ![1, n]⟩) (hb : (⟨2, ![1, n]⟩ : Shape).Broadcasts ⟨2, ![m, n]⟩)
    (p : Fin m) (c : Fin n) :
    broadcastTo ⟨2, ![m, n]⟩ (shapeCast ⟨2, ![1, n]⟩ x hc) hb (ix2 p c) = x (ix1 c) :=
  (broadcastTo_1b_ab_apply _ hb p c).trans (shapeCast_a_1a_apply x hc 0 c)

/-- A per-row vector stood up as a column and broadcast across the columns of an `[a, b]` matrix reads, at `(p, c)`,
    the vector at the row. -/
theorem row_value_over_columns_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x hc) hb (ix2 p c) = x (ix1 p) :=
  (broadcastTo_a1_ab_apply _ hb p c).trans (Cert.KeepdimsSum.shapeCast_a_a1_apply x hc p 0)

/-- Over the extended reals, the maximum along the last axis of an `[a, b]` matrix from the accumulator word of −∞:
    entry `p` is the fold of `max`, from that word's value, over the entries of row `p`. -/
theorem rowMax_apply {a b : ℕ} (src : FVec Ideal (⟨2, ![a, b]⟩ : Shape) .f32)
    (h : (⟨2, ![a, b]⟩ : Shape).Reduces [1] ⟨1, ![a]⟩) (hφ : FKind.Formats .f32)
    (hacc : (0xFF800000#32 : BitVec 32) = FKind.maximumf.neutral .f32 hφ) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) := by
  refine (Ideal.multiReduction_maximumf_single src 0xFF800000#32 h hφ hacc (ix1 p)).trans ?_
  refine congrArg (fun g : Fin b → EReal => (Finset.univ : Finset (Fin b)).fold max (Ideal.ofBits .f32 0xFF800000#32) g)
    (funext fun k => congrArg src (funext fun c => Fin.ext ?_))
  match c with
  | ⟨0, _⟩ => rfl
  | ⟨1, _⟩ => rfl

end Cert.ChannelRows
-- ==== Proof.RegionHiddenBody.lean ====
/-
  The arithmetic of one hidden layer's body at one entry of a row block.

  The body reads a block of 4000 rows of the neighbour sums s, the same rows of the column of reciprocals inv and of
  the nodes' own rows x, the two whole weight matrices and the five per-channel vectors, and stores ONE block: at
  row p and channel q,

      max ( g q * ((sum_k (s(p,k) * inv(p,0)) * Wl(k,q) + sum_k x(p,k) * Wr(k,q)) + bl q - m q)
              * rsqrt (v q + eps) + b q , 0 ).

  Every step is read at the entry: the products of the matrix unit into a zero accumulator are the plain sums over the
  128 contracted positions; the column inv is repeated across a row, each per-channel vector down the rows; the changes
  of float format are the identity over the extended reals.  The second hidden layer's body is the same text over a
  block of x kept in the narrower format, which changes nothing here.
-/
import proofs.«164546_j60851096649749_2_alg».proof.Proof.Gen.KernelIdeal.Skeleton
import proofs.«164546_j60851096649749_2_alg».proof.Proof.Spec
import proofs.«164546_j60851096649749_2_alg».proof.Proof.LibRowsTimes
import proofs.«164546_j60851096649749_2_alg».proof.Proof.LibChannelRows
import proofs.«164546_j60851096649749_2_alg».proof.Proof.LibColumnBroadcast
import Idealize.ShloMosaic.Lib.Pipeline.Value

noncomputable section

open scoped BigOperators

namespace Cert.MeanAgg.Kernel

open Idealize.ShloMosaic Idealize.ShloMosaic.ValueIdx Cert.KernelIdeal Cert.KernelIdeal.Gen Cert.MeanAgg

/-- The scaled neighbour block times the neighbour weights, at (p, q): the column of reciprocals is read at row p. -/
theorem scaled_times_apply {φ : FTy} (s : FVec Ideal S4000x128 .f32) (inv : FVec Ideal S4000x1 .f32) (Wl : FVec Ideal S128x128 φ)
    (hs : S4000x128.ShapeCasts S4000x128) (hi : S4000x1.ShapeCasts S4000x1) (hb : S4000x1.Broadcasts S4000x128)
    (ht : FTy.bits .bf16 < FTy.bits .f32) (p : Fin 4000) (q : Fin 128) :
    matmul dot_S4000x128_S128x128_S4000x128_1_0_0_1_n_n none
        (truncf .bf16 (mulf (shapeCast S4000x128 s hs) (broadcastTo S4000x128 (shapeCast S4000x1 inv hi) hb)) ht) Wl
        (constant S4000x128 .f32 0x00000000#32) (ix2 p q)
      = ∑ k : Fin 128, (s (ix2 p k) * inv (ix2 p (0 : Fin 1))) * Wl (ix2 k q) := by
  refine (RowsTimes.matmul_zero_apply dot_S4000x128_S128x128_S4000x128_1_0_0_1_n_n rfl rfl rfl rfl rfl rfl rfl rfl none _ Wl p q).trans ?_
  refine Finset.sum_congr rfl fun k _ => ?_
  refine congrArg (· * Wl (ix2 k q)) ?_
  show shapeCast S4000x128 s hs (ix2 p k) * broadcastTo S4000x128 (shapeCast S4000x1 inv hi) hb (ix2 p k) = _
  rw [shapeCast_self, broadcastTo_a1_ab_apply, shapeCast_self]

/-- The nodes' own block times the root weights, at (p, q). -/
theorem own_times_apply {φ₁ φ₂ : FTy} (x : FVec Ideal S4000x128 φ₁) (Wr : FVec Ideal S128x128 φ₂) (p : Fin 4000) (q : Fin 128) :
    matmul dot_S4000x128_S128x128_S4000x128_1_0_0_1_n_n none x Wr (constant S4000x128 .f32 0x00000000#32) (ix2 p q)
      = ∑ k : Fin 128, x (ix2 p k) * Wr (ix2 k q) :=
  RowsTimes.matmul_zero_apply dot_S4000x128_S128x128_S4000x128_1_0_0_1_n_n rfl rfl rfl rfl rfl rfl rfl rfl none x Wr p q

/-- A per-channel vector laid along the rows of a block, at (p, q). -/
theorem channel_apply (u : FVec Ideal S128 .f32) (hc : S128.ShapeCasts S1x128) (hb : S1x128.Broadcasts S4000x128)
    (p : Fin 4000) (q : Fin 128) : broadcastTo S4000x128 (shapeCast S1x128 u hc) hb (ix2 p q) = u (ix1 q) :=
  Cert.ChannelRows.channel_over_rows_apply u hc hb p q

/-- The reciprocal root of the shifted variances, laid along the rows of a block, at (p, q). -/
theorem scale_apply (v : FVec Ideal S128 .f32) (hc : S128.ShapeCasts S1x128) (hb : S1x128.Broadcasts S4000x128)
    (p : Fin 4000) (q : Fin 128) :
    broadcastTo S4000x128 (rsqrt (addf (shapeCast S1x128 v hc) (broadcast S1x128 (Scalar.ofBits (F := Ideal) .f32 0x3727C5AC#32)))) hb (ix2 p q)
      = Ideal.rsqrt (v (ix1 q) + Ideal.ofBits .f32 0x3727C5AC#32) := by
  refine (broadcastTo_1b_ab_apply _ hb p q).trans ?_
  show Ideal.rsqrt (shapeCast S1x128 v hc (ix2 (0 : Fin 1) q) + Ideal.ofBits .f32 0x3727C5AC#32) = _
  rw [shapeCast_a_1a_apply v hc 0 q]

/-- THE FIRST HIDDEN BODY AT AN ENTRY: what it stores at row p, channel q of its block. -/
theorem hidden0_body_apply (s : Vec Ideal S4000x128 .f32) (inv : Vec Ideal S4000x1 .f32) (x : Vec Ideal S4000x128 .f32)
    (Wl Wr : Vec Ideal S128x128 .f32) (bl g b m v : Vec Ideal S128 .f32) (p : Fin 4000) (q : Fin 128) :
    k0_pay1 (k0_pay2 s inv x Wl Wr bl g b m v) (k0_pay3 (F := Ideal)) (ix2 p q)
      = normClip g b m v
          (((∑ k : Fin 128, (s (ix2 p k) * inv (ix2 p (0 : Fin 1))) * Wl (ix2 k q)) + ∑ k : Fin 128, x (ix2 p k) * Wr (ix2 k q))
            + bl (ix1 q)) q := by
  unfold k0_pay1 k0_pay2 k0_pay3 normClip
  simp only [maximumf_apply, addf_apply, mulf_apply, subf_apply, truncf_apply, broadcast_apply]
  rw [scaled_times_apply, own_times_apply, channel_apply, channel_apply, channel_apply, channel_apply, scale_apply]
  rfl

/-- THE SECOND HIDDEN BODY AT AN ENTRY: the same value, its block of own rows read in the narrower format. -/
theorem hidden1_body_apply (s : Vec Ideal S4000x128 .f32) (inv : Vec Ideal S4000x1 .f32) (x : Vec Ideal S4000x128 .bf16)
    (Wl Wr : Vec Ideal S128x128 .f32) (bl g b m v : Vec Ideal S128 .f32) (p : Fin 4000) (q : Fin 128) :
    k1_pay1 (k1_pay2 s inv x Wl Wr bl g b m v) (k1_pay3 (F := Ideal)) (ix2 p q)
      = normClip g b m v
          (((∑ k : Fin 128, (s (ix2 p k) * inv (ix2 p (0 : Fin 1))) * Wl (ix2 k q)) + ∑ k : Fin 128, x (ix2 p k) * Wr (ix2 k q))
            + bl (ix1 q)) q := by
  unfold k1_pay1 k1_pay2 k1_pay3 normClip
  simp only [maximumf_apply, addf_apply, mulf_apply, subf_apply, truncf_apply, broadcast_apply]
  rw [scaled_times_apply, own_times_apply, channel_apply, channel_apply, channel_apply, channel_apply, scale_apply]
  simp only [shapeCast_self]
  rfl

/-- THE FIRST HIDDEN BODY OVER A ROW BLOCK OF THE ARRAYS.  When the three row blocks the body reads are rows
    T * 4000 + p of the arrays S, INV, X (the hypotheses, one per block, in coordinates), what it stores at an entry y
    of its block is the hidden layer of those arrays at the array entry i on the same row and channel. -/
theorem hidden0_block_apply (S : Mat 100000 128) (INV : Mat 100000 1) (X : Mat 100000 128) (Wl : Mat 128 128) (bl : Row 128)
    (Wr : Mat 128 128) (g b m v : Row 128)
    (s : Vec Ideal S4000x128 .f32) (inv : Vec Ideal S4000x1 .f32) (x : Vec Ideal S4000x128 .f32) (T : Nat)
    (hs : ∀ (y : S4000x128.Idx) (i : S100000x128.Idx), (i 0).val = T * 4000 + (y 0).val → (i 1).val = (y 1).val → s y = S i)
    (hinv : ∀ (y : S4000x1.Idx) (i : S100000x1.Idx), (i 0).val = T * 4000 + (y 0).val → inv y = INV i)
    (hx : ∀ (y : S4000x128.Idx) (i : S100000x128.Idx), (i 0).val = T * 4000 + (y 0).val → (i 1).val = (y 1).val → x y = X i)
    (y : S4000x128.Idx) (i : S100000x128.Idx) (h0 : (i 0).val = T * 4000 + (y 0).val) (h1 : (i 1).val = (y 1).val) :
    k0_pay1 (k0_pay2 s inv x Wl Wr bl g b m v) (k0_pay3 (F := Ideal)) y = mat (hiddenRecip S INV X Wl bl Wr g b m v) i := by
  obtain ⟨p, q, rfl⟩ : ∃ (p : Fin 4000) (q : Fin 128), y = ix2 p q := ⟨y 0, y 1, eq_ix2 y⟩
  obtain ⟨n, j, rfl⟩ : ∃ (n : Fin 100000) (j : Fin 128), i = ix2 n j := ⟨i 0, i 1, eq_ix2 i⟩
  obtain rfl : j = q := Fin.ext h1
  have e1 : ∀ k : Fin 128, s (ix2 p k) = S (ix2 n k) := fun k => hs (ix2 p k) (ix2 n k) h0 rfl
  have e2 : inv (ix2 p (0 : Fin 1)) = INV (ix2 n (0 : Fin 1)) := hinv (ix2 p (0 : Fin 1)) (ix2 n (0 : Fin 1)) h0
  have e3 : ∀ k : Fin 128, x (ix2 p k) = X (ix2 n k) := fun k => hx (ix2 p k) (ix2 n k) h0 rfl
  rw [hidden0_body_apply, mat_ix2]
  unfold hiddenRecip
  simp only [e1, e2, e3]

/-- THE SECOND HIDDEN BODY OVER A ROW BLOCK OF THE ARRAYS: the same, its own rows kept in the narrower format. -/
theorem hidden1_block_apply (S : Mat 100000 128) (INV : Mat 100000 1) (X : Mat 100000 128) (Wl : Mat 128 128) (bl : Row 128)
    (Wr : Mat 128 128) (g b m v : Row 128)
    (s : Vec Ideal S4000x128 .f32) (inv : Vec Ideal S4000x1 .f32) (x : Vec Ideal S4000x128 .bf16) (T : Nat)
    (hs : ∀ (y : S4000x128.Idx) (i : S100000x128.Idx), (i 0).val = T * 4000 + (y 0).val → (i 1).val = (y 1).val → s y = S i)
    (hinv : ∀ (y : S4000x1.Idx) (i : S100000x1.Idx), (i 0).val = T * 4000 + (y 0).val → inv y = INV i)
    (hx : ∀ (y : S4000x128.Idx) (i : S100000x128.Idx), (i 0).val = T * 4000 + (y 0).val → (i 1).val = (y 1).val → x y = X i)
    (y : S4000x128.Idx) (i : S100000x128.Idx) (h0 : (i 0).val = T * 4000 + (y 0).val) (h1 : (i 1).val = (y 1).val) :
    k1_pay1 (k1_pay2 s inv x Wl Wr bl g b m v) (k1_pay3 (F := Ideal)) y = mat (hiddenRecip S INV X Wl bl Wr g b m v) i := by
  obtain ⟨p, q, rfl⟩ : ∃ (p : Fin 4000) (q : Fin 128), y = ix2 p q := ⟨y 0, y 1, eq_ix2 y⟩
  obtain ⟨n, j, rfl⟩ : ∃ (n : Fin 100000) (j : Fin 128), i = ix2 n j := ⟨i 0, i 1, eq_ix2 i⟩
  obtain rfl : j = q := Fin.ext h1
  have e1 : ∀ k : Fin 128, s (ix2 p k) = S (ix2 n k) := fun k => hs (ix2 p k) (ix2 n k) h0 rfl
  have e2 : inv (ix2 p (0 : Fin 1)) = INV (ix2 n (0 : Fin 1)) := hinv (ix2 p (0 : Fin 1)) (ix2 n (0 : Fin 1)) h0
  have e3 : ∀ k : Fin 128, x (ix2 p k) = X (ix2 n k) := fun k => hx (ix2 p k) (ix2 n k) h0 rfl
  rw [hidden1_body_apply, mat_ix2]
  unfold hiddenRecip
  simp only [e1, e2, e3]

end Cert.MeanAgg.Kernel

end
-- ==== Proof.RegionHidden0.lean ====
/-
  The first hidden layer's region, from blocks to the array.

  The region runs its body at 25 grid points.  At point t the three row windows (the neighbour sums, the column of
  reciprocals, the nodes' own rows) stage rows 4000 t … 4000 t + 3999 of their arrays, the two weight matrices and the
  five per-channel vectors stage their whole arrays, and the body stores one block of 4000 rows, which the output window
  writes back to the same rows of its array.  Since the body's value at a row depends only on that row of the three
  row arrays, what point t writes back is block t of ONE array, the hidden layer of the arrays the region finds; the 25
  blocks cover the 100000 rows, so the output array ends holding that layer.
-/
import proofs.«164546_j60851096649749_2_alg».proof.Proof.GenPKernelIdealFrame
import proofs.«164546_j60851096649749_2_alg».proof.Proof.Spec
import proofs.«164546_j60851096649749_2_alg».proof.Proof.RegionHiddenBody
import Idealize.ShloMosaic.Lib.Pipeline.Value

noncomputable section

open scoped BigOperators

namespace Cert.MeanAgg.Kernel

open Idealize.ShloMosaic Idealize.ShloMosaic.ValueIdx Idealize.ShloMosaic.TcCoe Idealize.SL.Sem Cert.KernelIdeal Cert.KernelIdeal.Gen Cert.MeanAgg
open Idealize.ShloMosaic.Pipeline (Dat)

namespace Hidden0

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The block each window stages at grid point t, decided over the 25 points: the three row windows and the output
    window are at block row t, column block 0; the weight matrices and the per-channel vectors at their one block. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0 ∧ win0_7.index t (0 : Fin 1) = 0
    ∧ win0_8.index t (0 : Fin 1) = 0 ∧ win0_9.index t (0 : Fin 1) = 0
    ∧ win0_10.index t (0 : Fin 2) = t.val ∧ win0_10.index t (1 : Fin 2) = 0 :=
  (by decide +kernel : ∀ t : Fin grid0.N, _)

/-! ## The input blocks as rows of the arrays -/

/-- The block of neighbour sums at point t is rows 4000 t … 4000 t + 3999 of the array. -/
theorem sums_block (c : Dev nD) (t : Fin cfg0.N) (y : S4000x128.Idx) (i : S100000x128.Idx)
    (h0 : (i 0).val = t.val * 4000 + (y 0).val) (h1 : (i 1).val = (y 1).val) :
    (iblk0 V c 0 t : Vec Ideal S4000x128 .f32) y = (V c main_v22 : S100000x128.Idx → Elt Ideal .f32) i := by
  obtain ⟨e0, e1, -⟩ := block_indices t
  unfold iblk0
  rw [View.read_apply]
  show (V c main_v22 : S100000x128.Idx → Elt Ideal .f32) _ = (V c main_v22 : S100000x128.Idx → Elt Ideal .f32) _
  refine congrArg _ (funext fun a => Fin.ext ?_)
  match a with
  | ⟨0, _⟩ => show win0_0.index t (0 : Fin 2) * 4000 + 1 * (y 0).val = (i 0).val; rw [e0, h0]; omega
  | ⟨1, _⟩ => show win0_0.index t (1 : Fin 2) * 128 + 1 * (y 1).val = (i 1).val; rw [e1, h1]; omega

/-- The block of reciprocals at point t is the same rows of the column. -/
theorem recips_block (c : Dev nD) (t : Fin cfg0.N) (y : S4000x1.Idx) (i : S100000x1.Idx)
    (h0 : (i 0).val = t.val * 4000 + (y 0).val) :
    (iblk0 V c 1 t : Vec Ideal S4000x1 .f32) y = (V c main_v12 : S100000x1.Idx → Elt Ideal .f32) i := by
  obtain ⟨-, -, e0, e1, -⟩ := block_indices t
  unfold iblk0
  rw [View.read_apply]
  show (V c main_v12 : S100000x1.Idx → Elt Ideal .f32) _ = (V c main_v12 : S100000x1.Idx → Elt Ideal .f32) _
  refine congrArg _ (funext fun a => Fin.ext ?_)
  match a with
  | ⟨0, _⟩ => show win0_1.index t (0 : Fin 2) * 4000 + 1 * (y 0).val = (i 0).val; rw [e0, h0]; omega
  | ⟨1, _⟩ =>
    show win0_1.index t (1 : Fin 2) * 1 + 1 * (y 1).val = (i 1).val
    have hy : (y 1).val < 1 := (y 1).isLt
    have hi : (i 1).val < 1 := (i 1).isLt
    rw [e1]; omega

/-- The block of the nodes' own rows at point t is the same rows of their array. -/
theorem own_block (c : Dev nD) (t : Fin cfg0.N) (y : S4000x128.Idx) (i : S100000x128.Idx)
    (h0 : (i 0).val = t.val * 4000 + (y 0).val) (h1 : (i 1).val = (y 1).val) :
    (iblk0 V c 2 t : Vec Ideal S4000x128 .f32) y = (V c main_arg0 : S100000x128.Idx → Elt Ideal .f32) i := by
  obtain ⟨-, -, -, -, e0, e1, -⟩ := block_indices t
  unfold iblk0
  rw [View.read_apply]
  show (V c main_arg0 : S100000x128.Idx → Elt Ideal .f32) _ = (V c main_arg0 : S100000x128.Idx → Elt Ideal .f32) _
  refine congrArg _ (funext fun a => Fin.ext ?_)
  match a with
  | ⟨0, _⟩ => show win0_2.index t (0 : Fin 2) * 4000 + 1 * (y 0).val = (i 0).val; rw [e0, h0]; omega
  | ⟨1, _⟩ => show win0_2.index t (1 : Fin 2) * 128 + 1 * (y 1).val = (i 1).val; rw [e1, h1]; omega

/-- A weight matrix's one block is the matrix. -/
theorem nbr_weights_block (c : Dev nD) (t : Fin cfg0.N) :
    (iblk0 V c 3 t : Vec Ideal S128x128 .f32) = (V c main_arg2 : S128x128.Idx → Elt Ideal .f32) := by
  obtain ⟨-, -, -, -, -, -, e0, e1, -⟩ := block_indices t
  funext y
  unfold iblk0
  rw [View.read_apply]
  show (V c main_arg2 : S128x128.Idx → Elt Ideal .f32) _ = (V c main_arg2 : S128x128.Idx → Elt Ideal .f32) y
  refine congrArg _ (funext fun a => Fin.ext ?_)
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

theorem root_weights_block (c : Dev nD) (t : Fin cfg0.N) :
    (iblk0 V c 5 t : Vec Ideal S128x128 .f32) = (V c main_arg4 : S128x128.Idx → Elt Ideal .f32) := by
  obtain ⟨-, -, -, -, -, -, -, -, -, e0, e1, -⟩ := block_indices t
  funext y
  unfold iblk0
  rw [View.read_apply]
  show (V c main_arg4 : S128x128.Idx → Elt Ideal .f32) _ = (V c main_arg4 : S128x128.Idx → Elt Ideal .f32) y
  refine congrArg _ (funext fun a => Fin.ext ?_)
  match a with
  | ⟨0, _⟩ => show win0_5.index t (0 : Fin 2) * 128 + 1 * (y 0).val = (y 0).val; rw [e0]; omega
  | ⟨1, _⟩ => show win0_5.index t (1 : Fin 2) * 128 + 1 * (y 1).val = (y 1).val; rw [e1]; omega

/-- A per-channel vector's one block is the vector. -/
theorem bias_block (c : Dev nD) (t : Fin cfg0.N) :
    (iblk0 V c 4 t : Vec Ideal S128 .f32) = (V c main_arg3 : S128.Idx → Elt Ideal .f32) := by
  obtain ⟨-, -, -, -, -, -, -, -, e0, -⟩ := block_indices t
  funext y
  unfold iblk0
  rw [View.read_apply]
  show (V c main_arg3 : S128.Idx → Elt Ideal .f32) _ = (V c main_arg3 : S128.Idx → Elt Ideal .f32) y
  refine congrArg _ (funext fun a => Fin.ext ?_)
  match a with
  | ⟨0, _⟩ => show win0_4.index t (0 : Fin 1) * 128 + 1 * (y 0).val = (y 0).val; rw [e0]; omega

theorem gain_block (c : Dev nD) (t : Fin cfg0.N) :
    (iblk0 V c 6 t : Vec Ideal S128 .f32) = (V c main_arg5 : S128.Idx → Elt Ideal .f32) := by
  obtain ⟨-, -, -, -, -, -, -, -, -, -, -, e0, -⟩ := block_indices t
  funext y
  unfold iblk0
  rw [View.read_apply]
  show (V c main_arg5 : S128.Idx → Elt Ideal .f32) _ = (V c main_arg5 : S128.Idx → Elt Ideal .f32) y
  refine congrArg _ (funext fun a => Fin.ext ?_)
  match a with
  | ⟨0, _⟩ => show win0_6.index t (0 : Fin 1) * 128 + 1 * (y 0).val = (y 0).val; rw [e0]; omega

theorem shift_block (c : Dev nD) (t : Fin cfg0.N) :
    (iblk0 V c 7 t : Vec Ideal S128 .f32) = (V c main_arg6 : S128.Idx → Elt Ideal .f32) := by
  obtain ⟨-, -, -, -, -, -, -, -, -, -, -, -, e0, -⟩ := block_indices t
  funext y
  unfold iblk0
  rw [View.read_apply]
  show (V c main_arg6 : S128.Idx → Elt Ideal .f32) _ = (V c main_arg6 : S128.Idx → Elt Ideal .f32) y
  refine congrArg _ (funext fun a => Fin.ext ?_)
  match a with
  | ⟨0, _⟩ => show win0_7.index t (0 : Fin 1) * 128 + 1 * (y 0).val = (y 0).val; rw [e0]; omega

theorem mean_block (c : Dev nD) (t : Fin cfg0.N) :
    (iblk0 V c 8 t : Vec Ideal S128 .f32) = (V c main_arg7 : S128.Idx → Elt Ideal .f32) := by
  obtain ⟨-, -, -, -, -, -, -, -, -, -, -, -, -, e0, -⟩ := block_indices t
  funext y
  unfold iblk0
  rw [View.read_apply]
  show (V c main_arg7 : S128.Idx → Elt Ideal .f32) _ = (V c main_arg7 : S128.Idx → Elt Ideal .f32) y
  refine congrArg _ (funext fun a => Fin.ext ?_)
  match a with
  | ⟨0, _⟩ => show win0_8.index t (0 : Fin 1) * 128 + 1 * (y 0).val = (y 0).val; rw [e0]; omega

theorem variance_block (c : Dev nD) (t : Fin cfg0.N) :
    (iblk0 V c 9 t : Vec Ideal S128 .f32) = (V c main_arg8 : S128.Idx → Elt Ideal .f32) := by
  obtain ⟨-, -, -, -, -, -, -, -, -, -, -, -, -, -, e0, -⟩ := block_indices t
  funext y
  unfold iblk0
  rw [View.read_apply]
  show (V c main_arg8 : S128.Idx → Elt Ideal .f32) _ = (V c main_arg8 : S128.Idx → Elt Ideal .f32) y
  refine congrArg _ (funext fun a => Fin.ext ?_)
  match a with
  | ⟨0, _⟩ => show win0_9.index t (0 : Fin 1) * 128 + 1 * (y 0).val = (y 0).val; rw [e0]; omega

/-! ## From blocks to the array -/

/-- The hidden layer of the arrays the region finds, as one array. -/
abbrev layer (c : Dev nD) : Mat 100000 128 :=
  mat (hiddenRecip (V c main_v22) (V c main_v12) (V c main_arg0) (V c main_arg2) (V c main_arg3) (V c main_arg4)
    (V c main_arg5) (V c main_arg6) (V c main_arg7) (V c main_arg8))

/-- WHAT POINT t WRITES BACK is block t of the layer: rows 4000 t … 4000 t + 3999, all 128 channels. -/
theorem flushed_eq (c : Dev nD) (t : Fin cfg0.N) :
    (dat0 (F := Ideal) V c).flushed 10 t = ((cfg0.win 10).blk t).view.read (Elt Ideal) (layer V c) := by
  show (cfg0.win 10).cut (grid0.coords t) ((dat0 (F := Ideal) V c).after 10 t) = _
  rw [after0_10]
  unfold out0_10
  rw [View.canon_unit_zero zeros2]
  simp only [View.ld_unit_zero (S := S4000x128) zeros2, View.ld_unit_zero (S := S4000x1) zeros2,
    View.ld_unit_zero (S := S128x128) zeros2, View.ld_unit_zero (S := S128) zeros1]
  rw [nbr_weights_block V c t, root_weights_block V c t, bias_block V c t, gain_block V c t, shift_block V c t,
    mean_block V c t, variance_block V c t]
  obtain ⟨-, -, -, -, -, -, -, -, -, -, -, -, -, -, -, e0, e1⟩ := block_indices t
  funext y
  rw [View.read_apply]
  refine hidden0_block_apply (V c main_v22) (V c main_v12) (V c main_arg0) (V c main_arg2) (V c main_arg3) (V c main_arg4)
    (V c main_arg5) (V c main_arg6) (V c main_arg7) (V c main_arg8) (iblk0 V c 0 t) (iblk0 V c 1 t) (iblk0 V c 2 t) t.val
    (sums_block V c t) (recips_block V c t) (own_block V c t) y (((cfg0.win 10).blk t).view.emb y) ?_ ?_
  · show win0_10.index t (0 : Fin 2) * 4000 + 1 * (y 0).val = t.val * 4000 + (y 0).val
    rw [e0]; omega
  · show win0_10.index t (1 : Fin 2) * 128 + 1 * (y 1).val = (y 1).val
    rw [e1]; omega

/-- An index of the array is in point t's block iff each coordinate is in the block's range on its axis. -/
theorem mem_block (t : Fin cfg0.N) (i : S100000x128.Idx) :
    i ∈ ((cfg0.win 10).blk t).view.set ↔ ∀ a : Fin 2, win0_10.index t a * S4000x128.size a ≤ (i a).val
      ∧ (i a).val < win0_10.index t a * S4000x128.size a + S4000x128.size a := by
  show i ∈ ((View.whole main_v23).slice (win0_10.rect t)).set ↔ _
  rw [View.set_slice_whole, Rect.mem_set_unit]
  exact Iff.rfl

/-- The 25 blocks of 4000 rows cover the 100000 rows: row r is in block r / 4000. -/
theorem covered (i : S100000x128.Idx) :
    ∃ t : Fin cfg0.N, (cfg0.win 10).flush t = true ∧ i ∈ ((cfg0.win 10).blk t).view.set := by
  have hi0 : (i 0).val < 100000 := (i 0).isLt
  have hi1 : (i 1).val < 128 := (i 1).isLt
  have hN : cfg0.N = 25 := N_0
  let t : Fin cfg0.N := ⟨(i 0).val / 4000, by rw [hN]; omega⟩
  obtain ⟨-, -, -, -, -, -, -, -, -, -, -, -, -, -, -, e0, e1⟩ := block_indices t
  have ht : t.val = (i 0).val / 4000 := rfl
  refine ⟨t, flush0_10 t, ?_⟩
  rw [mem_block]
  intro a
  match a with
  | ⟨0, _⟩ =>
    show win0_10.index t (0 : Fin 2) * 4000 ≤ (i 0).val ∧ (i 0).val < win0_10.index t (0 : Fin 2) * 4000 + 4000
    rw [e0, ht]; omega
  | ⟨1, _⟩ =>
    show win0_10.index t (1 : Fin 2) * 128 ≤ (i 1).val ∧ (i 1).val < win0_10.index t (1 : Fin 2) * 128 + 128
    rw [e1]; omega

/-- THE ARRAY the output window leaves is the layer. -/
theorem final (c : Dev nD) : (dat0 (F := Ideal) V c).arrAt 10 cfg0.N = layer V c :=
  (dat0 (F := Ideal) V c).arrAt_eq_of_cover 10 (layer V c) (fun t _ => flushed_eq V c t) covered

end Hidden0

/-- Region 0 whole: entry (n, j) of the array its output window leaves is the first hidden layer, in the reciprocal
    arrangement, of the arrays the region finds. -/
theorem region0_value (V : (c : Dev nD) → (b : Ref sig .tc) → Buf (Elt Ideal) ((c : Thread nD τ).loc b)) (c : Dev nD) (n : Fin 100000) (j : Fin 128) :
    ((dat0 (F := Ideal) V c).arrAt 10 cfg0.N : Mat 100000 128) (ix2 n j)
      = hiddenRecip (V c main_v22) (V c main_v12) (V c main_arg0) (V c main_arg2) (V c main_arg3) (V c main_arg4)
          (V c main_arg5) (V c main_arg6) (V c main_arg7) (V c main_arg8) n j := by
  rw [Hidden0.final V c]
  rfl

end Cert.MeanAgg.Kernel

end
-- ==== Proof.RegionHidden1.lean ====
/-
  The second hidden layer's region, from blocks to the array.

  The region runs its body at 25 grid points.  At point t the three row windows (the neighbour sums of the first
  hidden layer, the column of reciprocals, the first hidden layer's own rows, kept in the narrower float format) stage
  rows 4000 t … 4000 t + 3999 of their arrays, the two weight matrices and the five per-channel vectors stage their whole
  arrays, and the body stores one block of 4000 rows, which the output window writes back to the same rows of its array.
  Since the body's value at a row depends only on that row of the three row arrays, what point t writes back is block t
  of ONE array, the hidden layer of the arrays the region finds; the 25 blocks cover the 100000 rows, so the output
  array ends holding that layer.  Over the extended reals a change of float format is the identity, so the narrower
  format of the own rows changes nothing.
-/
import proofs.«164546_j60851096649749_2_alg».proof.Proof.GenPKernelIdealFrame
import proofs.«164546_j60851096649749_2_alg».proof.Proof.Spec
import proofs.«164546_j60851096649749_2_alg».proof.Proof.RegionHiddenBody
import Idealize.ShloMosaic.Lib.Pipeline.Value

noncomputable section

open scoped BigOperators

namespace Cert.MeanAgg.Kernel

open Idealize.ShloMosaic Idealize.ShloMosaic.ValueIdx Idealize.ShloMosaic.TcCoe Idealize.SL.Sem Cert.KernelIdeal Cert.KernelIdeal.Gen Cert.MeanAgg
open Idealize.ShloMosaic.Pipeline (Dat)

namespace Hidden1

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The block each window stages at grid point t, decided over the 25 points: the three row windows and the output
    window are at block row t, column block 0; the weight matrices and the per-channel vectors at their one block. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0 ∧ win1_7.index t (0 : Fin 1) = 0
    ∧ win1_8.index t (0 : Fin 1) = 0 ∧ win1_9.index t (0 : Fin 1) = 0
    ∧ win1_10.index t (0 : Fin 2) = t.val ∧ win1_10.index t (1 : Fin 2) = 0 :=
  (by decide +kernel : ∀ t : Fin grid1.N, _)

/-! ## The input blocks as rows of the arrays -/

/-- The block of neighbour sums at point t is rows 4000 t … 4000 t + 3999 of the array. -/
theorem sums_block (c : Dev nD) (t : Fin cfg1.N) (y : S4000x128.Idx) (i : S100000x128.Idx)
    (h0 : (i 0).val = t.val * 4000 + (y 0).val) (h1 : (i 1).val = (y 1).val) :
    (iblk1 V c 0 t : Vec Ideal S4000x128 .f32) y = (V c main_v34 : S100000x128.Idx → Elt Ideal .f32) i := by
  obtain ⟨e0, e1, -⟩ := block_indices t
  unfold iblk1
  rw [View.read_apply]
  show (V c main_v34 : S100000x128.Idx → Elt Ideal .f32) _ = (V c main_v34 : S100000x128.Idx → Elt Ideal .f32) _
  refine congrArg _ (funext fun a => Fin.ext ?_)
  match a with
  | ⟨0, _⟩ => show win1_0.index t (0 : Fin 2) * 4000 + 1 * (y 0).val = (i 0).val; rw [e0, h0]; omega
  | ⟨1, _⟩ => show win1_0.index t (1 : Fin 2) * 128 + 1 * (y 1).val = (i 1).val; rw [e1, h1]; omega

/-- The block of reciprocals at point t is the same rows of the column. -/
theorem recips_block (c : Dev nD) (t : Fin cfg1.N) (y : S4000x1.Idx) (i : S100000x1.Idx)
    (h0 : (i 0).val = t.val * 4000 + (y 0).val) :
    (iblk1 V c 1 t : Vec Ideal S4000x1 .f32) y = (V c main_v12 : S100000x1.Idx → Elt Ideal .f32) i := by
  obtain ⟨-, -, e0, e1, -⟩ := block_indices t
  unfold iblk1
  rw [View.read_apply]
  show (V c main_v12 : S100000x1.Idx → Elt Ideal .f32) _ = (V c main_v12 : S100000x1.Idx → Elt Ideal .f32) _
  refine congrArg _ (funext fun a => Fin.ext ?_)
  match a with
  | ⟨0, _⟩ => show win1_1.index t (0 : Fin 2) * 4000 + 1 * (y 0).val = (i 0).val; rw [e0, h0]; omega
  | ⟨1, _⟩ =>
    show win1_1.index t (1 : Fin 2) * 1 + 1 * (y 1).val = (i 1).val
    have hy : (y 1).val < 1 := (y 1).isLt
    have hi : (i 1).val < 1 := (i 1).isLt
    rw [e1]; omega

/-- The block of the nodes' own rows at point t is the same rows of their array. -/
theorem own_block (c : Dev nD) (t : Fin cfg1.N) (y : S4000x128.Idx) (i : S100000x128.Idx)
    (h0 : (i 0).val = t.val * 4000 + (y 0).val) (h1 : (i 1).val = (y 1).val) :
    (iblk1 V c 2 t : Vec Ideal S4000x128 .bf16) y = (V c main_v23 : S100000x128.Idx → Elt Ideal .bf16) i := by
  obtain ⟨-, -, -, -, e0, e1, -⟩ := block_indices t
  unfold iblk1
  rw [View.read_apply]
  show (V c main_v23 : S100000x128.Idx → Elt Ideal .bf16) _ = (V c main_v23 : S100000x128.Idx → Elt Ideal .bf16) _
  refine congrArg _ (funext fun a => Fin.ext ?_)
  match a with
  | ⟨0, _⟩ => show win1_2.index t (0 : Fin 2) * 4000 + 1 * (y 0).val = (i 0).val; rw [e0, h0]; omega
  | ⟨1, _⟩ => show win1_2.index t (1 : Fin 2) * 128 + 1 * (y 1).val = (i 1).val; rw [e1, h1]; omega

/-- A weight matrix's one block is the matrix. -/
theorem nbr_weights_block (c : Dev nD) (t : Fin cfg1.N) :
    (iblk1 V c 3 t : Vec Ideal S128x128 .f32) = (V c main_arg9 : S128x128.Idx → Elt Ideal .f32) := by
  obtain ⟨-, -, -, -, -, -, e0, e1, -⟩ := block_indices t
  funext y
  unfold iblk1
  rw [View.read_apply]
  show (V c main_arg9 : S128x128.Idx → Elt Ideal .f32) _ = (V c main_arg9 : S128x128.Idx → Elt Ideal .f32) y
  refine congrArg _ (funext fun a => Fin.ext ?_)
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

theorem root_weights_block (c : Dev nD) (t : Fin cfg1.N) :
    (iblk1 V c 5 t : Vec Ideal S128x128 .f32) = (V c main_arg11 : S128x128.Idx → Elt Ideal .f32) := by
  obtain ⟨-, -, -, -, -, -, -, -, -, e0, e1, -⟩ := block_indices t
  funext y
  unfold iblk1
  rw [View.read_apply]
  show (V c main_arg11 : S128x128.Idx → Elt Ideal .f32) _ = (V c main_arg11 : S128x128.Idx → Elt Ideal .f32) y
  refine congrArg _ (funext fun a => Fin.ext ?_)
  match a with
  | ⟨0, _⟩ => show win1_5.index t (0 : Fin 2) * 128 + 1 * (y 0).val = (y 0).val; rw [e0]; omega
  | ⟨1, _⟩ => show win1_5.index t (1 : Fin 2) * 128 + 1 * (y 1).val = (y 1).val; rw [e1]; omega

/-- A per-channel vector's one block is the vector. -/
theorem bias_block (c : Dev nD) (t : Fin cfg1.N) :
    (iblk1 V c 4 t : Vec Ideal S128 .f32) = (V c main_arg10 : S128.Idx → Elt Ideal .f32) := by
  obtain ⟨-, -, -, -, -, -, -, -, e0, -⟩ := block_indices t
  funext y
  unfold iblk1
  rw [View.read_apply]
  show (V c main_arg10 : S128.Idx → Elt Ideal .f32) _ = (V c main_arg10 : S128.Idx → Elt Ideal .f32) y
  refine congrArg _ (funext fun a => Fin.ext ?_)
  match a with
  | ⟨0, _⟩ => show win1_4.index t (0 : Fin 1) * 128 + 1 * (y 0).val = (y 0).val; rw [e0]; omega

theorem gain_block (c : Dev nD) (t : Fin cfg1.N) :
    (iblk1 V c 6 t : Vec Ideal S128 .f32) = (V c main_arg12 : S128.Idx → Elt Ideal .f32) := by
  obtain ⟨-, -, -, -, -, -, -, -, -, -, -, e0, -⟩ := block_indices t
  funext y
  unfold iblk1
  rw [View.read_apply]
  show (V c main_arg12 : S128.Idx → Elt Ideal .f32) _ = (V c main_arg12 : S128.Idx → Elt Ideal .f32) y
  refine congrArg _ (funext fun a => Fin.ext ?_)
  match a with
  | ⟨0, _⟩ => show win1_6.index t (0 : Fin 1) * 128 + 1 * (y 0).val = (y 0).val; rw [e0]; omega

theorem shift_block (c : Dev nD) (t : Fin cfg1.N) :
    (iblk1 V c 7 t : Vec Ideal S128 .f32) = (V c main_arg13 : S128.Idx → Elt Ideal .f32) := by
  obtain ⟨-, -, -, -, -, -, -, -, -, -, -, -, e0, -⟩ := block_indices t
  funext y
  unfold iblk1
  rw [View.read_apply]
  show (V c main_arg13 : S128.Idx → Elt Ideal .f32) _ = (V c main_arg13 : S128.Idx → Elt Ideal .f32) y
  refine congrArg _ (funext fun a => Fin.ext ?_)
  match a with
  | ⟨0, _⟩ => show win1_7.index t (0 : Fin 1) * 128 + 1 * (y 0).val = (y 0).val; rw [e0]; omega

theorem mean_block (c : Dev nD) (t : Fin cfg1.N) :
    (iblk1 V c 8 t : Vec Ideal S128 .f32) = (V c main_arg14 : S128.Idx → Elt Ideal .f32) := by
  obtain ⟨-, -, -, -, -, -, -, -, -, -, -, -, -, e0, -⟩ := block_indices t
  funext y
  unfold iblk1
  rw [View.read_apply]
  show (V c main_arg14 : S128.Idx → Elt Ideal .f32) _ = (V c main_arg14 : S128.Idx → Elt Ideal .f32) y
  refine congrArg _ (funext fun a => Fin.ext ?_)
  match a with
  | ⟨0, _⟩ => show win1_8.index t (0 : Fin 1) * 128 + 1 * (y 0).val = (y 0).val; rw [e0]; omega

theorem variance_block (c : Dev nD) (t : Fin cfg1.N) :
    (iblk1 V c 9 t : Vec Ideal S128 .f32) = (V c main_arg15 : S128.Idx → Elt Ideal .f32) := by
  obtain ⟨-, -, -, -, -, -, -, -, -, -, -, -, -, -, e0, -⟩ := block_indices t
  funext y
  unfold iblk1
  rw [View.read_apply]
  show (V c main_arg15 : S128.Idx → Elt Ideal .f32) _ = (V c main_arg15 : S128.Idx → Elt Ideal .f32) y
  refine congrArg _ (funext fun a => Fin.ext ?_)
  match a with
  | ⟨0, _⟩ => show win1_9.index t (0 : Fin 1) * 128 + 1 * (y 0).val = (y 0).val; rw [e0]; omega

/-! ## From blocks to the array -/

/-- The hidden layer of the arrays the region finds, as one array. -/
abbrev layer (c : Dev nD) : Mat 100000 128 :=
  mat (hiddenRecip (V c main_v34) (V c main_v12) (V c main_v23) (V c main_arg9) (V c main_arg10) (V c main_arg11)
    (V c main_arg12) (V c main_arg13) (V c main_arg14) (V c main_arg15))

/-- WHAT POINT t WRITES BACK is block t of the layer: rows 4000 t … 4000 t + 3999, all 128 channels. -/
theorem flushed_eq (c : Dev nD) (t : Fin cfg1.N) :
    (dat1 (F := Ideal) V c).flushed 10 t = ((cfg1.win 10).blk t).view.read (Elt Ideal) (layer V c) := by
  show (cfg1.win 10).cut (grid1.coords t) ((dat1 (F := Ideal) V c).after 10 t) = _
  rw [after1_10]
  unfold out1_10
  rw [View.canon_unit_zero zeros2]
  simp only [View.ld_unit_zero (S := S4000x128) zeros2, View.ld_unit_zero (S := S4000x1) zeros2,
    View.ld_unit_zero (S := S128x128) zeros2, View.ld_unit_zero (S := S128) zeros1]
  rw [nbr_weights_block V c t, root_weights_block V c t, bias_block V c t, gain_block V c t, shift_block V c t,
    mean_block V c t, variance_block V c t]
  obtain ⟨-, -, -, -, -, -, -, -, -, -, -, -, -, -, -, e0, e1⟩ := block_indices t
  funext y
  rw [View.read_apply]
  refine hidden1_block_apply (V c main_v34) (V c main_v12) (V c main_v23) (V c main_arg9) (V c main_arg10) (V c main_arg11)
    (V c main_arg12) (V c main_arg13) (V c main_arg14) (V c main_arg15) (iblk1 V c 0 t) (iblk1 V c 1 t) (iblk1 V c 2 t) t.val
    (sums_block V c t) (recips_block V c t) (own_block V c t) y (((cfg1.win 10).blk t).view.emb y) ?_ ?_
  · show win1_10.index t (0 : Fin 2) * 4000 + 1 * (y 0).val = t.val * 4000 + (y 0).val
    rw [e0]; omega
  · show win1_10.index t (1 : Fin 2) * 128 + 1 * (y 1).val = (y 1).val
    rw [e1]; omega

/-- An index of the array is in point t's block iff each coordinate is in the block's range on its axis. -/
theorem mem_block (t : Fin cfg1.N) (i : S100000x128.Idx) :
    i ∈ ((cfg1.win 10).blk t).view.set ↔ ∀ a : Fin 2, win1_10.index t a * S4000x128.size a ≤ (i a).val
      ∧ (i a).val < win1_10.index t a * S4000x128.size a + S4000x128.size a := by
  show i ∈ ((View.whole main_v35).slice (win1_10.rect t)).set ↔ _
  rw [View.set_slice_whole, Rect.mem_set_unit]
  exact Iff.rfl

/-- The 25 blocks of 4000 rows cover the 100000 rows: row r is in block r / 4000. -/
theorem covered (i : S100000x128.Idx) :
    ∃ t : Fin cfg1.N, (cfg1.win 10).flush t = true ∧ i ∈ ((cfg1.win 10).blk t).view.set := by
  have hi0 : (i 0).val < 100000 := (i 0).isLt
  have hi1 : (i 1).val < 128 := (i 1).isLt
  have hN : cfg1.N = 25 := N_1
  let t : Fin cfg1.N := ⟨(i 0).val / 4000, by rw [hN]; omega⟩
  obtain ⟨-, -, -, -, -, -, -, -, -, -, -, -, -, -, -, e0, e1⟩ := block_indices t
  have ht : t.val = (i 0).val / 4000 := rfl
  refine ⟨t, flush1_10 t, ?_⟩
  rw [mem_block]
  intro a
  match a with
  | ⟨0, _⟩ =>
    show win1_10.index t (0 : Fin 2) * 4000 ≤ (i 0).val ∧ (i 0).val < win1_10.index t (0 : Fin 2) * 4000 + 4000
    rw [e0, ht]; omega
  | ⟨1, _⟩ =>
    show win1_10.index t (1 : Fin 2) * 128 ≤ (i 1).val ∧ (i 1).val < win1_10.index t (1 : Fin 2) * 128 + 128
    rw [e1]; omega

/-- THE ARRAY the output window leaves is the layer. -/
theorem final (c : Dev nD) : (dat1 (F := Ideal) V c).arrAt 10 cfg1.N = layer V c :=
  (dat1 (F := Ideal) V c).arrAt_eq_of_cover 10 (layer V c) (fun t _ => flushed_eq V c t) covered

end Hidden1

/-- Region 1 whole: entry (n, j) of the array its output window leaves is a hidden layer, in the reciprocal
    arrangement, of the arrays the region finds. -/
theorem region1_value (V : (c : Dev nD) → (b : Ref sig .tc) → Buf (Elt Ideal) ((c : Thread nD τ).loc b)) (c : Dev nD) (n : Fin 100000) (j : Fin 128) :
    ((dat1 (F := Ideal) V c).arrAt 10 cfg1.N : Mat 100000 128) (ix2 n j)
      = hiddenRecip (V c main_v34) (V c main_v12) (V c main_v23) (V c main_arg9) (V c main_arg10) (V c main_arg11)
          (V c main_arg12) (V c main_arg13) (V c main_arg14) (V c main_arg15) n j := by
  rw [Hidden1.final V c]
  rfl

end Cert.MeanAgg.Kernel

end
-- ==== Proof.RegionProjectPayload.lean ====
/-
  The arithmetic of the projection region's body, read at an entry.

  The body multiplies a block of 4000 hidden rows by each of the two 128 x 64 weight matrices on the matrix unit, into a
  zero accumulator, and adds the bias row to the second product. A change of float format is the identity over the
  extended reals and the reshape of the rows to their own shape is the identity, so at row p and channel q the first
  stored value is the sum over k of x (p, k) * w (k, q), and the second is that sum for the other matrix plus the bias
  at channel q.
-/
import proofs.«164546_j60851096649749_2_alg».proof.Proof.Gen.KernelIdeal.Skeleton
import proofs.«164546_j60851096649749_2_alg».proof.Proof.LibRowsTimes
import proofs.«164546_j60851096649749_2_alg».proof.Proof.LibChannelRows
import Idealize.ShloMosaic.Lib.Pipeline.Value
import Idealize.ShloMosaic.Lib.ValueIdx

noncomputable section

open scoped BigOperators

namespace Cert.MeanAgg.Kernel

open Idealize.ShloMosaic Idealize.ShloMosaic.ValueIdx Cert.KernelIdeal Cert.KernelIdeal.Gen

/-- The hidden rows as the matrix unit receives them: the block itself. -/
theorem rows_payload (x : Vec Ideal S4000x128 .bf16) : k2_pay1 (F := Ideal) x = x := by
  unfold k2_pay1
  exact shapeCast_self x _

/-- The first stored value at row p, channel q: the row times column q of the neighbour weights. -/
theorem nbr_payload_apply (x : Vec Ideal S4000x128 .bf16) (w : Vec Ideal S128x64 .f32) (p : Fin 4000) (q : Fin 64) :
    k2_pay2 (F := Ideal) x w (ix2 p q) = ∑ k : Fin 128, x (ix2 p k) * w (ix2 k q) := by
  unfold k2_pay2
  rw [rows_payload]
  exact RowsTimes.matmul_zero_apply dot_S4000x128_S128x64_S4000x64_1_0_0_1_n_n rfl rfl rfl rfl rfl rfl rfl rfl none
    x (truncf .bf16 w bitsLt_bf16_f32) p q

/-- The second stored value at row p, channel q: the row times column q of the root weights, plus the bias at q. -/
theorem root_payload_apply (x : Vec Ideal S4000x128 .bf16) (w : Vec Ideal S128x64 .f32) (b : Vec Ideal S64 .f32)
    (p : Fin 4000) (q : Fin 64) :
    k2_pay3 (F := Ideal) x w b (ix2 p q) = (∑ k : Fin 128, x (ix2 p k) * w (ix2 k q)) + b (ix1 q) := by
  unfold k2_pay3
  rw [rows_payload, addf_apply]
  refine congrArg₂ (· + ·) ?_ ?_
  · exact RowsTimes.matmul_zero_apply dot_S4000x128_S128x64_S4000x64_1_0_0_1_n_n rfl rfl rfl rfl rfl rfl rfl rfl none
      x (truncf .bf16 w bitsLt_bf16_f32) p q
  · exact Cert.ChannelRows.channel_over_rows_apply b shapeCasts_S64_S1x64 broadcasts_S1x64_S4000x64 p q

end Cert.MeanAgg.Kernel

end
-- ==== Proof.RegionProjectBlocks.lean ====
/-
  The projection region's windows, block by block.

  The grid has 25 points. At point t the window on the hidden rows holds rows 4000 t … 4000 t + 3999 of the hidden
  array, and each of the two output windows the same rows of its own array; the two weight matrices and the bias are
  held whole at every point. A row n of an output array lies in the block of the point n / 4000, so the 25 blocks
  cover the array.
-/
import proofs.«164546_j60851096649749_2_alg».proof.Proof.GenPKernelIdealFrame
import Idealize.ShloMosaic.Lib.ValueIdx
import Idealize.ShloMosaic.Lib.Pipeline.Value

noncomputable section

namespace Cert.MeanAgg.Kernel

open Idealize.ShloMosaic Idealize.ShloMosaic.ValueIdx Idealize.ShloMosaic.TcCoe Idealize.SL.Sem Cert.KernelIdeal Cert.KernelIdeal.Gen

variable {F : FTy → Type} [FloatOps F]
variable (V : (c : Dev nD) → (b : Ref sig .tc) → Buf (Elt F) ((c : Thread nD τ).loc b))

theorem zero_pair : (![0, 0] : Fin 2 → Nat) = fun _ => 0 := funext fun a => by fin_cases a <;> rfl

theorem zero_single : (![0] : Fin 1 → Nat) = fun _ => 0 := funext fun a => by fin_cases a <;> rfl

/-- The printed index maps, decided over the grid: the row windows move one block per point, the others stay. -/
theorem block_index : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

theorem point_lt (t : Fin cfg2.N) : t.val < 25 := lt_of_lt_of_eq t.isLt N_2

/-- Row p of point t's block is row 4000 t + p of the array. -/
def blockRow (t : Fin cfg2.N) (p : Fin 4000) : Fin 100000 :=
  ⟨4000 * t.val + p.val, by have := point_lt t; have := p.isLt; omega⟩

theorem blockRow_val (t : Fin cfg2.N) (p : Fin 4000) : (blockRow t p).val = 4000 * t.val + p.val := rfl

/-- The hidden-rows window's block at point t, at (p, k): the hidden array at row 4000 t + p, channel k. -/
theorem rows_block_apply (c : Dev nD) (t : Fin cfg2.N) (p : Fin 4000) (k : Fin 128) :
    (iblk2 V c 0 t : Vec F S4000x128 .bf16) (ix2 p k)
      = (V c main_v35 : S100000x128.Idx → Elt F .bf16) (ix2 (blockRow t p) k) := by
  obtain ⟨e0, e1, -⟩ := block_index t
  unfold iblk2
  rw [View.read_apply]
  show V c main_v35 _ = V c main_v35 _
  congr 1
  funext a
  apply Fin.ext
  match a with
  | ⟨0, _⟩ => show win2_0.index t (0 : Fin 2) * 4000 + 1 * p.val = 4000 * t.val + p.val; rw [e0]; omega
  | ⟨1, _⟩ => show win2_0.index t (1 : Fin 2) * 128 + 1 * k.val = k.val; rw [e1]; omega

/-- The neighbour weights' window holds the whole matrix at every point. -/
theorem nbr_weights_block (c : Dev nD) (t : Fin cfg2.N) :
    (iblk2 V c 1 t : Vec F S128x64 .f32) = (V c main_arg16 : S128x64.Idx → Elt F .f32) := by
  obtain ⟨-, -, e0, e1, -⟩ := block_index t
  funext y
  unfold iblk2
  rw [View.read_apply]
  show V c main_arg16 _ = V c main_arg16 _
  congr 1
  funext a
  apply Fin.ext
  match a with
  | ⟨0, _⟩ => show win2_1.index t (0 : Fin 2) * 128 + 1 * (y 0).val = (y 0).val; rw [e0]; omega
  | ⟨1, _⟩ => show win2_1.index t (1 : Fin 2) * 64 + 1 * (y 1).val = (y 1).val; rw [e1]; omega

/-- The bias window holds the whole vector at every point. -/
theorem bias_block (c : Dev nD) (t : Fin cfg2.N) :
    (iblk2 V c 2 t : Vec F S64 .f32) = (V c main_arg17 : S64.Idx → Elt F .f32) := by
  obtain ⟨-, -, -, -, e0, -⟩ := block_index t
  funext y
  unfold iblk2
  rw [View.read_apply]
  show V c main_arg17 _ = V c main_arg17 _
  congr 1
  funext a
  apply Fin.ext
  match a with
  | ⟨0, _⟩ => show win2_2.index t (0 : Fin 1) * 64 + 1 * (y 0).val = (y 0).val; rw [e0]; omega

/-- The root weights' window holds the whole matrix at every point. -/
theorem root_weights_block (c : Dev nD) (t : Fin cfg2.N) :
    (iblk2 V c 3 t : Vec F S128x64 .f32) = (V c main_arg18 : S128x64.Idx → Elt F .f32) := by
  obtain ⟨-, -, -, -, -, e0, e1, -⟩ := block_index t
  funext y
  unfold iblk2
  rw [View.read_apply]
  show V c main_arg18 _ = V c main_arg18 _
  congr 1
  funext a
  apply Fin.ext
  match a with
  | ⟨0, _⟩ => show win2_3.index t (0 : Fin 2) * 128 + 1 * (y 0).val = (y 0).val; rw [e0]; omega
  | ⟨1, _⟩ => show win2_3.index t (1 : Fin 2) * 64 + 1 * (y 1).val = (y 1).val; rw [e1]; omega

/-- Entry (p, q) of the first output's block at point t sits at row 4000 t + p, channel q of its array. -/
theorem nbr_out_emb (t : Fin cfg2.N) (p : Fin 4000) (q : Fin 64) :
    ((cfg2.win 4).blk t).view.emb (ix2 p q) = (ix2 (blockRow t p) q : S100000x64.Idx) := by
  obtain ⟨-, -, -, -, -, -, -, e0, e1, -⟩ := block_index t
  funext a
  apply Fin.ext
  match a with
  | ⟨0, _⟩ => show win2_4.index t (0 : Fin 2) * 4000 + 1 * p.val = 4000 * t.val + p.val; rw [e0]; omega
  | ⟨1, _⟩ => show win2_4.index t (1 : Fin 2) * 64 + 1 * q.val = q.val; rw [e1]; omega

/-- Entry (p, q) of the second output's block at point t sits at row 4000 t + p, channel q of its array. -/
theorem root_out_emb (t : Fin cfg2.N) (p : Fin 4000) (q : Fin 64) :
    ((cfg2.win 5).blk t).view.emb (ix2 p q) = (ix2 (blockRow t p) q : S100000x64.Idx) := by
  obtain ⟨-, -, -, -, -, -, -, -, -, e0, e1⟩ := block_index t
  funext a
  apply Fin.ext
  match a with
  | ⟨0, _⟩ => show win2_5.index t (0 : Fin 2) * 4000 + 1 * p.val = 4000 * t.val + p.val; rw [e0]; omega
  | ⟨1, _⟩ => show win2_5.index t (1 : Fin 2) * 64 + 1 * q.val = q.val; rw [e1]; omega

/-- An index of the first output array is in point t's block iff each coordinate is in the block's range. -/
theorem mem_nbr_block (t : Fin cfg2.N) (i : S100000x64.Idx) :
    i ∈ ((cfg2.win 4).blk t).view.set ↔ ∀ a : Fin 2, win2_4.index t a * S4000x64.size a ≤ (i a).val ∧ (i a).val < win2_4.index t a * S4000x64.size a + S4000x64.size a := by
  show i ∈ ((View.whole main_v36_0).slice (win2_4.rect t)).set ↔ _
  rw [View.set_slice_whole, Rect.mem_set_unit]
  exact Iff.rfl

/-- An index of the second output array is in point t's block iff each coordinate is in the block's range. -/
theorem mem_root_block (t : Fin cfg2.N) (i : S100000x64.Idx) :
    i ∈ ((cfg2.win 5).blk t).view.set ↔ ∀ a : Fin 2, win2_5.index t a * S4000x64.size a ≤ (i a).val ∧ (i a).val < win2_5.index t a * S4000x64.size a + S4000x64.size a := by
  show i ∈ ((View.whole main_v36_1).slice (win2_5.rect t)).set ↔ _
  rw [View.set_slice_whole, Rect.mem_set_unit]
  exact Iff.rfl

/-- Every entry of the first output array is in the block of the point (row / 4000), which writes back. -/
theorem nbr_covered (i : S100000x64.Idx) :
    ∃ t : Fin cfg2.N, (cfg2.win 4).flush t = true ∧ i ∈ ((cfg2.win 4).blk t).view.set := by
  have hi0 : (i 0).val < 100000 := (i 0).isLt
  have hi1 : (i 1).val < 64 := (i 1).isLt
  obtain ⟨t, ht⟩ : ∃ t : Fin cfg2.N, t.val = (i 0).val / 4000 :=
    ⟨⟨(i 0).val / 4000, lt_of_lt_of_eq (by omega : (i 0).val / 4000 < 25) N_2.symm⟩, rfl⟩
  obtain ⟨-, -, -, -, -, -, -, e0, e1, -⟩ := block_index t
  refine ⟨t, flush2_4 t, ?_⟩
  rw [mem_nbr_block]
  intro a
  match a with
  | ⟨0, _⟩ => show win2_4.index t (0 : Fin 2) * 4000 ≤ (i 0).val ∧ (i 0).val < win2_4.index t (0 : Fin 2) * 4000 + 4000; rw [e0]; omega
  | ⟨1, _⟩ => show win2_4.index t (1 : Fin 2) * 64 ≤ (i 1).val ∧ (i 1).val < win2_4.index t (1 : Fin 2) * 64 + 64; rw [e1]; omega

/-- Every entry of the second output array is in the block of the point (row / 4000), which writes back. -/
theorem root_covered (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  obtain ⟨t, ht⟩ : ∃ t : Fin cfg2.N, t.val = (i 0).val / 4000 :=
    ⟨⟨(i 0).val / 4000, lt_of_lt_of_eq (by omega : (i 0).val / 4000 < 25) N_2.symm⟩, rfl⟩
  obtain ⟨-, -, -, -, -, -, -, -, -, e0, e1⟩ := block_index t
  refine ⟨t, flush2_5 t, ?_⟩
  rw [mem_root_block]
  intro a
  match a with
  | ⟨0, _⟩ => show win2_5.index t (0 : Fin 2) * 4000 ≤ (i 0).val ∧ (i 0).val < win2_5.index t (0 : Fin 2) * 4000 + 4000; rw [e0]; omega
  | ⟨1, _⟩ => show win2_5.index t (1 : Fin 2) * 64 ≤ (i 1).val ∧ (i 1).val < win2_5.index t (1 : Fin 2) * 64 + 64; rw [e1]; omega

end Cert.MeanAgg.Kernel

end
-- ==== Proof.RegionProject.lean ====
/-
  The projection region, whole: each of its two output arrays as one function of the arrays it reads.

  At every grid point the body stores, for its 4000 rows, the rows times the neighbour weights into the first output
  window and the rows times the root weights plus the bias into the second. A point's block of rows is a block of
  rows of the hidden array, the weights and the bias are the same at every point, and the 25 blocks cover the output
  arrays; so row n, channel q of the first output is the sum over k of h (n, k) * Wl (k, q), and of the second the
  sum over k of h (n, k) * Wr (k, q), plus b q.
-/
import proofs.«164546_j60851096649749_2_alg».proof.Proof.GenPKernelIdealFrame
import proofs.«164546_j60851096649749_2_alg».proof.Proof.Spec
import proofs.«164546_j60851096649749_2_alg».proof.Proof.RegionProjectPayload
import proofs.«164546_j60851096649749_2_alg».proof.Proof.RegionProjectBlocks

noncomputable section

open scoped BigOperators

namespace Cert.MeanAgg.Kernel

open Idealize.ShloMosaic Idealize.ShloMosaic.ValueIdx Idealize.ShloMosaic.TcCoe Idealize.SL.Sem Cert.KernelIdeal Cert.KernelIdeal.Gen Cert.MeanAgg

/-- What point t writes back to the first output: its rows of the hidden array times the neighbour weights. -/
theorem nbr_flushed (V : (c : Dev nD) → (b : Ref sig .tc) → Buf (Elt Ideal) ((c : Thread nD τ).loc b)) (c : Dev nD) (t : Fin cfg2.N) :
    (dat2 (F := Ideal) V c).flushed 4 t
      = ((cfg2.win 4).blk t).view.read (Elt Ideal) (mat (projNbr (V c main_v35) (V c main_arg16)) : Mat 100000 64) := by
  show (cfg2.win 4).cut (grid2.coords t) ((dat2 (F := Ideal) V c).after 4 t) = _
  rw [after2_4]
  unfold out2_4
  rw [View.canon_unit_zero zero_pair]
  simp only [View.ld_unit_zero (S := S4000x128) zero_pair, View.ld_unit_zero (S := S128x64) zero_pair]
  funext j
  obtain ⟨p, q, rfl⟩ : ∃ (p : Fin 4000) (q : Fin 64), j = ix2 p q := ⟨j 0, j 1, eq_ix2 j⟩
  refine (nbr_payload_apply (iblk2 V c 0 t) (iblk2 V c 1 t) p q).trans ?_
  rw [View.read_apply, nbr_out_emb t p q]
  show _ = projNbr (V c main_v35) (V c main_arg16) (blockRow t p) q
  unfold projNbr
  refine Finset.sum_congr rfl fun k _ => ?_
  exact congrArg₂ (· * ·) (rows_block_apply V c t p k) (congrFun (nbr_weights_block V c t) (ix2 k q))

/-- What point t writes back to the second output: its rows times the root weights, plus the bias. -/
theorem root_flushed (V : (c : Dev nD) → (b : Ref sig .tc) → Buf (Elt Ideal) ((c : Thread nD τ).loc b)) (c : Dev nD) (t : Fin cfg2.N) :
    (dat2 (F := Ideal) V c).flushed 5 t
      = ((cfg2.win 5).blk t).view.read (Elt Ideal)
          (mat (projRoot (V c main_v35) (V c main_arg18) (V c main_arg17)) : Mat 100000 64) := by
  show (cfg2.win 5).cut (grid2.coords t) ((dat2 (F := Ideal) V c).after 5 t) = _
  rw [after2_5]
  unfold out2_5
  rw [View.canon_unit_zero zero_pair]
  simp only [View.ld_unit_zero (S := S4000x128) zero_pair, View.ld_unit_zero (S := S128x64) zero_pair,
    View.ld_unit_zero (S := S64) zero_single]
  funext j
  obtain ⟨p, q, rfl⟩ : ∃ (p : Fin 4000) (q : Fin 64), j = ix2 p q := ⟨j 0, j 1, eq_ix2 j⟩
  refine (root_payload_apply (iblk2 V c 0 t) (iblk2 V c 3 t) (iblk2 V c 2 t) p q).trans ?_
  rw [View.read_apply, root_out_emb t p q]
  show _ = projRoot (V c main_v35) (V c main_arg18) (V c main_arg17) (blockRow t p) q
  unfold projRoot
  refine congrArg₂ (· + ·) (Finset.sum_congr rfl fun k _ => ?_) (congrFun (bias_block V c t) (ix1 q))
  exact congrArg₂ (· * ·) (rows_block_apply V c t p k) (congrFun (root_weights_block V c t) (ix2 k q))

/-- Region 2's first output whole: the hidden rows times the neighbour weights. -/
theorem region2_nbr_value (V : (c : Dev nD) → (b : Ref sig .tc) → Buf (Elt Ideal) ((c : Thread nD τ).loc b)) (c : Dev nD) (n : Fin 100000) (q : Fin 64) :
    ((dat2 (F := Ideal) V c).arrAt 4 cfg2.N : Mat 100000 64) (ix2 n q)
      = projNbr (V c main_v35) (V c main_arg16) n q := by
  rw [(dat2 (F := Ideal) V c).arrAt_eq_of_cover 4 (mat (projNbr (V c main_v35) (V c main_arg16)) : Mat 100000 64)
    (fun t _ => nbr_flushed V c t) nbr_covered]
  rfl

/-- Region 2's second output whole: the hidden rows times the root weights, plus the bias. -/
theorem region2_root_value (V : (c : Dev nD) → (b : Ref sig .tc) → Buf (Elt Ideal) ((c : Thread nD τ).loc b)) (c : Dev nD) (n : Fin 100000) (q : Fin 64) :
    ((dat2 (F := Ideal) V c).arrAt 5 cfg2.N : Mat 100000 64) (ix2 n q)
      = projRoot (V c main_v35) (V c main_arg18) (V c main_arg17) n q := by
  rw [(dat2 (F := Ideal) V c).arrAt_eq_of_cover 5
    (mat (projRoot (V c main_v35) (V c main_arg18) (V c main_arg17)) : Mat 100000 64)
    (fun t _ => root_flushed V c t) root_covered]
  rfl

end Cert.MeanAgg.Kernel

end
-- ==== Proof.RegionOutputPayload.lean ====
/-
  The last layer's arithmetic on one block of 4000 rows, read entry by entry.

  A block holds 4000 rows of the neighbour sum s, of the column of reciprocals inv and of the root part r. The body
  forms h = s * inv + r row by row (the column repeated across the 64 channels), takes the row's maximum from
  -infinity and once more against -infinity, subtracts it, exponentiates, sums the row from zero, takes the
  logarithm and subtracts that: entry (p, q) of the result is the logarithm of the softmax of row p of h, at
  channel q. Each stage below is one operation of the body read at explicit coordinates.
-/
import proofs.«164546_j60851096649749_2_alg».proof.Proof.Gen.KernelIdeal.Skeleton
import proofs.«164546_j60851096649749_2_alg».proof.Proof.Spec
import proofs.«164546_j60851096649749_2_alg».proof.Proof.LibChannelRows

noncomputable section

open scoped BigOperators

namespace Cert.MeanAgg.Kernel.Output

open Idealize.ShloMosaic Idealize.ShloMosaic.ValueIdx Cert.KernelIdeal Cert.KernelIdeal.Gen Cert.MeanAgg

section Block
variable (x0 : Vec Ideal S4000x64 .f32) (x1 : Vec Ideal S4000x1 .f32) (x2 : Vec Ideal S4000x64 .f32)

/-- Row p of h = s * inv + r inside the block. -/
def blockRow (p : Fin 4000) : Fin 64 → EReal :=
  fun c' => x0 (ix2 p c') * x1 (ix2 p (0 : Fin 1)) + x2 (ix2 p c')

/-- The block of h as the body forms it: the column of reciprocals broadcast across the channels, times s, plus r. -/
def blockSum : FVec Ideal S4000x64 .f32 :=
  addf (mulf (shapeCast S4000x64 x0 shapeCasts_S4000x64_S4000x64)
      (broadcastTo S4000x64 (shapeCast S4000x1 x1 shapeCasts_S4000x1_S4000x1) broadcasts_S4000x1_S4000x64))
    (shapeCast S4000x64 x2 shapeCasts_S4000x64_S4000x64)

/-- Entry (p, c) of that block is s(p,c) * inv(p,0) + r(p,c). -/
theorem blockSum_apply (p : Fin 4000) (c : Fin 64) : blockSum x0 x1 x2 (ix2 p c) = blockRow x0 x1 x2 p c := by
  show shapeCast S4000x64 x0 shapeCasts_S4000x64_S4000x64 (ix2 p c)
      * broadcastTo S4000x64 (shapeCast S4000x1 x1 shapeCasts_S4000x1_S4000x1) broadcasts_S4000x1_S4000x64 (ix2 p c)
      + shapeCast S4000x64 x2 shapeCasts_S4000x64_S4000x64 (ix2 p c) = _
  rw [shapeCast_self, shapeCast_self, shapeCast_self]
  rw [broadcastTo_a1_ab_apply x1 broadcasts_S4000x1_S4000x64 p c]
  rfl

end Block

section Rows
variable (h : FVec Ideal S4000x64 .f32)

/-- The row maxima: the maximum along the channels from -infinity, then once more against -infinity. -/
def blockTop : FVec Ideal S4000 .f32 :=
  maximumf (broadcast S4000 (Scalar.ofBits (F := Ideal) .f32 0xFF800000#32))
    (multiReduction .maximumf [1] S4000 h 0xFF800000#32 reduces_S4000x64_S4000 (.inl rfl) rfl)

/-- Entry p of the row maxima is the top of row p. -/
theorem blockTop_apply (p : Fin 4000) : blockTop h (ix1 p) = rowTop (fun c' => h (ix2 p c')) := by
  show max (Ideal.ofBits .f32 0xFF800000#32)
      (multiReduction .maximumf [1] S4000 h 0xFF800000#32 reduces_S4000x64_S4000 (.inl rfl) rfl (ix1 p)) = _
  exact congrArg (max (Ideal.ofBits .f32 0xFF800000#32))
    (Cert.ChannelRows.rowMax_apply h reduces_S4000x64_S4000 (.inl rfl) rfl p)

/-- The block with each row's top subtracted. -/
def blockShift : FVec Ideal S4000x64 .f32 :=
  subf h (broadcastTo S4000x64 (shapeCast S4000x1 (blockTop h) shapeCasts_S4000_S4000x1) broadcasts_S4000x1_S4000x64)

theorem blockShift_apply (p : Fin 4000) (c : Fin 64) :
    blockShift h (ix2 p c) = h (ix2 p c) - rowTop (fun c' => h (ix2 p c')) := by
  show h (ix2 p c)
      - broadcastTo S4000x64 (shapeCast S4000x1 (blockTop h) shapeCasts_S4000_S4000x1) broadcasts_S4000x1_S4000x64 (ix2 p c) = _
  rw [Cert.ChannelRows.row_value_over_columns_apply (blockTop h) shapeCasts_S4000_S4000x1 broadcasts_S4000x1_S4000x64 p c,
    blockTop_apply]

/-- The logarithm of each row's sum of exponentials, kept as a column. -/
def blockLogSum : FVec Ideal S4000x1 .f32 :=
  log (shapeCast S4000x1
    (multiReduction .add [1] S4000 (exp (blockShift h)) 0x00000000#32 reduces_S4000x64_S4000 (.inl rfl) rfl)
    shapeCasts_S4000_S4000x1)

theorem blockLogSum_apply (p : Fin 4000) (u : Fin 1) :
    blockLogSum h (ix2 p u)
      = Ideal.log (∑ k : Fin 64, Ideal.exp (h (ix2 p k) - rowTop (fun c' => h (ix2 p c')))) := by
  show Ideal.log (shapeCast S4000x1
    (multiReduction .add [1] S4000 (exp (blockShift h)) 0x00000000#32 reduces_S4000x64_S4000 (.inl rfl) rfl)
    shapeCasts_S4000_S4000x1 (ix2 p u)) = _
  rw [Cert.KeepdimsSum.rowSum_column_apply (exp (blockShift h)) reduces_S4000x64_S4000 (.inl rfl) rfl
    shapeCasts_S4000_S4000x1 p u]
  refine congrArg Ideal.log (Finset.sum_congr rfl fun k _ => ?_)
  show Ideal.exp (blockShift h (ix2 p k)) = _
  rw [blockShift_apply]

/-- The block of results: the shifted block minus the column of logarithms repeated across the channels. -/
def blockLogSoftmax : FVec Ideal S4000x64 .f32 :=
  subf (blockShift h) (broadcastTo S4000x64 (blockLogSum h) broadcasts_S4000x1_S4000x64)

/-- Entry (p, q) is the logarithm of the softmax of row p, at channel q. -/
theorem blockLogSoftmax_apply (p : Fin 4000) (q : Fin 64) :
    blockLogSoftmax h (ix2 p q) = logSoftmax (fun c' => h (ix2 p c')) q := by
  show blockShift h (ix2 p q) - broadcastTo S4000x64 (blockLogSum h) broadcasts_S4000x1_S4000x64 (ix2 p q) = _
  rw [broadcastTo_a1_ab_apply (blockLogSum h) broadcasts_S4000x1_S4000x64 p q, blockShift_apply, blockLogSum_apply]
  unfold logSoftmax
  rw [Ideal.ofBits_zero_f32, zero_add]

end Rows

/-- The body's arithmetic is these stages composed. -/
theorem finalPayload_eq (x0 : Vec Ideal S4000x64 .f32) (x1 : Vec Ideal S4000x1 .f32) (x2 : Vec Ideal S4000x64 .f32) :
    k3_pay1 (F := Ideal) x0 x1 x2 = blockLogSoftmax (blockSum x0 x1 x2) := rfl

/-- The body's result at row p, channel q of the block: the logarithm of the softmax of row p of s * inv + r. -/
theorem finalPayload_apply (x0 : Vec Ideal S4000x64 .f32) (x1 : Vec Ideal S4000x1 .f32) (x2 : Vec Ideal S4000x64 .f32)
    (p : Fin 4000) (q : Fin 64) :
    k3_pay1 (F := Ideal) x0 x1 x2 (ix2 p q)
      = logSoftmax (fun c' => x0 (ix2 p c') * x1 (ix2 p (0 : Fin 1)) + x2 (ix2 p c')) q := by
  rw [finalPayload_eq, blockLogSoftmax_apply]
  refine congrArg (fun g : Fin 64 → EReal => logSoftmax g q) (funext fun c' => ?_)
  exact blockSum_apply x0 x1 x2 p c'

/-- The same entry when the block's rows are known to be rows of three whole arrays: if row p of the three blocks is
    row n of s, of inv and of r, the body's result at (p, q) is the last layer's value at node n, channel q. The block
    index y is given by its coordinates, so that it may be any spelling of (p, q). -/
theorem block_entry (A0 : Mat 100000 64) (A1 : Mat 100000 1) (A2 : Mat 100000 64)
    (x0 : Vec Ideal S4000x64 .f32) (x1 : Vec Ideal S4000x1 .f32) (x2 : Vec Ideal S4000x64 .f32)
    (n : Fin 100000) (p : Fin 4000) (q : Fin 64) (y : S4000x64.Idx) (hy0 : (y 0).val = p.val) (hy1 : (y 1).val = q.val)
    (h0 : ∀ k : Fin 64, x0 (ix2 p k) = A0 (ix2 n k)) (h1 : x1 (ix2 p (0 : Fin 1)) = A1 (ix2 n (0 : Fin 1)))
    (h2 : ∀ k : Fin 64, x2 (ix2 p k) = A2 (ix2 n k)) :
    k3_pay1 (F := Ideal) x0 x1 x2 y = outRecip A0 A1 A2 n q := by
  obtain rfl : y = ix2 p q := funext fun a => Fin.ext (by
    match a with
    | ⟨0, _⟩ => exact hy0
    | ⟨1, _⟩ => exact hy1)
  rw [finalPayload_apply]
  unfold outRecip
  refine congrArg (fun g : Fin 64 → EReal => logSoftmax g q) (funext fun c' => ?_)
  rw [h0, h1, h2]

end Cert.MeanAgg.Kernel.Output

end
-- ==== Proof.RegionOutput.lean ====
import proofs.«164546_j60851096649749_2_alg».proof.Proof.GenPKernelIdealFrame
import proofs.«164546_j60851096649749_2_alg».proof.Proof.Spec
import proofs.«164546_j60851096649749_2_alg».proof.Proof.RegionOutputPayload
import Idealize.ShloMosaic.Lib.Pipeline.Value

/-
  The last region's result array, whole.

  The region walks 25 blocks of 4000 rows. At block t the three input windows hold rows 4000 t … 4000 t + 3999 of
  the neighbour sum, of the column of reciprocals and of the root part, and the body writes back, as rows
  4000 t … 4000 t + 3999 of the result, the logarithm of the softmax of s * inv + r row by row. Row n of the result
  lies in block n / 4000, so the 25 blocks cover the array and the array ends holding the last layer's value at
  every node and channel.
-/

noncomputable section

open scoped BigOperators

namespace Cert.MeanAgg.Kernel

open Idealize.ShloMosaic Idealize.ShloMosaic.ValueIdx Idealize.ShloMosaic.TcCoe Idealize.SL.Sem Cert.KernelIdeal Cert.KernelIdeal.Gen Cert.MeanAgg
open Idealize.ShloMosaic.Pipeline (Dat)

namespace Output

section Blocks
variable (V : (c : Dev nD) → (b : Ref sig .tc) → Buf (Elt Ideal) ((c : Thread nD τ).loc b))

theorem zeroOffsets : (![0, 0] : Fin 2 → Nat) = fun _ => 0 := funext fun a => by fin_cases a <;> rfl

/-- The four windows move together: at point t each is at block (t, 0). -/
theorem block_index : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

theorem point_lt (t : Fin cfg3.N) : t.val < 25 :=
  lt_of_lt_of_eq t.isLt (show cfg3.N = 25 from N_3)

/-- Row p of block t of the neighbour sum is row 4000 t + p of the array. -/
theorem sumBlock_apply (c : Dev nD) (t : Fin cfg3.N) (p : Fin 4000) (k : Fin 64) (n : Fin 100000)
    (hn : n.val = t.val * 4000 + p.val) :
    (iblk3 V c 0 t : Vec Ideal S4000x64 .f32) (ix2 p k) = (V c main_v46 : Mat 100000 64) (ix2 n k) := by
  obtain ⟨e0, e1, -⟩ := block_index t
  have h : ((cfg3.win 0).blk t).view.emb (ix2 p k) = (ix2 n k : S100000x64.Idx) := by
    funext a; apply Fin.ext
    match a with
    | ⟨0, _⟩ => show win3_0.index t (0 : Fin 2) * 4000 + 1 * p.val = n.val; omega
    | ⟨1, _⟩ => show win3_0.index t (1 : Fin 2) * 64 + 1 * k.val = k.val; omega
  show V c main_v46 (((cfg3.win 0).blk t).view.emb (ix2 p k)) = V c main_v46 (ix2 n k)
  rw [h]

/-- Row p of block t of the column of reciprocals is row 4000 t + p of the column. -/
theorem recipBlock_apply (c : Dev nD) (t : Fin cfg3.N) (p : Fin 4000) (n : Fin 100000)
    (hn : n.val = t.val * 4000 + p.val) :
    (iblk3 V c 1 t : Vec Ideal S4000x1 .f32) (ix2 p (0 : Fin 1)) = (V c main_v12 : Mat 100000 1) (ix2 n (0 : Fin 1)) := by
  obtain ⟨-, -, e0, e1, -⟩ := block_index t
  have h : ((cfg3.win 1).blk t).view.emb (ix2 p (0 : Fin 1)) = (ix2 n (0 : Fin 1) : S100000x1.Idx) := by
    funext a; apply Fin.ext
    match a with
    | ⟨0, _⟩ => show win3_1.index t (0 : Fin 2) * 4000 + 1 * p.val = n.val; omega
    | ⟨1, _⟩ => show win3_1.index t (1 : Fin 2) * 1 + 1 * 0 = 0; omega
  show V c main_v12 (((cfg3.win 1).blk t).view.emb (ix2 p (0 : Fin 1))) = V c main_v12 (ix2 n (0 : Fin 1))
  rw [h]

/-- Row p of block t of the root part is row 4000 t + p of the array. -/
theorem rootBlock_apply (c : Dev nD) (t : Fin cfg3.N) (p : Fin 4000) (k : Fin 64) (n : Fin 100000)
    (hn : n.val = t.val * 4000 + p.val) :
    (iblk3 V c 2 t : Vec Ideal S4000x64 .f32) (ix2 p k) = (V c main_v36_1 : Mat 100000 64) (ix2 n k) := by
  obtain ⟨-, -, -, -, e0, e1, -⟩ := block_index t
  have h : ((cfg3.win 2).blk t).view.emb (ix2 p k) = (ix2 n k : S100000x64.Idx) := by
    funext a; apply Fin.ext
    match a with
    | ⟨0, _⟩ => show win3_2.index t (0 : Fin 2) * 4000 + 1 * p.val = n.val; omega
    | ⟨1, _⟩ => show win3_2.index t (1 : Fin 2) * 64 + 1 * k.val = k.val; omega
  show V c main_v36_1 (((cfg3.win 2).blk t).view.emb (ix2 p k)) = V c main_v36_1 (ix2 n k)
  rw [h]

/-- The last layer's value over the whole array, from the three arrays as the region finds them. -/
abbrev lastLayer (c : Dev nD) : Mat 100000 64 := mat (outRecip (V c main_v46) (V c main_v12) (V c main_v36_1))

/-- What point t writes back is block t of the last layer's value. -/
theorem writeback_eq (c : Dev nD) (t : Fin cfg3.N) :
    (dat3 (F := Ideal) V c).flushed 3 t = ((cfg3.win 3).blk t).view.read (Elt Ideal) (lastLayer V c) := by
  show (cfg3.win 3).cut (grid3.coords t) ((dat3 (F := Ideal) V c).after 3 t) = _
  rw [after3_3]
  unfold out3_3
  rw [View.canon_unit_zero zeroOffsets]
  simp only [View.ld_unit_zero (S := S4000x64) zeroOffsets, View.ld_unit_zero (S := S4000x1) zeroOffsets]
  funext j
  have ht := point_lt t
  have hp : (j 0).val < 4000 := (j 0).isLt
  have hq : (j 1).val < 64 := (j 1).isLt
  have hn : t.val * 4000 + (j 0).val < 100000 := by omega
  obtain ⟨-, -, -, -, -, -, e0, e1⟩ := block_index t
  have he : ((cfg3.win 3).blk t).view.emb j
      = (ix2 (⟨t.val * 4000 + (j 0).val, hn⟩ : Fin 100000) (⟨(j 1).val, hq⟩ : Fin 64) : S100000x64.Idx) := by
    funext a; apply Fin.ext
    match a with
    | ⟨0, _⟩ => show win3_3.index t (0 : Fin 2) * 4000 + 1 * (j 0).val = t.val * 4000 + (j 0).val; omega
    | ⟨1, _⟩ => show win3_3.index t (1 : Fin 2) * 64 + 1 * (j 1).val = (j 1).val; omega
  show k3_pay1 (F := Ideal) (iblk3 V c 0 t) (iblk3 V c 1 t) (iblk3 V c 2 t) ((cfg3.win 3).xinj (grid3.coords t) j)
      = lastLayer V c (((cfg3.win 3).blk t).view.emb j)
  rw [he]
  exact block_entry (V c main_v46) (V c main_v12) (V c main_v36_1) (iblk3 V c 0 t) (iblk3 V c 1 t) (iblk3 V c 2 t)
    ⟨t.val * 4000 + (j 0).val, hn⟩ ⟨(j 0).val, hp⟩ ⟨(j 1).val, hq⟩ ((cfg3.win 3).xinj (grid3.coords t) j) rfl rfl
    (fun k => sumBlock_apply V c t ⟨(j 0).val, hp⟩ k ⟨t.val * 4000 + (j 0).val, hn⟩ rfl)
    (recipBlock_apply V c t ⟨(j 0).val, hp⟩ ⟨t.val * 4000 + (j 0).val, hn⟩ rfl)
    (fun k => rootBlock_apply V c t ⟨(j 0).val, hp⟩ k ⟨t.val * 4000 + (j 0).val, hn⟩ rfl)

/-- An index of the result array is in point t's block iff each coordinate is in the block's range on its axis. -/
theorem mem_block (t : Fin cfg3.N) (i : S100000x64.Idx) :
    i ∈ ((cfg3.win 3).blk t).view.set ↔ ∀ a : Fin 2, win3_3.index t a * S4000x64.size a ≤ (i a).val
      ∧ (i a).val < win3_3.index t a * S4000x64.size a + S4000x64.size a := by
  show i ∈ ((View.whole main_v47).slice (win3_3.rect t)).set ↔ _
  rw [View.set_slice_whole, Rect.mem_set_unit]
  exact Iff.rfl

/-- Row n of the result lies in the block of point n / 4000: the 25 blocks cover the array. -/
theorem covered (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  have ht : (i 0).val / 4000 < grid3.N := by rw [N_3]; omega
  obtain ⟨-, -, -, -, -, -, e0, e1⟩ := block_index ⟨(i 0).val / 4000, ht⟩
  have e0' : win3_3.index ⟨(i 0).val / 4000, ht⟩ (0 : Fin 2) = (i 0).val / 4000 := e0
  refine ⟨⟨(i 0).val / 4000, ht⟩, flush3_3 _, ?_⟩
  rw [mem_block]
  intro a
  match a with
  | ⟨0, _⟩ =>
    show win3_3.index ⟨(i 0).val / 4000, ht⟩ (0 : Fin 2) * 4000 ≤ (i 0).val
      ∧ (i 0).val < win3_3.index ⟨(i 0).val / 4000, ht⟩ (0 : Fin 2) * 4000 + 4000
    omega
  | ⟨1, _⟩ =>
    show win3_3.index ⟨(i 0).val / 4000, ht⟩ (1 : Fin 2) * 64 ≤ (i 1).val
      ∧ (i 1).val < win3_3.index ⟨(i 0).val / 4000, ht⟩ (1 : Fin 2) * 64 + 64
    omega

/-- The result array after the region: the last layer's value everywhere. -/
theorem region3_array (c : Dev nD) : (dat3 (F := Ideal) V c).arrAt 3 cfg3.N = lastLayer V c :=
  (dat3 (F := Ideal) V c).arrAt_eq_of_cover 3 (lastLayer V c) (fun t _ => writeback_eq V c t) (covered)

end Blocks

end Output

/-- Region 3 whole: rescale the neighbour sum, add the root part, take the logarithm of the softmax of the row. -/
theorem region3_value (V : (c : Dev nD) → (b : Ref sig .tc) → Buf (Elt Ideal) ((c : Thread nD τ).loc b)) (c : Dev nD) (n : Fin 100000) (q : Fin 64) :
    ((dat3 (F := Ideal) V c).arrAt 3 cfg3.N : Mat 100000 64) (ix2 n q)
      = outRecip (V c main_v46) (V c main_v12) (V c main_v36_1) n q :=
  (congrFun (Output.region3_array V c) (ix2 n q)).trans (mat_ix2 _ n q)

end Cert.MeanAgg.Kernel

end
-- ==== Proof.LibRowGather.lean ====
/-
  A row gather read at an index.

  What `x[idx]` of a matrix `x : [N, C]` at an index column `idx : [R, 1]` lowers to: `stablehlo.gather` with
  offset_dims `[1]`, collapsed_slice_dims `[0]`, start_index_map `[0]`, index_vector_dim 1, slice_sizes `[1, C]` and no
  batching axes; the result has shape `[R, C]`. Result element `(r, c)` is `x` at the row "`idx[r, 0]` read as a signed
  integer and clamped into `[0, N − 1]`" and the column `c`: on operand axis 0 (in the start index map, collapsed) the
  operand index is the clamped start alone, on operand axis 1 (not in the start index map, so its start is 0; the one
  offset axis) it is the result's second coordinate.
-/
import Idealize.ShloMosaic.PureOps.ShapeOps
import Idealize.ShloMosaic.Lib.ValueIdx

namespace Idealize.ShloMosaic.RowGather

open Idealize.ShloMosaic Idealize.ShloMosaic.ValueIdx

variable {α : Type}

/-- The row gather's dimension numbers for an operand `[N, C]`, start indices `[R, 1]` and result `[R, C]`; their
    conditions `wf` are decided on a program's literal shapes. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(r, c)`, for the record `rowDims`: the operand at row `idx[r, 0]`, read signed and clamped
    into `[0, N − 1]`, and column `c`. -/
theorem rowDims_gather_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowDims N C R wf) x idx (ix2 r c)
      = x (ix2 ⟨min (idx (ix2 r ⟨0, Nat.one_pos⟩)).toInt.toNat (N - 1), by omega⟩ c) := by
  unfold Host.gather
  congr 1
  funext a
  refine Fin.ext ?_
  match a with
  | ⟨0, _⟩ =>
    show (rowDims N C R wf).start (ix2 r c) idx 0 + (rowDims N C R wf).batchCoord (ix2 r c) 0
      + (rowDims N C R wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C R wf).startIndexMap from List.mem_singleton.mpr rfl)]
    have hsi : (rowDims N C R wf).siIdx (ix2 r c) ⟨List.idxOf (0 : Fin 2) (rowDims N C R wf).startIndexMap,
        List.idxOf_lt_length_iff.2 (List.mem_singleton.mpr rfl)⟩ = ix2 r ⟨0, Nat.one_pos⟩ := by
      funext b; refine Fin.ext ?_
      match b with
      | ⟨0, _⟩ => rfl
      | ⟨1, _⟩ => rfl
    rw [hsi]
    rfl
  | ⟨1, _⟩ =>
    show (rowDims N C R wf).start (ix2 r c) idx 1 + (rowDims N C R wf).batchCoord (ix2 r c) 1
      + (rowDims N C R wf).offCoord (ix2 r c) 1 = c.val
    have hst : (rowDims N C R wf).start (ix2 r c) idx 1 = 0 := by
      unfold GatherDims.start
      rw [dif_neg (show ¬ (1 : Fin 2) ∈ (rowDims N C R wf).startIndexMap from
        (by decide : (1 : Fin 2) ∉ ([0] : List (Fin 2))))]
    have hk : (1 : Fin 2) ∈ (rowDims N C R wf).sKept :=
      (GatherDims.mem_sKept _ _).mpr ⟨(by decide : (1 : Fin 2) ∉ ([0] : List (Fin 2))), List.not_mem_nil⟩
    rw [hst, GatherDims.batchCoord_eq_zero _ _ _ List.not_mem_nil]
    simp only [Nat.zero_add]
    unfold GatherDims.offCoord
    rw [dif_pos hk]
    rfl

/-- THE ROW GATHER READ AT `(r, c)`, for any record with the row gather's dimension numbers: the operand at row
    `idx[r, 0]`, read signed and clamped into `[0, N − 1]`, and column `c`. -/
theorem rowGather_apply {N C R w : Nat} (hN : 0 < N) (d : GatherDims ⟨2, ![N, C]⟩ ⟨2, ![R, 1]⟩ ⟨2, ![R, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![R, 1]⟩ w) (r : Fin R) (c : Fin C) :
    Host.gather d x idx (ix2 r c)
      = x (ix2 ⟨min (idx (ix2 r ⟨0, Nat.one_pos⟩)).toInt.toNat (N - 1), by omega⟩ c) := by
  obtain ⟨od, cd, ob, sb, sm, iv, ss, wf⟩ := d
  simp only at h1 h2 h3 h4 h5 h6 h7
  subst h1 h2 h3 h4 h5 h6 h7
  exact rowDims_gather_apply hN wf x idx r c

end Idealize.ShloMosaic.RowGather
-- ==== Proof.KernelHost.lean ====
import proofs.«164546_j60851096649749_2_alg».proof.Proof.GenPKernelIdealLaunch
import proofs.«164546_j60851096649749_2_alg».proof.Proof.Spec
import proofs.«164546_j60851096649749_2_alg».proof.Proof.LibRowGather
import Idealize.ShloMosaic.Lib.IdealHost
import Idealize.ShloMosaic.Lib.Pipeline.Value
import Idealize.ShloMosaic.Lib.StableHlo.Run

/-!
  The host stages of the program, named and read at an index.

  Between the regions the program computes, from the edge list, a column of source rows and a column of target
  rows; the column of reciprocals 1 / max(deg, 1), deg counted by adding a one per edge at its target; and, three
  times, a neighbour sum: gather the source rows of an array, add them up from zero at the targets. Each of these is
  named here as one function of the arrays it reads, each stretch of host operations is shown to leave that function
  of the contents it starts from in its result buffer, and each function is read at an index: the neighbour sums are
  `nbrSum`, the reciprocals `recip`.
-/

noncomputable section

open scoped BigOperators

namespace Cert.MeanAgg.Kernel

open Idealize.ShloMosaic Idealize.ShloMosaic.ValueIdx Idealize.ShloMosaic.TcCoe Idealize.SL.Sem Cert.KernelIdeal Cert.KernelIdeal.Gen Cert.MeanAgg

/-! ## The stages as functions -/

/-- Row 0 of the edge list as a vector: the source indices. -/
def srcVec (ei : (⟨S2x1600000, .i32⟩ : BufTy).Contents (Elt Ideal)) : (⟨S1600000, .i32⟩ : BufTy).Contents (Elt Ideal) :=
  shapeCast S1600000 (extractStridedSlice S1x1600000 ![0, 0] ei slices_S2x1600000_S1x1600000_0_0) shapeCasts_S1x1600000_S1600000

/-- Row 1 of the edge list as a vector: the target indices. -/
def dstVec (ei : (⟨S2x1600000, .i32⟩ : BufTy).Contents (Elt Ideal)) : (⟨S1600000, .i32⟩ : BufTy).Contents (Elt Ideal) :=
  shapeCast S1600000 (extractStridedSlice S1x1600000 ![1, 0] ei slices_S2x1600000_S1x1600000_1_0) shapeCasts_S1x1600000_S1600000

/-- The column of source indices a gather receives, from the vector of source indices: a negative index moved up by
    the number of nodes. -/
def srcOf (v : (⟨S1600000, .i32⟩ : BufTy).Contents (Elt Ideal)) : (⟨S1600000x1, .i32⟩ : BufTy).Contents (Elt Ideal) :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)

/-- The column of target indices a scatter receives, from the vector of target indices. -/
def dstOf (v : (⟨S1600000, .i32⟩ : BufTy).Contents (Elt Ideal)) : (⟨S1600000x1, .i32⟩ : BufTy).Contents (Elt Ideal) :=
  broadcastInDim S1600000x1 ![0] bcast_S1600000_S1600000x1_0 v

/-- The column of reciprocals 1 / max(deg, 1), deg the scatter of a one per edge, from zero, at the targets. -/
def invCol (dst : (⟨S1600000x1, .i32⟩ : BufTy).Contents (Elt Ideal)) : (⟨S100000x1, .f32⟩ : BufTy).Contents (Elt Ideal) :=
  broadcastInDim S100000x1 ![0] bcast_S100000_S100000x1_0
    (Host.divf (F := Ideal) (broadcastInDim S100000 ![] bcast_S_S100000 (constant (F := Ideal) S_ .f32 0x3F800000#32))
      (maximumf
        (Host.scatterAdd (F := Ideal) scatter_S100000_S1600000x1_S1600000_n_0_0_1
          (broadcastInDim S100000 ![] bcast_S_S100000 (constant (F := Ideal) S_ .f32 0x00000000#32)) dst
          (broadcastInDim S1600000 ![] bcast_S_S1600000 (constant (F := Ideal) S_ .f32 0x3F800000#32)))
        (broadcastInDim S100000 ![] bcast_S_S100000 (constant (F := Ideal) S_ .f32 0x3F800000#32))))

/-- The neighbour sum of a 128-channel array: its source rows gathered, added up from zero at the targets. -/
def agg128 (src dst : (⟨S1600000x1, .i32⟩ : BufTy).Contents (Elt Ideal)) (x : (⟨S100000x128, .f32⟩ : BufTy).Contents (Elt Ideal)) :
    (⟨S100000x128, .f32⟩ : BufTy).Contents (Elt Ideal) :=
  Host.scatterAdd (F := Ideal) scatter_S100000x128_S1600000x1_S1600000x128_1_0_0_1
    (broadcastInDim S100000x128 ![] bcast_S_S100000x128 (constant (F := Ideal) S_ .f32 0x00000000#32)) dst
    (Host.gather gather_S100000x128_S1600000x1_S1600000x128_1_0_n_n_0_1_1128 x src)

/-- The same of an array kept in the narrow format: gathered, widened, added up. -/
def agg128n (src dst : (⟨S1600000x1, .i32⟩ : BufTy).Contents (Elt Ideal)) (x : (⟨S100000x128, .bf16⟩ : BufTy).Contents (Elt Ideal)) :
    (⟨S100000x128, .f32⟩ : BufTy).Contents (Elt Ideal) :=
  Host.scatterAdd (F := Ideal) scatter_S100000x128_S1600000x1_S1600000x128_1_0_0_1
    (broadcastInDim S100000x128 ![] bcast_S_S100000x128 (constant (F := Ideal) S_ .f32 0x00000000#32)) dst
    (extf .f32 (Host.gather gather_S100000x128_S1600000x1_S1600000x128_1_0_n_n_0_1_1128 x src) bitsLt_bf16_f32)

/-- The neighbour sum of a 64-channel array. -/
def agg64 (src dst : (⟨S1600000x1, .i32⟩ : BufTy).Contents (Elt Ideal)) (x : (⟨S100000x64, .f32⟩ : BufTy).Contents (Elt Ideal)) :
    (⟨S100000x64, .f32⟩ : BufTy).Contents (Elt Ideal) :=
  Host.scatterAdd (F := Ideal) scatter_S100000x64_S1600000x1_S1600000x64_1_0_0_1
    (broadcastInDim S100000x64 ![] bcast_S_S100000x64 (constant (F := Ideal) S_ .f32 0x00000000#32)) dst
    (Host.gather gather_S100000x64_S1600000x1_S1600000x64_1_0_n_n_0_1_164 x src)

/-! ## What each stretch of host operations leaves -/

section Stretches
variable (Wv : Valuation τ sig (Elt Ideal))

/-- The first stretch leaves the vector of source indices, … -/
theorem host0_srcVec :
    StableHlo.after (hostOps0 (F := Ideal)) Wv (Proc.devRef .tc main_v1) = srcVec (Wv (Proc.devRef .tc main_arg1)) := by
  after_results_simp; rfl

/-- … the vector of target indices, … -/
theorem host0_dstVec :
    StableHlo.after (hostOps0 (F := Ideal)) Wv (Proc.devRef .tc main_v3) = dstVec (Wv (Proc.devRef .tc main_arg1)) := by
  after_results_simp; rfl

/-- … the column of reciprocals … -/
theorem host0_inv :
    StableHlo.after (hostOps0 (F := Ideal)) Wv (Proc.devRef .tc main_v12)
      = invCol (dstOf (dstVec (Wv (Proc.devRef .tc main_arg1)))) := by
  after_results_simp; rfl

/-- … and the neighbour sum of the node features. -/
theorem host0_agg :
    StableHlo.after (hostOps0 (F := Ideal)) Wv (Proc.devRef .tc main_v22)
      = agg128 (srcOf (srcVec (Wv (Proc.devRef .tc main_arg1)))) (dstOf (dstVec (Wv (Proc.devRef .tc main_arg1))))
          (Wv (Proc.devRef .tc main_arg0)) := by
  after_results_simp; rfl

/-- The second stretch leaves the neighbour sum of the first hidden layer. -/
theorem host1_agg :
    StableHlo.after (hostOps1 (F := Ideal)) Wv (Proc.devRef .tc main_v34)
      = agg128n (srcOf (Wv (Proc.devRef .tc main_v1))) (dstOf (Wv (Proc.devRef .tc main_v3)))
          (Wv (Proc.devRef .tc main_v23)) := by
  after_results_simp; rfl

/-- The third stretch leaves the neighbour sum of the projected rows. -/
theorem host3_agg :
    StableHlo.after (hostOps3 (F := Ideal)) Wv (Proc.devRef .tc main_v46)
      = agg64 (srcOf (Wv (Proc.devRef .tc main_v1))) (dstOf (Wv (Proc.devRef .tc main_v3)))
          (Wv (Proc.devRef .tc main_v36_0)) := by
  after_results_simp; rfl

end Stretches

/-! ## What each stretch leaves alone -/

section Keeps
variable (Wv : Valuation τ sig (Elt Ideal))

/-- A buffer that is none of the thirty the first stretch writes holds after it what it held before. -/
theorem host0_keep (b : Ref sig .tc)
    (hb : ∀ y ∈ [main_v0, main_v1, main_v2, main_v3, main_cst, main_v4, main_cst_0, main_v5, main_v6, main_v7, main_cst_1,
      main_v8, main_v9, main_cst_2, main_v10, main_v11, main_v12, main_c, main_v13, main_v14, main_c_3, main_v15, main_v16,
      main_v17, main_v18, main_v19, main_cst_4, main_v20, main_v21, main_v22], b ≠ y) :
    StableHlo.after (hostOps0 (F := Ideal)) Wv (Proc.devRef .tc b) = Wv (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (hb _ (by simp))))

/-- A buffer that is none of the fourteen the second stretch writes holds after it what it held before. -/
theorem host1_keep (b : Ref sig .tc)
    (hb : ∀ y ∈ [main_c_5, main_v24, main_v25, main_c_6, main_v26, main_v27, main_v28, main_v29, main_v30, main_v31,
      main_cst_7, main_v32, main_v33, main_v34], b ≠ y) :
    StableHlo.after (hostOps1 (F := Ideal)) Wv (Proc.devRef .tc b) = Wv (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (hb _ (by simp))))

/-- A buffer that is none of the thirteen the third stretch writes holds after it what it held before. -/
theorem host3_keep (b : Ref sig .tc)
    (hb : ∀ y ∈ [main_c_8, main_v37, main_v38, main_c_9, main_v39, main_v40, main_v41, main_v42, main_v43, main_cst_10,
      main_v44, main_v45, main_v46], b ≠ y) :
    StableHlo.after (hostOps3 (F := Ideal)) Wv (Proc.devRef .tc b) = Wv (Proc.devRef .tc b) :=
  StableHlo.after_of_forall_not_mem (b := Proc.devRef .tc b) _ _ (List.forall_iff_forall_mem.mp (by
    simp only [hostOps3, List.Forall, StableHlo.nullary_writes, StableHlo.unary_writes, StableHlo.binary_writes,
      StableHlo.ternary_writes, StableHlo.reshape_writes, Finset.mem_singleton]
    repeat' apply And.intro
    all_goals exact StableHlo.devRef_ne_of_ne (hb _ (by simp))))

end Keeps

/-! ## The stages at an index -/

/-- A vector stood up as a column reads, at (p, u), the vector's entry p. -/
theorem column_apply {α : Type} {a : Nat} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A scalar constant spread over any shape reads, everywhere, the extended real its word encodes. -/
theorem splat_apply {T : Shape} (h : (⟨0, ![]⟩ : Shape).BroadcastsInDim T ![]) (w : BitVec (FTy.bits .f32)) (j : T.Idx) :
    broadcastInDim T ![] h (constant (F := Ideal) S_ .f32 w) j = Ideal.ofBits .f32 w :=
  (broadcastInDim_scalar_apply h _ j).trans (constant_apply w ix0)

/-- The column of reciprocals at (n, u) is 1 / max(deg n, 1): the count is the scatter of ones at n, the maximum and
    the quotient are taken entry by entry. -/
theorem invCol_apply (dst : EdgeCol) (n : Fin 100000) (u : Fin 1) : invCol dst (ix2 n u) = recip dst n := by
  unfold invCol recip degMax indeg
  refine (column_apply _ bcast_S100000_S100000x1_0 n u).trans ?_
  refine (hostDivf_apply _ _ (ix1 n)).trans ?_
  refine congrArg₂ Ideal.div (splat_apply _ _ _) ?_
  refine (maximumf_apply _ _ (ix1 n)).trans ?_
  refine congrArg₂ max ?_ (splat_apply _ _ _)
  refine (RowScatter.vecScatterAdd_apply scatter_S100000_S1600000x1_S1600000_n_0_0_1 rfl rfl rfl rfl _ dst _ n).trans ?_
  exact congrArg₂ (· + ·) (splat_apply _ _ _) (Finset.sum_congr rfl fun e _ => splat_apply _ _ _)

/-- The host's neighbour sum at (n, c) is `nbrSum`: the scatter-add reads zero plus the sum over the edges landing on
    n of the gathered rows, and the gathered row of edge e is the array's row `srcRow src e`. -/
theorem agg128_apply (src dst : EdgeCol) (x : Mat 100000 128) (n : Fin 100000) (c : Fin 128) :
    agg128 src dst x (ix2 n c) = nbrSum src dst x n c := by
  unfold agg128 nbrSum
  refine (RowScatter.rowScatterAdd_apply scatter_S100000x128_S1600000x1_S1600000x128_1_0_0_1 rfl rfl rfl rfl _ dst _ n c).trans ?_
  refine congrArg₂ (· + ·) (splat_apply _ _ _) (Finset.sum_congr rfl fun e _ => ?_)
  exact RowGather.rowGather_apply (by decide) gather_S100000x128_S1600000x1_S1600000x128_1_0_n_n_0_1_1128
    rfl rfl rfl rfl rfl rfl rfl x src e c

/-- The same for an array kept in the narrow format: widening is the identity on extended reals. -/
theorem agg128n_apply (src dst : EdgeCol) (x : Mat 100000 128) (n : Fin 100000) (c : Fin 128) :
    agg128n src dst x (ix2 n c) = nbrSum src dst x n c := by
  unfold agg128n nbrSum
  refine (RowScatter.rowScatterAdd_apply scatter_S100000x128_S1600000x1_S1600000x128_1_0_0_1 rfl rfl rfl rfl _ dst _ n c).trans ?_
  refine congrArg₂ (· + ·) (splat_apply _ _ _) (Finset.sum_congr rfl fun e _ => ?_)
  refine (extf_apply (φ := .bf16) (ψ := .f32) _ bitsLt_bf16_f32 (ix2 e c)).trans ?_
  exact RowGather.rowGather_apply (by decide) gather_S100000x128_S1600000x1_S1600000x128_1_0_n_n_0_1_1128
    rfl rfl rfl rfl rfl rfl rfl x src e c

/-- The same for a 64-channel array. -/
theorem agg64_apply (src dst : EdgeCol) (x : Mat 100000 64) (n : Fin 100000) (c : Fin 64) :
    agg64 src dst x (ix2 n c) = nbrSum src dst x n c := by
  unfold agg64 nbrSum
  refine (RowScatter.rowScatterAdd_apply scatter_S100000x64_S1600000x1_S1600000x64_1_0_0_1 rfl rfl rfl rfl _ dst _ n c).trans ?_
  refine congrArg₂ (· + ·) (splat_apply _ _ _) (Finset.sum_congr rfl fun e _ => ?_)
  exact RowGather.rowGather_apply (by decide) gather_S100000x64_S1600000x1_S1600000x64_1_0_n_n_0_1_164
    rfl rfl rfl rfl rfl rfl rfl x src e c

end Cert.MeanAgg.Kernel

end
-- ==== Proof.KernelWalk.lean ====
import proofs.«164546_j60851096649749_2_alg».proof.Proof.GenPKernelIdealFrame
import proofs.«164546_j60851096649749_2_alg».proof.Proof.KernelHost

/-!
  Each buffer a region or a host stretch reads, walked back through the fold of buffer contents to where it was
  written.

  The fold: the launch memory; after the first host stretch; after region 0; after the second stretch; after regions
  1 and 2; after the third stretch; after region 3. A host stretch changes only the buffers its operations write, a
  region only its output windows' arrays (an input window's array is left as entered). So an argument holds the
  launch contents at every stage, the index vectors and the column of reciprocals hold at every later stage what the
  first stretch left, and each region's output array is what that region's pipeline leaves.
-/

noncomputable section

namespace Cert.MeanAgg.Kernel

open Idealize.ShloMosaic Idealize.ShloMosaic.ValueIdx Idealize.ShloMosaic.TcCoe Idealize.SL.Sem Cert.KernelIdeal Cert.KernelIdeal.Gen Cert.MeanAgg

variable (m : (ℓ : Loc nD τ sig) → Buf (Elt Ideal) ℓ) (ρ : Dev nD → PrngReg) (c : Dev nD)

/-! ## After the first stretch -/

theorem W1_arg0 : W1 m ρ c (Proc.devRef .tc main_arg0) = (m ((c.tc : Thread nD τ).loc main_arg0)) :=
  (host0_keep (W0 m ρ c) main_arg0 (by decide)).trans rfl
theorem W1_arg2 : W1 m ρ c (Proc.devRef .tc main_arg2) = (m ((c.tc : Thread nD τ).loc main_arg2)) :=
  (host0_keep (W0 m ρ c) main_arg2 (by decide)).trans rfl
theorem W1_arg3 : W1 m ρ c (Proc.devRef .tc main_arg3) = (m ((c.tc : Thread nD τ).loc main_arg3)) :=
  (host0_keep (W0 m ρ c) main_arg3 (by decide)).trans rfl
theorem W1_arg4 : W1 m ρ c (Proc.devRef .tc main_arg4) = (m ((c.tc : Thread nD τ).loc main_arg4)) :=
  (host0_keep (W0 m ρ c) main_arg4 (by decide)).trans rfl
theorem W1_arg5 : W1 m ρ c (Proc.devRef .tc main_arg5) = (m ((c.tc : Thread nD τ).loc main_arg5)) :=
  (host0_keep (W0 m ρ c) main_arg5 (by decide)).trans rfl
theorem W1_arg6 : W1 m ρ c (Proc.devRef .tc main_arg6) = (m ((c.tc : Thread nD τ).loc main_arg6)) :=
  (host0_keep (W0 m ρ c) main_arg6 (by decide)).trans rfl
theorem W1_arg7 : W1 m ρ c (Proc.devRef .tc main_arg7) = (m ((c.tc : Thread nD τ).loc main_arg7)) :=
  (host0_keep (W0 m ρ c) main_arg7 (by decide)).trans rfl
theorem W1_arg8 : W1 m ρ c (Proc.devRef .tc main_arg8) = (m ((c.tc : Thread nD τ).loc main_arg8)) :=
  (host0_keep (W0 m ρ c) main_arg8 (by decide)).trans rfl
theorem W1_arg9 : W1 m ρ c (Proc.devRef .tc main_arg9) = (m ((c.tc : Thread nD τ).loc main_arg9)) :=
  (host0_keep (W0 m ρ c) main_arg9 (by decide)).trans rfl
theorem W1_arg10 : W1 m ρ c (Proc.devRef .tc main_arg10) = (m ((c.tc : Thread nD τ).loc main_arg10)) :=
  (host0_keep (W0 m ρ c) main_arg10 (by decide)).trans rfl
theorem W1_arg11 : W1 m ρ c (Proc.devRef .tc main_arg11) = (m ((c.tc : Thread nD τ).loc main_arg11)) :=
  (host0_keep (W0 m ρ c) main_arg11 (by decide)).trans rfl
theorem W1_arg12 : W1 m ρ c (Proc.devRef .tc main_arg12) = (m ((c.tc : Thread nD τ).loc main_arg12)) :=
  (host0_keep (W0 m ρ c) main_arg12 (by decide)).trans rfl
theorem W1_arg13 : W1 m ρ c (Proc.devRef .tc main_arg13) = (m ((c.tc : Thread nD τ).loc main_arg13)) :=
  (host0_keep (W0 m ρ c) main_arg13 (by decide)).trans rfl
theorem W1_arg14 : W1 m ρ c (Proc.devRef .tc main_arg14) = (m ((c.tc : Thread nD τ).loc main_arg14)) :=
  (host0_keep (W0 m ρ c) main_arg14 (by decide)).trans rfl
theorem W1_arg15 : W1 m ρ c (Proc.devRef .tc main_arg15) = (m ((c.tc : Thread nD τ).loc main_arg15)) :=
  (host0_keep (W0 m ρ c) main_arg15 (by decide)).trans rfl
theorem W1_arg16 : W1 m ρ c (Proc.devRef .tc main_arg16) = (m ((c.tc : Thread nD τ).loc main_arg16)) :=
  (host0_keep (W0 m ρ c) main_arg16 (by decide)).trans rfl
theorem W1_arg17 : W1 m ρ c (Proc.devRef .tc main_arg17) = (m ((c.tc : Thread nD τ).loc main_arg17)) :=
  (host0_keep (W0 m ρ c) main_arg17 (by decide)).trans rfl
theorem W1_arg18 : W1 m ρ c (Proc.devRef .tc main_arg18) = (m ((c.tc : Thread nD τ).loc main_arg18)) :=
  (host0_keep (W0 m ρ c) main_arg18 (by decide)).trans rfl

/-- The vector of source indices. -/
theorem W1_v1 : W1 m ρ c (Proc.devRef .tc main_v1) = srcVec (m ((c.tc : Thread nD τ).loc main_arg1)) := host0_srcVec (W0 m ρ c)
/-- The vector of target indices. -/
theorem W1_v3 : W1 m ρ c (Proc.devRef .tc main_v3) = dstVec (m ((c.tc : Thread nD τ).loc main_arg1)) := host0_dstVec (W0 m ρ c)
/-- The column of reciprocals. -/
theorem W1_v12 : W1 m ρ c (Proc.devRef .tc main_v12) = invCol (dstOf (dstVec (m ((c.tc : Thread nD τ).loc main_arg1)))) := host0_inv (W0 m ρ c)
/-- The neighbour sum of the node features. -/
theorem W1_v22 : W1 m ρ c (Proc.devRef .tc main_v22)
    = agg128 (srcOf (srcVec (m ((c.tc : Thread nD τ).loc main_arg1)))) (dstOf (dstVec (m ((c.tc : Thread nD τ).loc main_arg1)))) (m ((c.tc : Thread nD τ).loc main_arg0)) := host0_agg (W0 m ρ c)

/-! ## After region 0 -/

/-- Region 0's output array is what its pipeline leaves. -/
theorem W2_v23 : W2 m ρ c (Proc.devRef .tc main_v23) = (dat0 (V1 m ρ) c).arrAt 10 cfg0.N := W2_arr m ρ c 10
/-- The column of reciprocals is an input window's array: left as entered. -/
theorem W2_v12 : W2 m ρ c (Proc.devRef .tc main_v12) = W1 m ρ c (Proc.devRef .tc main_v12) :=
  (W2_arr m ρ c 1).trans (((dat0 (V1 m ρ) c).arrAt_in 1 rfl _).trans (A_eq0 (V1 m ρ) c 1))
theorem W2_v1 : W2 m ρ c (Proc.devRef .tc main_v1) = srcVec (m ((c.tc : Thread nD τ).loc main_arg1)) := (W2_of_ne m ρ c main_v1 (by decide)).trans (W1_v1 m ρ c)
theorem W2_v3 : W2 m ρ c (Proc.devRef .tc main_v3) = dstVec (m ((c.tc : Thread nD τ).loc main_arg1)) := (W2_of_ne m ρ c main_v3 (by decide)).trans (W1_v3 m ρ c)
theorem W2_arg9 : W2 m ρ c (Proc.devRef .tc main_arg9) = (m ((c.tc : Thread nD τ).loc main_arg9)) :=
  (W2_of_ne m ρ c main_arg9 (by decide)).trans (W1_arg9 m ρ c)
theorem W2_arg10 : W2 m ρ c (Proc.devRef .tc main_arg10) = (m ((c.tc : Thread nD τ).loc main_arg10)) :=
  (W2_of_ne m ρ c main_arg10 (by decide)).trans (W1_arg10 m ρ c)
theorem W2_arg11 : W2 m ρ c (Proc.devRef .tc main_arg11) = (m ((c.tc : Thread nD τ).loc main_arg11)) :=
  (W2_of_ne m ρ c main_arg11 (by decide)).trans (W1_arg11 m ρ c)
theorem W2_arg12 : W2 m ρ c (Proc.devRef .tc main_arg12) = (m ((c.tc : Thread nD τ).loc main_arg12)) :=
  (W2_of_ne m ρ c main_arg12 (by decide)).trans (W1_arg12 m ρ c)
theorem W2_arg13 : W2 m ρ c (Proc.devRef .tc main_arg13) = (m ((c.tc : Thread nD τ).loc main_arg13)) :=
  (W2_of_ne m ρ c main_arg13 (by decide)).trans (W1_arg13 m ρ c)
theorem W2_arg14 : W2 m ρ c (Proc.devRef .tc main_arg14) = (m ((c.tc : Thread nD τ).loc main_arg14)) :=
  (W2_of_ne m ρ c main_arg14 (by decide)).trans (W1_arg14 m ρ c)
theorem W2_arg15 : W2 m ρ c (Proc.devRef .tc main_arg15) = (m ((c.tc : Thread nD τ).loc main_arg15)) :=
  (W2_of_ne m ρ c main_arg15 (by decide)).trans (W1_arg15 m ρ c)
theorem W2_arg16 : W2 m ρ c (Proc.devRef .tc main_arg16) = (m ((c.tc : Thread nD τ).loc main_arg16)) :=
  (W2_of_ne m ρ c main_arg16 (by decide)).trans (W1_arg16 m ρ c)
theorem W2_arg17 : W2 m ρ c (Proc.devRef .tc main_arg17) = (m ((c.tc : Thread nD τ).loc main_arg17)) :=
  (W2_of_ne m ρ c main_arg17 (by decide)).trans (W1_arg17 m ρ c)
theorem W2_arg18 : W2 m ρ c (Proc.devRef .tc main_arg18) = (m ((c.tc : Thread nD τ).loc main_arg18)) :=
  (W2_of_ne m ρ c main_arg18 (by decide)).trans (W1_arg18 m ρ c)

/-! ## After the second stretch -/

/-- The neighbour sum of region 0's output. -/
theorem W3_v34 : W3 m ρ c (Proc.devRef .tc main_v34)
    = agg128n (srcOf (srcVec (m ((c.tc : Thread nD τ).loc main_arg1)))) (dstOf (dstVec (m ((c.tc : Thread nD τ).loc main_arg1)))) (W2 m ρ c (Proc.devRef .tc main_v23)) :=
  (host1_agg (W2 m ρ c)).trans (by rw [W2_v1 m ρ c, W2_v3 m ρ c])
theorem W3_v12 : W3 m ρ c (Proc.devRef .tc main_v12) = W1 m ρ c (Proc.devRef .tc main_v12) :=
  (host1_keep (W2 m ρ c) main_v12 (by decide)).trans (W2_v12 m ρ c)
theorem W3_v23 : W3 m ρ c (Proc.devRef .tc main_v23) = W2 m ρ c (Proc.devRef .tc main_v23) := host1_keep (W2 m ρ c) main_v23 (by decide)
theorem W3_v1 : W3 m ρ c (Proc.devRef .tc main_v1) = srcVec (m ((c.tc : Thread nD τ).loc main_arg1)) := (host1_keep (W2 m ρ c) main_v1 (by decide)).trans (W2_v1 m ρ c)
theorem W3_v3 : W3 m ρ c (Proc.devRef .tc main_v3) = dstVec (m ((c.tc : Thread nD τ).loc main_arg1)) := (host1_keep (W2 m ρ c) main_v3 (by decide)).trans (W2_v3 m ρ c)
theorem W3_arg9 : W3 m ρ c (Proc.devRef .tc main_arg9) = (m ((c.tc : Thread nD τ).loc main_arg9)) :=
  (host1_keep (W2 m ρ c) main_arg9 (by decide)).trans (W2_arg9 m ρ c)
theorem W3_arg10 : W3 m ρ c (Proc.devRef .tc main_arg10) = (m ((c.tc : Thread nD τ).loc main_arg10)) :=
  (host1_keep (W2 m ρ c) main_arg10 (by decide)).trans (W2_arg10 m ρ c)
theorem W3_arg11 : W3 m ρ c (Proc.devRef .tc main_arg11) = (m ((c.tc : Thread nD τ).loc main_arg11)) :=
  (host1_keep (W2 m ρ c) main_arg11 (by decide)).trans (W2_arg11 m ρ c)
theorem W3_arg12 : W3 m ρ c (Proc.devRef .tc main_arg12) = (m ((c.tc : Thread nD τ).loc main_arg12)) :=
  (host1_keep (W2 m ρ c) main_arg12 (by decide)).trans (W2_arg12 m ρ c)
theorem W3_arg13 : W3 m ρ c (Proc.devRef .tc main_arg13) = (m ((c.tc : Thread nD τ).loc main_arg13)) :=
  (host1_keep (W2 m ρ c) main_arg13 (by decide)).trans (W2_arg13 m ρ c)
theorem W3_arg14 : W3 m ρ c (Proc.devRef .tc main_arg14) = (m ((c.tc : Thread nD τ).loc main_arg14)) :=
  (host1_keep (W2 m ρ c) main_arg14 (by decide)).trans (W2_arg14 m ρ c)
theorem W3_arg15 : W3 m ρ c (Proc.devRef .tc main_arg15) = (m ((c.tc : Thread nD τ).loc main_arg15)) :=
  (host1_keep (W2 m ρ c) main_arg15 (by decide)).trans (W2_arg15 m ρ c)
theorem W3_arg16 : W3 m ρ c (Proc.devRef .tc main_arg16) = (m ((c.tc : Thread nD τ).loc main_arg16)) :=
  (host1_keep (W2 m ρ c) main_arg16 (by decide)).trans (W2_arg16 m ρ c)
theorem W3_arg17 : W3 m ρ c (Proc.devRef .tc main_arg17) = (m ((c.tc : Thread nD τ).loc main_arg17)) :=
  (host1_keep (W2 m ρ c) main_arg17 (by decide)).trans (W2_arg17 m ρ c)
theorem W3_arg18 : W3 m ρ c (Proc.devRef .tc main_arg18) = (m ((c.tc : Thread nD τ).loc main_arg18)) :=
  (host1_keep (W2 m ρ c) main_arg18 (by decide)).trans (W2_arg18 m ρ c)

/-! ## After region 1 -/

/-- Region 1's output array is what its pipeline leaves. -/
theorem W4_v35 : W4 m ρ c (Proc.devRef .tc main_v35) = (dat1 (V3 m ρ) c).arrAt 10 cfg1.N := W4_arr m ρ c 10
theorem W4_v12 : W4 m ρ c (Proc.devRef .tc main_v12) = W1 m ρ c (Proc.devRef .tc main_v12) :=
  ((W4_arr m ρ c 1).trans (((dat1 (V3 m ρ) c).arrAt_in 1 rfl _).trans (A_eq1 (V3 m ρ) c 1))).trans (W3_v12 m ρ c)
theorem W4_v1 : W4 m ρ c (Proc.devRef .tc main_v1) = srcVec (m ((c.tc : Thread nD τ).loc main_arg1)) := (W4_of_ne m ρ c main_v1 (by decide)).trans (W3_v1 m ρ c)
theorem W4_v3 : W4 m ρ c (Proc.devRef .tc main_v3) = dstVec (m ((c.tc : Thread nD τ).loc main_arg1)) := (W4_of_ne m ρ c main_v3 (by decide)).trans (W3_v3 m ρ c)
theorem W4_arg16 : W4 m ρ c (Proc.devRef .tc main_arg16) = (m ((c.tc : Thread nD τ).loc main_arg16)) :=
  (W4_of_ne m ρ c main_arg16 (by decide)).trans (W3_arg16 m ρ c)
theorem W4_arg17 : W4 m ρ c (Proc.devRef .tc main_arg17) = (m ((c.tc : Thread nD τ).loc main_arg17)) :=
  (W4_of_ne m ρ c main_arg17 (by decide)).trans (W3_arg17 m ρ c)
theorem W4_arg18 : W4 m ρ c (Proc.devRef .tc main_arg18) = (m ((c.tc : Thread nD τ).loc main_arg18)) :=
  (W4_of_ne m ρ c main_arg18 (by decide)).trans (W3_arg18 m ρ c)

/-! ## After region 2 -/

/-- Region 2's two output arrays are what its pipeline leaves. -/
theorem W5_v36_0 : W5 m ρ c (Proc.devRef .tc main_v36_0) = (dat2 (V4 m ρ) c).arrAt 4 cfg2.N := W5_arr m ρ c 4
theorem W5_v36_1 : W5 m ρ c (Proc.devRef .tc main_v36_1) = (dat2 (V4 m ρ) c).arrAt 5 cfg2.N := W5_arr m ρ c 5
theorem W5_v12 : W5 m ρ c (Proc.devRef .tc main_v12) = W1 m ρ c (Proc.devRef .tc main_v12) := (W5_of_ne m ρ c main_v12 (by decide)).trans (W4_v12 m ρ c)
theorem W5_v1 : W5 m ρ c (Proc.devRef .tc main_v1) = srcVec (m ((c.tc : Thread nD τ).loc main_arg1)) := (W5_of_ne m ρ c main_v1 (by decide)).trans (W4_v1 m ρ c)
theorem W5_v3 : W5 m ρ c (Proc.devRef .tc main_v3) = dstVec (m ((c.tc : Thread nD τ).loc main_arg1)) := (W5_of_ne m ρ c main_v3 (by decide)).trans (W4_v3 m ρ c)

/-! ## After the third stretch -/

/-- The neighbour sum of region 2's first output. -/
theorem W6_v46 : W6 m ρ c (Proc.devRef .tc main_v46)
    = agg64 (srcOf (srcVec (m ((c.tc : Thread nD τ).loc main_arg1)))) (dstOf (dstVec (m ((c.tc : Thread nD τ).loc main_arg1)))) (W5 m ρ c (Proc.devRef .tc main_v36_0)) :=
  (host3_agg (W5 m ρ c)).trans (by rw [W5_v1 m ρ c, W5_v3 m ρ c])
theorem W6_v12 : W6 m ρ c (Proc.devRef .tc main_v12) = W1 m ρ c (Proc.devRef .tc main_v12) :=
  (host3_keep (W5 m ρ c) main_v12 (by decide)).trans (W5_v12 m ρ c)
theorem W6_v36_1 : W6 m ρ c (Proc.devRef .tc main_v36_1) = W5 m ρ c (Proc.devRef .tc main_v36_1) := host3_keep (W5 m ρ c) main_v36_1 (by decide)

/-! ## After region 3 -/

/-- The result array is what region 3's pipeline leaves. -/
theorem W7_v47 : W7 m ρ c (Proc.devRef .tc main_v47) = (dat3 (V6 m ρ) c).arrAt 3 cfg3.N := W7_arr m ρ c 3

end Cert.MeanAgg.Kernel

end
-- ==== Proof.KernelRunNamed.lean ====
import proofs.«164546_j60851096649749_2_alg».proof.Proof.GenPKernelIdealFrame

/-!
  The program's run with its result buffer named.

  Every weakly fair execution of the program from a memory with zero counters terminates, and in every final state each
  core's result buffer holds what the fold of buffer contents through the program's segments (`W7`) has there, and
  each argument buffer holds what it held at launch.
-/

set_option maxRecDepth 16384

noncomputable section

namespace Cert.MeanAgg.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the program's segments, the last thread state read against the final state: the result buffer at the
    fold's contents, each argument as launched. -/
theorem run_named : θ_run defs (onTc (τ := τ) (main (F := F))) ⟨m, fun _ => 0, ρ⟩ (fun r => ∀ c : Dev nD,
      r.2.mem ((c.tc : Thread nD τ).loc main_v47) = W7 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v47 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c),
       (h c _ (mem_uc main_arg14 (by decide))).trans (W7_main_arg14 m ρ c),
       (h c _ (mem_uc main_arg15 (by decide))).trans (W7_main_arg15 m ρ c),
       (h c _ (mem_uc main_arg16 (by decide))).trans (W7_main_arg16 m ρ c),
       (h c _ (mem_uc main_arg17 (by decide))).trans (W7_main_arg17 m ρ c),
       (h c _ (mem_uc main_arg18 (by decide))).trans (W7_main_arg18 m ρ c)⟩)

end Cert.MeanAgg.Kernel

end
-- ==== Proof.KernelValue.lean ====
import proofs.«164546_j60851096649749_2_alg».proof.Proof.GenPKernelIdealFrame
import proofs.«164546_j60851096649749_2_alg».proof.Proof.Spec
import proofs.«164546_j60851096649749_2_alg».proof.Proof.RegionHidden0
import proofs.«164546_j60851096649749_2_alg».proof.Proof.RegionHidden1
import proofs.«164546_j60851096649749_2_alg».proof.Proof.RegionProject
import proofs.«164546_j60851096649749_2_alg».proof.Proof.RegionOutput
import proofs.«164546_j60851096649749_2_alg».proof.Proof.KernelHost
import proofs.«164546_j60851096649749_2_alg».proof.Proof.KernelWalk
import proofs.«164546_j60851096649749_2_alg».proof.Proof.KernelRunNamed

noncomputable section

open scoped BigOperators

namespace Cert.MeanAgg.Kernel

open Idealize.ShloMosaic Idealize.ShloMosaic.ValueIdx Idealize.ShloMosaic.TcCoe Idealize.SL.Sem Cert.KernelIdeal Cert.KernelIdeal.Gen Cert.MeanAgg

/-- The column of source indices the three gathers receive: row 0 of the edge list, a negative index moved up by
    the number of nodes. -/
def srcCol (ei : (⟨S2x1600000, .i32⟩ : BufTy).Contents (Elt Ideal)) : (⟨S1600000x1, .i32⟩ : BufTy).Contents (Elt Ideal) :=
  broadcastInDim S1600000x1 ![0] bcast_S1600000_S1600000x1_0
    (select
      (cmpi .slt (shapeCast S1600000 (extractStridedSlice S1x1600000 ![0, 0] ei slices_S2x1600000_S1x1600000_0_0) shapeCasts_S1x1600000_S1600000)
        (broadcastInDim S1600000 ![] bcast_S_S1600000 (constantI S_ 32 0#32)))
      (addi (shapeCast S1600000 (extractStridedSlice S1x1600000 ![0, 0] ei slices_S2x1600000_S1x1600000_0_0) shapeCasts_S1x1600000_S1600000)
        (broadcastInDim S1600000 ![] bcast_S_S1600000 (constantI S_ 32 100000#32)))
      (shapeCast S1600000 (extractStridedSlice S1x1600000 ![0, 0] ei slices_S2x1600000_S1x1600000_0_0) shapeCasts_S1x1600000_S1600000))

/-- The column of target indices the scatters receive: row 1 of the edge list. -/
def dstCol (ei : (⟨S2x1600000, .i32⟩ : BufTy).Contents (Elt Ideal)) : (⟨S1600000x1, .i32⟩ : BufTy).Contents (Elt Ideal) :=
  broadcastInDim S1600000x1 ![0] bcast_S1600000_S1600000x1_0
    (shapeCast S1600000 (extractStridedSlice S1x1600000 ![1, 0] ei slices_S2x1600000_S1x1600000_1_0) shapeCasts_S1x1600000_S1600000)

/-- The source column is the stage `srcOf` of row 0 of the edge list, the target column `dstOf` of row 1. -/
theorem srcCol_eq (ei : (⟨S2x1600000, .i32⟩ : BufTy).Contents (Elt Ideal)) : srcCol ei = srcOf (srcVec ei) := rfl
theorem dstCol_eq (ei : (⟨S2x1600000, .i32⟩ : BufTy).Contents (Elt Ideal)) : dstCol ei = dstOf (dstVec ei) := rfl

/-! ## The value of each array, stage by stage

  Written `src`, `dst` for the two index columns of the launched edge list and the arguments by their roles: what
  region 0 finds is the neighbour sum of the features and the column of reciprocals, so it leaves the first hidden
  layer; the second stretch sums that layer's source rows, so region 1 leaves the second hidden layer; region 2 leaves
  its two projections; the third stretch sums the first projection's source rows; region 3 rescales, adds the second
  projection and takes the logarithm of the softmax: the network in the reciprocal arrangement. -/

section Values
variable (m : (ℓ : Loc nD τ sig) → Buf (Elt Ideal) ℓ) (ρ : Dev nD → PrngReg) (c : Dev nD)

/-! ### What region 0 finds and leaves -/

theorem V1_v22 : (V1 m ρ c main_v22 : Mat 100000 128) = mat (nbrSum (srcCol (m ((c.tc : Thread nD τ).loc main_arg1))) (dstCol (m ((c.tc : Thread nD τ).loc main_arg1))) (m ((c.tc : Thread nD τ).loc main_arg0))) := by
  funext i
  obtain ⟨n, k, rfl⟩ : ∃ (n : Fin 100000) (k : Fin 128), i = ix2 n k := ⟨i 0, i 1, eq_ix2 i⟩
  rw [mat_ix2]
  exact (congrFun (W1_v22 m ρ c) (ix2 n k)).trans (agg128_apply _ _ _ n k)

theorem V1_v12 : (V1 m ρ c main_v12 : Mat 100000 1) = recipCol (dstCol (m ((c.tc : Thread nD τ).loc main_arg1))) := by
  funext i
  obtain ⟨n, u, rfl⟩ : ∃ (n : Fin 100000) (u : Fin 1), i = ix2 n u := ⟨i 0, i 1, eq_ix2 i⟩
  unfold recipCol
  rw [mat_ix2]
  exact (congrFun (W1_v12 m ρ c) (ix2 n u)).trans (invCol_apply _ n u)

theorem V1_arg0 : V1 m ρ c main_arg0 = (m ((c.tc : Thread nD τ).loc main_arg0)) := W1_arg0 m ρ c
theorem V1_arg2 : V1 m ρ c main_arg2 = (m ((c.tc : Thread nD τ).loc main_arg2)) := W1_arg2 m ρ c
theorem V1_arg3 : V1 m ρ c main_arg3 = (m ((c.tc : Thread nD τ).loc main_arg3)) := W1_arg3 m ρ c
theorem V1_arg4 : V1 m ρ c main_arg4 = (m ((c.tc : Thread nD τ).loc main_arg4)) := W1_arg4 m ρ c
theorem V1_arg5 : V1 m ρ c main_arg5 = (m ((c.tc : Thread nD τ).loc main_arg5)) := W1_arg5 m ρ c
theorem V1_arg6 : V1 m ρ c main_arg6 = (m ((c.tc : Thread nD τ).loc main_arg6)) := W1_arg6 m ρ c
theorem V1_arg7 : V1 m ρ c main_arg7 = (m ((c.tc : Thread nD τ).loc main_arg7)) := W1_arg7 m ρ c
theorem V1_arg8 : V1 m ρ c main_arg8 = (m ((c.tc : Thread nD τ).loc main_arg8)) := W1_arg8 m ρ c

/-- Region 0 leaves the first hidden layer. -/
theorem hid0_value : (W2 m ρ c (Proc.devRef .tc main_v23) : Mat 100000 128) = (hid0Recip (srcCol (m ((c.tc : Thread nD τ).loc main_arg1))) (dstCol (m ((c.tc : Thread nD τ).loc main_arg1))) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) := by
  funext i
  obtain ⟨n, j, rfl⟩ : ∃ (n : Fin 100000) (j : Fin 128), i = ix2 n j := ⟨i 0, i 1, eq_ix2 i⟩
  refine (congrFun (W2_v23 m ρ c) (ix2 n j)).trans ?_
  refine (region0_value (V1 m ρ) c n j).trans ?_
  rw [V1_v22 m ρ c, V1_v12 m ρ c, V1_arg0 m ρ c, V1_arg2 m ρ c, V1_arg3 m ρ c, V1_arg4 m ρ c, V1_arg5 m ρ c, V1_arg6 m ρ c, V1_arg7 m ρ c, V1_arg8 m ρ c]
  rfl

/-! ### What region 1 finds and leaves -/

theorem V3_v34 : (V3 m ρ c main_v34 : Mat 100000 128) = mat (nbrSum (srcCol (m ((c.tc : Thread nD τ).loc main_arg1))) (dstCol (m ((c.tc : Thread nD τ).loc main_arg1))) (hid0Recip (srcCol (m ((c.tc : Thread nD τ).loc main_arg1))) (dstCol (m ((c.tc : Thread nD τ).loc main_arg1))) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))) := by
  funext i
  obtain ⟨n, k, rfl⟩ : ∃ (n : Fin 100000) (k : Fin 128), i = ix2 n k := ⟨i 0, i 1, eq_ix2 i⟩
  rw [mat_ix2]
  refine (congrFun (W3_v34 m ρ c) (ix2 n k)).trans ?_
  refine (agg128n_apply _ _ _ n k).trans ?_
  rw [hid0_value m ρ c]
  rfl

theorem V3_v12 : (V3 m ρ c main_v12 : Mat 100000 1) = recipCol (dstCol (m ((c.tc : Thread nD τ).loc main_arg1))) := (W3_v12 m ρ c).trans (V1_v12 m ρ c)

theorem V3_v23 : (V3 m ρ c main_v23 : Mat 100000 128) = (hid0Recip (srcCol (m ((c.tc : Thread nD τ).loc main_arg1))) (dstCol (m ((c.tc : Thread nD τ).loc main_arg1))) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) := (W3_v23 m ρ c).trans (hid0_value m ρ c)

theorem V3_arg9 : V3 m ρ c main_arg9 = (m ((c.tc : Thread nD τ).loc main_arg9)) := W3_arg9 m ρ c
theorem V3_arg10 : V3 m ρ c main_arg10 = (m ((c.tc : Thread nD τ).loc main_arg10)) := W3_arg10 m ρ c
theorem V3_arg11 : V3 m ρ c main_arg11 = (m ((c.tc : Thread nD τ).loc main_arg11)) := W3_arg11 m ρ c
theorem V3_arg12 : V3 m ρ c main_arg12 = (m ((c.tc : Thread nD τ).loc main_arg12)) := W3_arg12 m ρ c
theorem V3_arg13 : V3 m ρ c main_arg13 = (m ((c.tc : Thread nD τ).loc main_arg13)) := W3_arg13 m ρ c
theorem V3_arg14 : V3 m ρ c main_arg14 = (m ((c.tc : Thread nD τ).loc main_arg14)) := W3_arg14 m ρ c
theorem V3_arg15 : V3 m ρ c main_arg15 = (m ((c.tc : Thread nD τ).loc main_arg15)) := W3_arg15 m ρ c

/-- Region 1 leaves the second hidden layer. -/
theorem hid1_value : (W4 m ρ c (Proc.devRef .tc main_v35) : Mat 100000 128) = (hid1Recip (srcCol (m ((c.tc : Thread nD τ).loc main_arg1))) (dstCol (m ((c.tc : Thread nD τ).loc main_arg1))) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))) := by
  funext i
  obtain ⟨n, j, rfl⟩ : ∃ (n : Fin 100000) (j : Fin 128), i = ix2 n j := ⟨i 0, i 1, eq_ix2 i⟩
  refine (congrFun (W4_v35 m ρ c) (ix2 n j)).trans ?_
  refine (region1_value (V3 m ρ) c n j).trans ?_
  rw [V3_v34 m ρ c, V3_v12 m ρ c, V3_v23 m ρ c, V3_arg9 m ρ c, V3_arg10 m ρ c, V3_arg11 m ρ c, V3_arg12 m ρ c, V3_arg13 m ρ c, V3_arg14 m ρ c, V3_arg15 m ρ c]
  rfl

/-! ### What region 2 finds and leaves -/

theorem V4_v35 : (V4 m ρ c main_v35 : Mat 100000 128) = (hid1Recip (srcCol (m ((c.tc : Thread nD τ).loc main_arg1))) (dstCol (m ((c.tc : Thread nD τ).loc main_arg1))) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))) := hid1_value m ρ c
theorem V4_arg16 : V4 m ρ c main_arg16 = (m ((c.tc : Thread nD τ).loc main_arg16)) := W4_arg16 m ρ c
theorem V4_arg17 : V4 m ρ c main_arg17 = (m ((c.tc : Thread nD τ).loc main_arg17)) := W4_arg17 m ρ c
theorem V4_arg18 : V4 m ρ c main_arg18 = (m ((c.tc : Thread nD τ).loc main_arg18)) := W4_arg18 m ρ c

/-- Region 2's first output: the second hidden layer times the neighbour weights. -/
theorem projNbr_value : (W5 m ρ c (Proc.devRef .tc main_v36_0) : Mat 100000 64) = (mat (projNbr (hid1Recip (srcCol (m ((c.tc : Thread nD τ).loc main_arg1))) (dstCol (m ((c.tc : Thread nD τ).loc main_arg1))) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))) (m ((c.tc : Thread nD τ).loc main_arg16)))) := by
  funext i
  obtain ⟨n, q, rfl⟩ : ∃ (n : Fin 100000) (q : Fin 64), i = ix2 n q := ⟨i 0, i 1, eq_ix2 i⟩
  refine (congrFun (W5_v36_0 m ρ c) (ix2 n q)).trans ?_
  refine (region2_nbr_value (V4 m ρ) c n q).trans ?_
  rw [V4_v35 m ρ c, V4_arg16 m ρ c]
  rfl

/-- Region 2's second output: the second hidden layer times the root weights, plus the bias. -/
theorem projRoot_value : (W5 m ρ c (Proc.devRef .tc main_v36_1) : Mat 100000 64) = (mat (projRoot (hid1Recip (srcCol (m ((c.tc : Thread nD τ).loc main_arg1))) (dstCol (m ((c.tc : Thread nD τ).loc main_arg1))) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))) (m ((c.tc : Thread nD τ).loc main_arg18)) (m ((c.tc : Thread nD τ).loc main_arg17)))) := by
  funext i
  obtain ⟨n, q, rfl⟩ : ∃ (n : Fin 100000) (q : Fin 64), i = ix2 n q := ⟨i 0, i 1, eq_ix2 i⟩
  refine (congrFun (W5_v36_1 m ρ c) (ix2 n q)).trans ?_
  refine (region2_root_value (V4 m ρ) c n q).trans ?_
  rw [V4_v35 m ρ c, V4_arg18 m ρ c, V4_arg17 m ρ c]
  rfl

/-! ### What region 3 finds and leaves -/

theorem V6_v46 : (V6 m ρ c main_v46 : Mat 100000 64) = mat (nbrSum (srcCol (m ((c.tc : Thread nD τ).loc main_arg1))) (dstCol (m ((c.tc : Thread nD τ).loc main_arg1))) (mat (projNbr (hid1Recip (srcCol (m ((c.tc : Thread nD τ).loc main_arg1))) (dstCol (m ((c.tc : Thread nD τ).loc main_arg1))) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))) (m ((c.tc : Thread nD τ).loc main_arg16))))) := by
  funext i
  obtain ⟨n, q, rfl⟩ : ∃ (n : Fin 100000) (q : Fin 64), i = ix2 n q := ⟨i 0, i 1, eq_ix2 i⟩
  rw [mat_ix2]
  refine (congrFun (W6_v46 m ρ c) (ix2 n q)).trans ?_
  refine (agg64_apply _ _ _ n q).trans ?_
  rw [projNbr_value m ρ c]
  rfl

theorem V6_v12 : (V6 m ρ c main_v12 : Mat 100000 1) = recipCol (dstCol (m ((c.tc : Thread nD τ).loc main_arg1))) := (W6_v12 m ρ c).trans (V1_v12 m ρ c)

theorem V6_v36_1 : (V6 m ρ c main_v36_1 : Mat 100000 64) = (mat (projRoot (hid1Recip (srcCol (m ((c.tc : Thread nD τ).loc main_arg1))) (dstCol (m ((c.tc : Thread nD τ).loc main_arg1))) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))) (m ((c.tc : Thread nD τ).loc main_arg18)) (m ((c.tc : Thread nD τ).loc main_arg17)))) := (W6_v36_1 m ρ c).trans (projRoot_value m ρ c)

/-- Region 3 leaves the network's result in the reciprocal arrangement. -/
theorem result_value : (W7 m ρ c (Proc.devRef .tc main_v47) : Mat 100000 64) = (netRecip (srcCol (m ((c.tc : Thread nD τ).loc main_arg1))) (dstCol (m ((c.tc : Thread nD τ).loc main_arg1))) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))) := by
  funext i
  obtain ⟨n, q, rfl⟩ : ∃ (n : Fin 100000) (q : Fin 64), i = ix2 n q := ⟨i 0, i 1, eq_ix2 i⟩
  refine (congrFun (W7_v47 m ρ c) (ix2 n q)).trans ?_
  refine (region3_value (V6 m ρ) c n q).trans ?_
  rw [V6_v46 m ρ c, V6_v12 m ρ c, V6_v36_1 m ρ c]
  rfl

end Values

/-- The idealized kernel program's run with its result named: every weakly fair execution from a memory m ends with
    the result array at the network's value in the reciprocal arrangement, of the launch contents of the arguments,
    and the arguments as launched. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v47)
        = (netRecip (srcCol (m ((c.tc : Thread nD τ).loc main_arg1))) (dstCol (m ((c.tc : Thread nD τ).loc main_arg1)))
            (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) : Mat 100000 64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) := by
  exact (θ_run (defs (F := Ideal)) _ _).mono (fun _ h c => ⟨(h c).1.trans (result_value m ρ c), (h c).2⟩) (run_named m ρ)

end Cert.MeanAgg.Kernel

end
-- ==== Proof.RefMean.lean ====
/-
  The neighbour mean read off its operations: a row gather by the source column, a row scatter-add from zero by the
  target column, and a division by the broadcast column max(deg, 1), where deg is a scatter-add of ones from zero.
  Stated over any arrays with these entries, so that each layer uses it on its own buffers.
-/
import Idealize.ShloMosaic.PureOps.Ideal
import Idealize.ShloMosaic.PureOps.Vector
import Idealize.ShloMosaic.Lib.ValueIdx
import proofs.«164546_j60851096649749_2_alg».proof.Proof.LibRowGather
import proofs.«164546_j60851096649749_2_alg».proof.Proof.LibRowScatter
import proofs.«164546_j60851096649749_2_alg».proof.Proof.Spec

noncomputable section

open scoped BigOperators

namespace Cert.MeanAgg.Reference

open Idealize.ShloMosaic Idealize.ShloMosaic.ValueIdx Cert.MeanAgg

/-- The degree count: ones scattered from zero by the target column land, at node n, as the number of edges into n. -/
theorem indeg_of_scatter (d : ScatterDims ⟨1, ![100000]⟩ ⟨2, ![1600000, 1]⟩ ⟨1, ![1600000]⟩)
    (h1 : d.updateWindowDims = []) (h2 : d.insertedWindowDims = [0]) (h3 : d.scatterDimsToOperandDims = [0])
    (h4 : d.indexVectorDim = 1)
    (z : FVec Ideal ⟨1, ![100000]⟩ .f32) (hz : ∀ n : Fin 100000, z (ix1 n) = Ideal.ofBits .f32 0x00000000#32)
    (o : FVec Ideal ⟨1, ![1600000]⟩ .f32) (ho : ∀ e : Fin 1600000, o (ix1 e) = Ideal.ofBits .f32 0x3F800000#32)
    (dst : EdgeCol) (n : Fin 100000) :
    Host.scatterAdd (F := Ideal) d z dst o (ix1 n) = indeg dst n := by
  refine (RowScatter.vecScatterAdd_apply d h1 h2 h3 h4 z dst o n).trans ?_
  rw [hz n]
  unfold indeg
  refine congrArg (_ + ·) (Finset.sum_congr rfl fun e _ => ho e)

/-- The neighbour mean: gather the source rows, add them from zero onto their target rows, divide by max(deg, 1). -/
theorem nbrMean_of_ops {C : Nat}
    (dS : ScatterDims ⟨2, ![100000, C]⟩ ⟨2, ![1600000, 1]⟩ ⟨2, ![1600000, C]⟩)
    (hS1 : dS.updateWindowDims = [1]) (hS2 : dS.insertedWindowDims = [0]) (hS3 : dS.scatterDimsToOperandDims = [0])
    (hS4 : dS.indexVectorDim = 1)
    (dG : GatherDims ⟨2, ![100000, C]⟩ ⟨2, ![1600000, 1]⟩ ⟨2, ![1600000, C]⟩)
    (hG1 : dG.offsetDims = [1]) (hG2 : dG.collapsedSliceDims = [0]) (hG3 : dG.operandBatchingDims = [])
    (hG4 : dG.startIndicesBatchingDims = []) (hG5 : dG.startIndexMap = [0]) (hG6 : dG.indexVectorDim = 1)
    (hG7 : dG.sliceSizes = ![1, C])
    (src dst : EdgeCol)
    (z : FVec Ideal ⟨2, ![100000, C]⟩ .f32)
    (hz : ∀ (n : Fin 100000) (c : Fin C), z (ix2 n c) = Ideal.ofBits .f32 0x00000000#32)
    (dm : FVec Ideal ⟨2, ![100000, C]⟩ .f32)
    (hdm : ∀ (n : Fin 100000) (c : Fin C), dm (ix2 n c) = degMax dst n)
    (f : Mat 100000 C) :
    Host.divf (F := Ideal) (Host.scatterAdd (F := Ideal) dS z dst (Host.gather dG f src)) dm = nbrMean src dst f := by
  funext i
  obtain ⟨n, c, rfl⟩ : ∃ (n : Fin 100000) (c : Fin C), i = ix2 n c := ⟨i 0, i 1, eq_ix2 i⟩
  show Ideal.div (Host.scatterAdd (F := Ideal) dS z dst (Host.gather dG f src) (ix2 n c)) (dm (ix2 n c))
    = Ideal.div (nbrSum src dst f n c) (degMax dst n)
  rw [hdm n c]
  refine congrArg (Ideal.div · _) ?_
  refine (RowScatter.rowScatterAdd_apply dS hS1 hS2 hS3 hS4 z dst (Host.gather dG f src) n c).trans ?_
  rw [hz n c]
  unfold nbrSum
  refine congrArg (_ + ·) (Finset.sum_congr rfl fun e _ => ?_)
  exact RowGather.rowGather_apply (by decide) dG hG1 hG2 hG3 hG4 hG5 hG6 hG7 f src e c

end Cert.MeanAgg.Reference

end
-- ==== Proof.RefHidden.lean ====
/-
  The reference's two hidden layers, read stage by stage: the degree column, the neighbour mean of each layer's
  input, and one hidden layer as a function of its neighbour mean and its input rows.  The second layer repeats the
  first on other buffers, so both are instances of one statement over arbitrary arrays.
-/
import proofs.«164546_j60851096649749_2_alg».proof.Proof.GenPReferenceIdealRead
import proofs.«164546_j60851096649749_2_alg».proof.Proof.Spec
import proofs.«164546_j60851096649749_2_alg».proof.Proof.RefMean

noncomputable section

open scoped BigOperators

namespace Cert.MeanAgg.Reference

open Idealize.ShloMosaic Idealize.ShloMosaic.ValueIdx Idealize.ShloMosaic.TcCoe Idealize.SL.Sem Cert.ReferenceIdeal Cert.ReferenceIdeal.Gen Cert.ReferenceIdeal.Read Cert.MeanAgg

/-! ## The index columns: every layer recomputes the same two -/

theorem srcCol_second (x1 : (⟨S2x1600000, .i32⟩ : BufTy).Contents (Elt Ideal)) :
    val_main_v54 (F := Ideal) x1 = val_main_v13 (F := Ideal) x1 := rfl
theorem srcCol_third (x1 : (⟨S2x1600000, .i32⟩ : BufTy).Contents (Elt Ideal)) :
    val_main_v95 (F := Ideal) x1 = val_main_v13 (F := Ideal) x1 := rfl
theorem dstCol_v16 (x1 : (⟨S2x1600000, .i32⟩ : BufTy).Contents (Elt Ideal)) :
    val_main_v16 (F := Ideal) x1 = val_main_v6 (F := Ideal) x1 := rfl
theorem dstCol_v47 (x1 : (⟨S2x1600000, .i32⟩ : BufTy).Contents (Elt Ideal)) :
    val_main_v47 (F := Ideal) x1 = val_main_v6 (F := Ideal) x1 := rfl
theorem dstCol_v57 (x1 : (⟨S2x1600000, .i32⟩ : BufTy).Contents (Elt Ideal)) :
    val_main_v57 (F := Ideal) x1 = val_main_v6 (F := Ideal) x1 := rfl
theorem dstCol_v88 (x1 : (⟨S2x1600000, .i32⟩ : BufTy).Contents (Elt Ideal)) :
    val_main_v88 (F := Ideal) x1 = val_main_v6 (F := Ideal) x1 := rfl
theorem dstCol_v98 (x1 : (⟨S2x1600000, .i32⟩ : BufTy).Contents (Elt Ideal)) :
    val_main_v98 (F := Ideal) x1 = val_main_v6 (F := Ideal) x1 := rfl

/-! ## max(deg, 1) -/

/-- The degree column clipped below at one, at node n. -/
theorem degMax_read (x1 : (⟨S2x1600000, .i32⟩ : BufTy).Contents (Elt Ideal)) (n : Fin 100000) :
    val_main_v19 (F := Ideal) x1 (ix1 n) = degMax (val_main_v6 (F := Ideal) x1) n := by
  rw [val_main_v19_apply, val_main_v18_apply, val_main_cst_3_apply]
  unfold degMax
  refine congrArg (fun d => max d (Ideal.ofBits .f32 0x3F800000#32)) ?_
  unfold val_main_v7
  refine indeg_of_scatter _ rfl rfl rfl rfl _ (fun n => ?_) _ (fun e => ?_) _ n
  · rw [val_main_v5_apply, val_main_cst_0_apply]; rfl
  · rw [val_main_v4_apply, val_main_cst_apply]; rfl

theorem degMax_second (x1 : (⟨S2x1600000, .i32⟩ : BufTy).Contents (Elt Ideal)) :
    val_main_v60 (F := Ideal) x1 = val_main_v19 (F := Ideal) x1 := rfl
theorem degMax_third (x1 : (⟨S2x1600000, .i32⟩ : BufTy).Contents (Elt Ideal)) :
    val_main_v101 (F := Ideal) x1 = val_main_v19 (F := Ideal) x1 := rfl

/-- The clipped degree column repeated along the channels, at (n, c). -/
theorem degMaxRows_read (x1 : (⟨S2x1600000, .i32⟩ : BufTy).Contents (Elt Ideal)) (n : Fin 100000) (c : Fin 128) :
    val_main_v21 (F := Ideal) x1 (ix2 n c) = degMax (val_main_v6 (F := Ideal) x1) n := by
  rw [val_main_v21_apply, val_main_v20_apply]
  have e : idx_main_v20 (idx_main_v21 (ix2 n c)) = ix1 n :=
    funext fun a => Fin.ext (by match a with | ⟨0, _⟩ => rfl)
  rw [e]
  exact degMax_read x1 n

/-! ## The neighbour mean of any [100000, 128] array -/

/-- The three operations (gather by the source column, scatter-add from zero by the target column, divide by the
    clipped degree) applied to any array f give its neighbour mean. -/
theorem mean_read (x1 : (⟨S2x1600000, .i32⟩ : BufTy).Contents (Elt Ideal)) (f : (⟨S100000x128, .f32⟩ : BufTy).Contents (Elt Ideal)) :
    Host.divf (F := Ideal) (φ := .f32) (Host.scatterAdd (F := Ideal) (φ := .f32) scatter_S100000x128_S1600000x1_S1600000x128_1_0_0_1
        (val_main_v15 (F := Ideal)) (val_main_v6 (F := Ideal) x1)
        (Host.gather gather_S100000x128_S1600000x1_S1600000x128_1_0_n_n_0_1_1128 f (val_main_v13 (F := Ideal) x1)))
      (val_main_v21 (F := Ideal) x1)
    = nbrMean (val_main_v13 (F := Ideal) x1) (val_main_v6 (F := Ideal) x1) f := by
  refine nbrMean_of_ops _ rfl rfl rfl rfl _ rfl rfl rfl rfl rfl rfl rfl _ _ _ (fun n c => ?_) _ (fun n c => ?_) f
  · rw [val_main_v15_apply, val_main_cst_2_apply]; rfl
  · exact degMaxRows_read x1 n c

/-! ## One hidden layer over arbitrary arrays -/

/-- A row of 128 repeated down the nodes, at (n, j). -/
theorem chanRow_apply (g : (⟨S128, .f32⟩ : BufTy).Contents (Elt Ideal)) (n : Fin 100000) (j : Fin 128) :
    val_main_v33 (F := Ideal) g (ix2 n j) = g (ix1 j) := by
  rw [val_main_v33_apply, val_main_v32_apply]
  exact congrArg g (funext fun a => Fin.ext (by match a with | ⟨0, _⟩ => rfl))

/-- The product of an [100000, 128] array with a [128, 128] matrix, at (n, j). -/
theorem dot_apply (a : (⟨S100000x128, .f32⟩ : BufTy).Contents (Elt Ideal)) (W : (⟨S128x128, .f32⟩ : BufTy).Contents (Elt Ideal)) (n : Fin 100000) (j : Fin 128) :
    val_main_v27 (F := Ideal) a W (ix2 n j) = ∑ k : Fin 128, a (ix2 n k) * W (ix2 k j) := by
  rw [val_main_v27_apply]
  refine Finset.sum_congr rfl fun k _ => ?_
  have el : lidx_main_v27 (ix2 n j) k = ix2 n k :=
    funext fun a => Fin.ext (by match a with | ⟨0, _⟩ => rfl | ⟨1, _⟩ => rfl)
  have er : ridx_main_v27 (ix2 n j) k = ix2 k j :=
    funext fun a => Fin.ext (by match a with | ⟨0, _⟩ => rfl | ⟨1, _⟩ => rfl)
  rw [el, er]

/-- The row 1 / sqrt(v + eps) repeated down the nodes, at (n, j). -/
theorem rsqrtRow_apply (v : (⟨S128, .f32⟩ : BufTy).Contents (Elt Ideal)) (n : Fin 100000) (j : Fin 128) :
    val_main_v39 (F := Ideal) v (ix2 n j) = Ideal.rsqrt (v (ix1 j) + Ideal.ofBits .f32 0x3727C5AC#32) := by
  rw [val_main_v39_apply, val_main_v38_apply, val_main_v37_apply, val_main_v36_apply, val_main_v35_apply,
    val_main_cst_4_apply]
  have e : idx_main_v38 (idx_main_v39 (ix2 n j)) = ix1 j :=
    funext fun a => Fin.ext (by match a with | ⟨0, _⟩ => rfl)
  rw [e]
  rfl

/-- The array of zeros. -/
theorem zeros_apply (i : S100000x128.Idx) :
    val_main_call0_v0 (F := Ideal) i = Ideal.ofBits .f32 0x00000000#32 := by
  rw [val_main_call0_v0_apply, val_main_call0_cst_apply]; rfl

/-- One hidden layer, operation by operation, from a neighbour mean a and the input rows x. -/
def hiddenOps (a x : (⟨S100000x128, .f32⟩ : BufTy).Contents (Elt Ideal)) (Wl : (⟨S128x128, .f32⟩ : BufTy).Contents (Elt Ideal)) (bl : (⟨S128, .f32⟩ : BufTy).Contents (Elt Ideal))
    (Wr : (⟨S128x128, .f32⟩ : BufTy).Contents (Elt Ideal)) (g b m v : (⟨S128, .f32⟩ : BufTy).Contents (Elt Ideal)) : (⟨S100000x128, .f32⟩ : BufTy).Contents (Elt Ideal) :=
  maximumf (F := Ideal) (φ := .f32)
    (addf (F := Ideal) (φ := .f32)
      (mulf (F := Ideal) (φ := .f32)
        (mulf (F := Ideal) (φ := .f32) (val_main_v33 (F := Ideal) g)
          (subf (F := Ideal) (φ := .f32)
            (addf (F := Ideal) (φ := .f32) (addf (F := Ideal) (φ := .f32) (val_main_v27 (F := Ideal) a Wl) (val_main_v33 (F := Ideal) bl))
              (val_main_v27 (F := Ideal) x Wr))
            (val_main_v33 (F := Ideal) m)))
        (val_main_v39 (F := Ideal) v))
      (val_main_v33 (F := Ideal) b))
    (val_main_call0_v0 (F := Ideal))

/-- The operations of one hidden layer give the hidden layer of the quotient arrangement. -/
theorem hiddenOps_eq (a x : (⟨S100000x128, .f32⟩ : BufTy).Contents (Elt Ideal)) (Wl : (⟨S128x128, .f32⟩ : BufTy).Contents (Elt Ideal)) (bl : (⟨S128, .f32⟩ : BufTy).Contents (Elt Ideal))
    (Wr : (⟨S128x128, .f32⟩ : BufTy).Contents (Elt Ideal)) (g b m v : (⟨S128, .f32⟩ : BufTy).Contents (Elt Ideal)) :
    hiddenOps a x Wl bl Wr g b m v = mat (hiddenQuot a x Wl bl Wr g b m v) := by
  funext i
  obtain ⟨n, j, rfl⟩ : ∃ (n : Fin 100000) (j : Fin 128), i = ix2 n j := ⟨i 0, i 1, eq_ix2 i⟩
  rw [mat_ix2]
  unfold hiddenOps hiddenQuot normClip
  simp only [maximumf_apply, addf_apply, mulf_apply, subf_apply, chanRow_apply, dot_apply, rsqrtRow_apply, zeros_apply]

/-! ## The layers -/

/-- The neighbour mean of the input rows. -/
theorem mean0 (x0 : (⟨S100000x128, .f32⟩ : BufTy).Contents (Elt Ideal)) (x1 : (⟨S2x1600000, .i32⟩ : BufTy).Contents (Elt Ideal)) :
    val_main_v22 (F := Ideal) x0 x1 = nbrMean (val_main_v13 (F := Ideal) x1) (val_main_v6 (F := Ideal) x1) x0 :=
  mean_read x1 x0

/-- The first hidden layer. -/
theorem hid0 (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 x6 x7 x8 : (⟨S128, .f32⟩ : BufTy).Contents (Elt Ideal)) :
    val_main_v44 (F := Ideal) x0 x1 x2 x3 x4 x5 x6 x7 x8 = hid0Quot (val_main_v13 (F := Ideal) x1) (val_main_v6 (F := Ideal) x1) x0 x2 x3 x4 x5 x6 x7 x8 := by
  refine (hiddenOps_eq (val_main_v22 (F := Ideal) x0 x1) x0 x2 x3 x4 x5 x6 x7 x8).trans ?_
  rw [mean0]
  rfl

/-- The neighbour mean of the first hidden layer. -/
theorem mean1 (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 x6 x7 x8 : (⟨S128, .f32⟩ : BufTy).Contents (Elt Ideal)) :
    val_main_v63 (F := Ideal) x0 x1 x2 x3 x4 x5 x6 x7 x8 = nbrMean (val_main_v13 (F := Ideal) x1) (val_main_v6 (F := Ideal) x1) (val_main_v44 (F := Ideal) x0 x1 x2 x3 x4 x5 x6 x7 x8) :=
  mean_read x1 (val_main_v44 (F := Ideal) x0 x1 x2 x3 x4 x5 x6 x7 x8)

/-- The second hidden layer. -/
theorem hid1 (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 x6 x7 x8 : (⟨S128, .f32⟩ : BufTy).Contents (Elt Ideal))
    (x9 : (⟨S128x128, .f32⟩ : BufTy).Contents (Elt Ideal)) (x10 : (⟨S128, .f32⟩ : BufTy).Contents (Elt Ideal))
    (x11 : (⟨S128x128, .f32⟩ : BufTy).Contents (Elt Ideal)) (x12 x13 x14 x15 : (⟨S128, .f32⟩ : BufTy).Contents (Elt Ideal)) :
    val_main_v85 (F := Ideal) x0 x1 x2 x3 x4 x5 x6 x7 x8 x9 x10 x11 x12 x13 x14 x15
      = hid1Quot (val_main_v13 (F := Ideal) x1) (val_main_v6 (F := Ideal) x1) x0 x2 x3 x4 x5 x6 x7 x8 x9 x10 x11 x12 x13 x14 x15 := by
  refine (hiddenOps_eq (val_main_v63 (F := Ideal) x0 x1 x2 x3 x4 x5 x6 x7 x8) (val_main_v44 (F := Ideal) x0 x1 x2 x3 x4 x5 x6 x7 x8) x9 x10 x11 x12 x13 x14 x15).trans ?_
  rw [mean1, hid0]
  rfl

/-- The neighbour mean of the second hidden layer. -/
theorem mean2 (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 x6 x7 x8 : (⟨S128, .f32⟩ : BufTy).Contents (Elt Ideal))
    (x9 : (⟨S128x128, .f32⟩ : BufTy).Contents (Elt Ideal)) (x10 : (⟨S128, .f32⟩ : BufTy).Contents (Elt Ideal))
    (x11 : (⟨S128x128, .f32⟩ : BufTy).Contents (Elt Ideal)) (x12 x13 x14 x15 : (⟨S128, .f32⟩ : BufTy).Contents (Elt Ideal)) :
    val_main_v104 (F := Ideal) x0 x1 x2 x3 x4 x5 x6 x7 x8 x9 x10 x11 x12 x13 x14 x15 = nbrMean (val_main_v13 (F := Ideal) x1) (val_main_v6 (F := Ideal) x1) (val_main_v85 (F := Ideal) x0 x1 x2 x3 x4 x5 x6 x7 x8 x9 x10 x11 x12 x13 x14 x15) :=
  mean_read x1 (val_main_v85 (F := Ideal) x0 x1 x2 x3 x4 x5 x6 x7 x8 x9 x10 x11 x12 x13 x14 x15)

end Cert.MeanAgg.Reference

end
-- ==== Proof.RefSoftmax.lean ====
/-
  The logarithm of the softmax along 64 channels read off its operations: a row maximum from minus infinity (a
  reduction with a maximum body), taken once more against minus infinity, made a column and repeated along the
  channels; the shifted row; its exponentials summed from zero; the logarithm of that sum, again as a repeated column.
  Stated over any [100000, 64] array.
-/
import Idealize.ShloMosaic.PureOps.Ideal
import Idealize.ShloMosaic.PureOps.Ideal.Laws
import Idealize.ShloMosaic.PureOps.Vector
import Idealize.ShloMosaic.PureOps.Contract
import Idealize.ShloMosaic.PureOps.Reduce
import Idealize.ShloMosaic.PureOps.ShapeOps
import Idealize.ShloMosaic.Lib.Pipeline.Value
import Idealize.ShloMosaic.Lib.ValueIdx
import proofs.«164546_j60851096649749_2_alg».proof.Proof.Spec

noncomputable section

open scoped BigOperators

namespace Cert.MeanAgg.Reference

open Idealize.ShloMosaic Idealize.ShloMosaic.ValueIdx Cert.MeanAgg

/-- The pointwise operations read at an index. -/
theorem vmax_apply {s : Shape} (x y : FVec Ideal s .f32) (i : s.Idx) : maximumf (F := Ideal) x y i = max (x i) (y i) := rfl
theorem vsub_apply {s : Shape} (x y : FVec Ideal s .f32) (i : s.Idx) : subf (F := Ideal) x y i = x i - y i := rfl
theorem hlog_apply {s : Shape} (x : FVec Ideal s .f32) (i : s.Idx) : Host.log (F := Ideal) x i = Ideal.log (x i) := rfl
theorem hexp_apply {s : Shape} (x : FVec Ideal s .f32) (i : s.Idx) : Host.exp (F := Ideal) x i = Ideal.exp (x i) := rfl

/-- A vector [N] made a column [N, 1], read at (n, 0), is the vector at n. -/
theorem column_apply {α : Type}
    (hb1 : (⟨1, ![100000]⟩ : Shape).BroadcastsInDim ⟨2, ![100000, 1]⟩ (![0] : Fin 1 → Fin 2))
    (v : (⟨1, ![100000]⟩ : Shape).Idx → α) (n : Fin 100000) (q : Fin 1) :
    broadcastInDim (⟨2, ![100000, 1]⟩ : Shape) ![0] hb1 v (ix2 n q) = v (ix1 n) := by
  refine broadcastInDim_apply _ hb1 v (ix2 n q) (ix1 n) (fun a => ?_)
  match a with
  | ⟨0, _⟩ => show n.val = if (100000 : Nat) = 1 then 0 else n.val; rw [if_neg (by decide)]

/-- A column [N, 1] repeated along C channels, read at (n, c), is the column at (n, 0). -/
theorem repeat_apply {α : Type} {C : Nat}
    (hb2 : (⟨2, ![100000, 1]⟩ : Shape).BroadcastsInDim ⟨2, ![100000, C]⟩ (![0, 1] : Fin 2 → Fin 2))
    (w : (⟨2, ![100000, 1]⟩ : Shape).Idx → α) (n : Fin 100000) (c : Fin C) :
    broadcastInDim (⟨2, ![100000, C]⟩ : Shape) ![0, 1] hb2 w (ix2 n c) = w (ix2 n (0 : Fin 1)) := by
  refine broadcastInDim_apply _ hb2 w (ix2 n c) (ix2 n (0 : Fin 1)) (fun a => ?_)
  match a with
  | ⟨0, _⟩ => show n.val = if (100000 : Nat) = 1 then 0 else n.val; rw [if_neg (by decide)]
  | ⟨1, _⟩ => show 0 = if (1 : Nat) = 1 then 0 else c.val; rw [if_pos rfl]

/-- Row n with channel k put back on the reduced axis is (n, k). -/
theorem lift_row (h : (⟨2, ![100000, 64]⟩ : Shape).Reduces [1] (⟨1, ![100000]⟩ : Shape)) (n : Fin 100000)
    (k : Fin ((⟨2, ![100000, 64]⟩ : Shape).size 1)) : h.lift (ix1 n) k = ix2 n (⟨k.val, k.isLt⟩ : Fin 64) := by
  funext c; apply Fin.ext
  fin_cases c <;> rfl

/-- The reduction with a maximum body along the channels, at row n: the fold of max from the initial value. -/
theorem rowMax_apply (hr : (⟨2, ![100000, 64]⟩ : Shape).ReducesTo [1] (⟨1, ![100000]⟩ : Shape))
    (hu : 0 < (⟨0, ![]⟩ : Shape).numel) (init : FVec Ideal ⟨0, ![]⟩ .f32)
    (y : FVec Ideal ⟨2, ![100000, 64]⟩ .f32) (n : Fin 100000) :
    Host.reduce (FloatOps.maximumf (F := Ideal) (φ := .f32)) y init hr hu (ix1 n)
      = Finset.univ.fold max (init (Shape.Idx.first hu)) (fun c' : Fin 64 => y (ix2 n c')) := by
  have h : (⟨2, ![100000, 64]⟩ : Shape).Reduces [1] (⟨1, ![100000]⟩ : Shape) := by decide
  rw [Host.reduce_eq_fold_single (FloatOps.maximumf (F := Ideal) (φ := .f32)) y init hr h hu]
  have e : (y ∘ h.lift (ix1 n)) = fun c' : Fin 64 => y (ix2 n c') := by
    funext k
    exact congrArg y (lift_row h n k)
  rw [e]
  rfl

/-- The sum from an initial value along the channels, at row n. -/
theorem rowSum_apply (hr : (⟨2, ![100000, 64]⟩ : Shape).ReducesTo [1] (⟨1, ![100000]⟩ : Shape))
    (hu : 0 < (⟨0, ![]⟩ : Shape).numel) (init : FVec Ideal ⟨0, ![]⟩ .f32)
    (y : FVec Ideal ⟨2, ![100000, 64]⟩ .f32) (n : Fin 100000) :
    Host.reduceAdd (F := Ideal) y init hr hu (ix1 n)
      = init (Shape.Idx.first hu) + ∑ c' : Fin 64, y (ix2 n c') := by
  have h : (⟨2, ![100000, 64]⟩ : Shape).Reduces [1] (⟨1, ![100000]⟩ : Shape) := by decide
  simp only [Host.reduceAdd, Ideal.hostReduceAdd_def]
  rw [Ideal.hostReduceAdd_single hr h]
  refine congrArg (_ + ·) (Finset.sum_congr rfl fun k _ => ?_)
  exact congrArg y (lift_row h n k)

/-- The row maximum as a repeated column. -/
def topCol (hb1 : (⟨1, ![100000]⟩ : Shape).BroadcastsInDim ⟨2, ![100000, 1]⟩ (![0] : Fin 1 → Fin 2))
    (hb2 : (⟨2, ![100000, 1]⟩ : Shape).BroadcastsInDim ⟨2, ![100000, 64]⟩ (![0, 1] : Fin 2 → Fin 2))
    (hr : (⟨2, ![100000, 64]⟩ : Shape).ReducesTo [1] (⟨1, ![100000]⟩ : Shape)) (hu : 0 < (⟨0, ![]⟩ : Shape).numel)
    (ninf : FVec Ideal ⟨0, ![]⟩ .f32) (ninfN : FVec Ideal ⟨1, ![100000]⟩ .f32)
    (y : FVec Ideal ⟨2, ![100000, 64]⟩ .f32) : FVec Ideal ⟨2, ![100000, 64]⟩ .f32 :=
  broadcastInDim (⟨2, ![100000, 64]⟩ : Shape) ![0, 1] hb2 (broadcastInDim (⟨2, ![100000, 1]⟩ : Shape) ![0] hb1
    (maximumf (F := Ideal) ninfN (Host.reduce (FloatOps.maximumf (F := Ideal) (φ := .f32)) y ninf hr hu)))

/-- The logarithm of the softmax, operation by operation. -/
def logSoftmaxOps (hb1 : (⟨1, ![100000]⟩ : Shape).BroadcastsInDim ⟨2, ![100000, 1]⟩ (![0] : Fin 1 → Fin 2))
    (hb2 : (⟨2, ![100000, 1]⟩ : Shape).BroadcastsInDim ⟨2, ![100000, 64]⟩ (![0, 1] : Fin 2 → Fin 2))
    (hr : (⟨2, ![100000, 64]⟩ : Shape).ReducesTo [1] (⟨1, ![100000]⟩ : Shape)) (hu : 0 < (⟨0, ![]⟩ : Shape).numel)
    (ninf : FVec Ideal ⟨0, ![]⟩ .f32) (ninfN : FVec Ideal ⟨1, ![100000]⟩ .f32) (zero : FVec Ideal ⟨0, ![]⟩ .f32)
    (y : FVec Ideal ⟨2, ![100000, 64]⟩ .f32) : FVec Ideal ⟨2, ![100000, 64]⟩ .f32 :=
  subf (F := Ideal) (subf (F := Ideal) y (topCol hb1 hb2 hr hu ninf ninfN y))
    (broadcastInDim (⟨2, ![100000, 64]⟩ : Shape) ![0, 1] hb2 (Host.log (F := Ideal)
      (broadcastInDim (⟨2, ![100000, 1]⟩ : Shape) ![0] hb1
        (Host.reduceAdd (F := Ideal) (Host.exp (F := Ideal) (subf (F := Ideal) y (topCol hb1 hb2 hr hu ninf ninfN y))) zero hr hu))))

/-- The repeated column of row maxima at (n, c) is the row's top. -/
theorem topCol_apply (hb1 : (⟨1, ![100000]⟩ : Shape).BroadcastsInDim ⟨2, ![100000, 1]⟩ (![0] : Fin 1 → Fin 2))
    (hb2 : (⟨2, ![100000, 1]⟩ : Shape).BroadcastsInDim ⟨2, ![100000, 64]⟩ (![0, 1] : Fin 2 → Fin 2))
    (hr : (⟨2, ![100000, 64]⟩ : Shape).ReducesTo [1] (⟨1, ![100000]⟩ : Shape)) (hu : 0 < (⟨0, ![]⟩ : Shape).numel)
    (ninf : FVec Ideal ⟨0, ![]⟩ .f32) (hninf : ∀ i, ninf i = Ideal.ofBits .f32 0xFF800000#32)
    (ninfN : FVec Ideal ⟨1, ![100000]⟩ .f32) (hninfN : ∀ i, ninfN i = Ideal.ofBits .f32 0xFF800000#32)
    (y : FVec Ideal ⟨2, ![100000, 64]⟩ .f32) (n : Fin 100000) (c : Fin 64) :
    topCol hb1 hb2 hr hu ninf ninfN y (ix2 n c) = rowTop (fun c' => y (ix2 n c')) := by
  unfold topCol
  rw [repeat_apply hb2, column_apply hb1, vmax_apply, rowMax_apply hr hu ninf y n, hninfN, hninf]
  unfold rowTop
  exact rfl

/-- THE LOGARITHM OF THE SOFTMAX READ AT (n, c). -/
theorem logSoftmaxOps_apply (hb1 : (⟨1, ![100000]⟩ : Shape).BroadcastsInDim ⟨2, ![100000, 1]⟩ (![0] : Fin 1 → Fin 2))
    (hb2 : (⟨2, ![100000, 1]⟩ : Shape).BroadcastsInDim ⟨2, ![100000, 64]⟩ (![0, 1] : Fin 2 → Fin 2))
    (hr : (⟨2, ![100000, 64]⟩ : Shape).ReducesTo [1] (⟨1, ![100000]⟩ : Shape)) (hu : 0 < (⟨0, ![]⟩ : Shape).numel)
    (ninf : FVec Ideal ⟨0, ![]⟩ .f32) (hninf : ∀ i, ninf i = Ideal.ofBits .f32 0xFF800000#32)
    (ninfN : FVec Ideal ⟨1, ![100000]⟩ .f32) (hninfN : ∀ i, ninfN i = Ideal.ofBits .f32 0xFF800000#32)
    (zero : FVec Ideal ⟨0, ![]⟩ .f32) (hzero : ∀ i, zero i = Ideal.ofBits .f32 0x00000000#32)
    (y : FVec Ideal ⟨2, ![100000, 64]⟩ .f32) (n : Fin 100000) (c : Fin 64) :
    logSoftmaxOps hb1 hb2 hr hu ninf ninfN zero y (ix2 n c) = logSoftmax (fun c' => y (ix2 n c')) c := by
  unfold logSoftmaxOps logSoftmax
  rw [vsub_apply, vsub_apply, repeat_apply hb2, hlog_apply, column_apply hb1, rowSum_apply hr hu zero _ n, hzero,
    topCol_apply hb1 hb2 hr hu ninf hninf ninfN hninfN y n c]
  have e : ∀ c' : Fin 64, Host.exp (F := Ideal) (subf (F := Ideal) y (topCol hb1 hb2 hr hu ninf ninfN y)) (ix2 n c')
      = Ideal.exp (y (ix2 n c') - rowTop fun c'' => y (ix2 n c'')) := fun c' => by
    rw [hexp_apply, vsub_apply, topCol_apply hb1 hb2 hr hu ninf hninf ninfN hninfN y n c']
  simp only [e]
-- ==== Proof.RefValue.lean ====
/-
  The reference program's last stage is the network in the quotient arrangement: the last layer's two products and
  bias on the second hidden layer and its neighbour mean, then the logarithm of the softmax along the 64 channels.
-/
import proofs.«164546_j60851096649749_2_alg».proof.Proof.GenPReferenceIdealRead
import proofs.«164546_j60851096649749_2_alg».proof.Proof.Spec
import proofs.«164546_j60851096649749_2_alg».proof.Proof.RefHidden
import proofs.«164546_j60851096649749_2_alg».proof.Proof.RefSoftmax

noncomputable section

open scoped BigOperators

namespace Cert.MeanAgg.Reference

open Idealize.ShloMosaic Idealize.ShloMosaic.ValueIdx Idealize.ShloMosaic.TcCoe Idealize.SL.Sem Cert.ReferenceIdeal Cert.ReferenceIdeal.Gen Cert.ReferenceIdeal.Read Cert.MeanAgg

/-- The last layer before the softmax, at (n, c): the neighbour mean times one weight matrix, plus the bias, plus the
    second hidden layer times the other. -/
theorem logits_read (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 x6 x7 x8 : (⟨S128, .f32⟩ : BufTy).Contents (Elt Ideal))
    (x9 : (⟨S128x128, .f32⟩ : BufTy).Contents (Elt Ideal)) (x10 : (⟨S128, .f32⟩ : BufTy).Contents (Elt Ideal))
    (x11 : (⟨S128x128, .f32⟩ : BufTy).Contents (Elt Ideal)) (x12 x13 x14 x15 : (⟨S128, .f32⟩ : BufTy).Contents (Elt Ideal))
    (x16 : (⟨S128x64, .f32⟩ : BufTy).Contents (Elt Ideal)) (x17 : (⟨S64, .f32⟩ : BufTy).Contents (Elt Ideal))
    (x18 : (⟨S128x64, .f32⟩ : BufTy).Contents (Elt Ideal))
    (n : Fin 100000) (c : Fin 64) :
    val_main_v110 (F := Ideal) x0 x1 x2 x3 x4 x5 x6 x7 x8 x9 x10 x11 x12 x13 x14 x15 x16 x17 x18 (ix2 n c)
      = ((∑ k : Fin 128, val_main_v104 (F := Ideal) x0 x1 x2 x3 x4 x5 x6 x7 x8 x9 x10 x11 x12 x13 x14 x15 (ix2 n k) * x16 (ix2 k c)) + x17 (ix1 c))
          + ∑ k : Fin 128, val_main_v85 (F := Ideal) x0 x1 x2 x3 x4 x5 x6 x7 x8 x9 x10 x11 x12 x13 x14 x15 (ix2 n k) * x18 (ix2 k c) := by
  rw [val_main_v110_apply, val_main_v108_apply, val_main_v105_apply, val_main_v107_apply, val_main_v106_apply,
    val_main_v109_apply]
  have el : ∀ k : Fin 128, lidx_main_v105 (ix2 n c) k = ix2 n k := fun k =>
    funext fun a => Fin.ext (by match a with | ⟨0, _⟩ => rfl | ⟨1, _⟩ => rfl)
  have er : ∀ k : Fin 128, ridx_main_v105 (ix2 n c) k = ix2 k c := fun k =>
    funext fun a => Fin.ext (by match a with | ⟨0, _⟩ => rfl | ⟨1, _⟩ => rfl)
  have el' : ∀ k : Fin 128, lidx_main_v109 (ix2 n c) k = ix2 n k := fun k =>
    funext fun a => Fin.ext (by match a with | ⟨0, _⟩ => rfl | ⟨1, _⟩ => rfl)
  have er' : ∀ k : Fin 128, ridx_main_v109 (ix2 n c) k = ix2 k c := fun k =>
    funext fun a => Fin.ext (by match a with | ⟨0, _⟩ => rfl | ⟨1, _⟩ => rfl)
  have eb : idx_main_v106 (idx_main_v107 (ix2 n c)) = ix1 c :=
    funext fun a => Fin.ext (by match a with | ⟨0, _⟩ => rfl)
  simp only [el, er, el', er', eb, Ideal.addf_def]

/-- The last stage is the softmax's logarithm, operation by operation, of the stage before it. -/
theorem softmaxStage_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 x6 x7 x8 : (⟨S128, .f32⟩ : BufTy).Contents (Elt Ideal))
    (x9 : (⟨S128x128, .f32⟩ : BufTy).Contents (Elt Ideal)) (x10 : (⟨S128, .f32⟩ : BufTy).Contents (Elt Ideal))
    (x11 : (⟨S128x128, .f32⟩ : BufTy).Contents (Elt Ideal)) (x12 x13 x14 x15 : (⟨S128, .f32⟩ : BufTy).Contents (Elt Ideal))
    (x16 : (⟨S128x64, .f32⟩ : BufTy).Contents (Elt Ideal)) (x17 : (⟨S64, .f32⟩ : BufTy).Contents (Elt Ideal))
    (x18 : (⟨S128x64, .f32⟩ : BufTy).Contents (Elt Ideal)) :
    val_main_v111 (F := Ideal) x0 x1 x2 x3 x4 x5 x6 x7 x8 x9 x10 x11 x12 x13 x14 x15 x16 x17 x18
      = logSoftmaxOps bcast_S100000_S100000x1_0 bcast_S100000x1_S100000x64_0_1 reducesTo_S100000x64_S100000_d1 h_S_
          (val_main_call2_cst (F := Ideal)) (val_main_call2_v1 (F := Ideal)) (val_main_call2_cst_1 (F := Ideal))
          (val_main_v110 (F := Ideal) x0 x1 x2 x3 x4 x5 x6 x7 x8 x9 x10 x11 x12 x13 x14 x15 x16 x17 x18) := by
  unfold val_main_v111 val_main_call2_v10 val_main_call2_v9 val_main_call2_v8 val_main_call2_v7 val_main_call2_v6
    val_main_call2_v5 val_main_call2_v4 val_main_call2_v3 val_main_call2_v2 val_main_call2_v0 logSoftmaxOps topCol
  exact rfl

/-- The reference program's result, one operation after another, is the network in the quotient arrangement: the
    source column is the gathers' index column, the target column the scatters'. -/
theorem ref_value (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 x6 x7 x8 : (⟨S128, .f32⟩ : BufTy).Contents (Elt Ideal))
    (x9 : (⟨S128x128, .f32⟩ : BufTy).Contents (Elt Ideal)) (x10 : (⟨S128, .f32⟩ : BufTy).Contents (Elt Ideal))
    (x11 : (⟨S128x128, .f32⟩ : BufTy).Contents (Elt Ideal)) (x12 x13 x14 x15 : (⟨S128, .f32⟩ : BufTy).Contents (Elt Ideal))
    (x16 : (⟨S128x64, .f32⟩ : BufTy).Contents (Elt Ideal)) (x17 : (⟨S64, .f32⟩ : BufTy).Contents (Elt Ideal))
    (x18 : (⟨S128x64, .f32⟩ : BufTy).Contents (Elt Ideal)) :
    (val_main_v111 (F := Ideal) x0 x1 x2 x3 x4 x5 x6 x7 x8 x9 x10 x11 x12 x13 x14 x15 x16 x17 x18 : Mat 100000 64)
      = netQuot (val_main_v13 (F := Ideal) x1) (val_main_v6 (F := Ideal) x1) x0 x2 x3 x4 x5 x6 x7 x8 x9 x10 x11 x12 x13 x14 x15 x16 x17 x18 := by
  funext i
  obtain ⟨n, c, rfl⟩ : ∃ (n : Fin 100000) (c : Fin 64), i = ix2 n c := ⟨i 0, i 1, eq_ix2 i⟩
  rw [softmaxStage_eq]
  unfold netQuot
  rw [mat_ix2]
  unfold outQuot
  refine (logSoftmaxOps_apply bcast_S100000_S100000x1_0 bcast_S100000x1_S100000x64_0_1 reducesTo_S100000x64_S100000_d1 h_S_
    (val_main_call2_cst (F := Ideal)) (fun i => val_main_call2_cst_apply i)
    (val_main_call2_v1 (F := Ideal)) (fun i => (val_main_call2_v1_apply i).trans (val_main_call2_cst_0_apply _))
    (val_main_call2_cst_1 (F := Ideal)) (fun i => val_main_call2_cst_1_apply i)
    (val_main_v110 (F := Ideal) x0 x1 x2 x3 x4 x5 x6 x7 x8 x9 x10 x11 x12 x13 x14 x15 x16 x17 x18) n c).trans ?_
  refine congrArg (fun h => logSoftmax h c) (funext fun c' => ?_)
  rw [logits_read, mean2, hid1]

end Cert.MeanAgg.Reference

end
-- ==== Proof.lean ====
/-
  The certificate of a three-layer mean-aggregation graph network (100000 nodes, 1600000 edges): four kernel regions
  among host gathers and scatter-adds against the plain jnp reference, equal at every entry on the extended reals.

  Both programs gather a source row per edge (the index clamped into the node range) and add it into the row the
  edge's target names; both count the edges landing on a node and take max(count, 1), a real number at least 1.
  The kernel program multiplies a neighbour sum by the reciprocal of that number where the reference divides by it:
  the same value on every extended real, the infinities included.  Its hidden layers add the bias after the second
  matrix product instead of before it: the same sum of three terms.  In the last layer it multiplies the hidden rows
  by the neighbour weights BEFORE summing over the edges: hidden entries are clipped below at zero, so they lie in
  [0, +inf], and over such entries the product distributes over the edge sum whatever the sign of a weight, while
  the non-negative real reciprocal moves through any finite sum (Algebra.lean).  The logarithm of the softmax is the
  same function of the same row on both sides.  No finiteness of the inputs is used.

  Spec.lean states the network in both arrangements; the Region* modules read each kernel region's output array
  whole; KernelValue.lean composes them with the host stages into the kernel program's run with its result named;
  RefRun.lean runs the reference's operations stretch by stretch and RefValue.lean reads them into the quotient
  arrangement; here the two runs are put side by side.
-/
import proofs.«164546_j60851096649749_2_alg».proof.Defs
import proofs.«164546_j60851096649749_2_alg».proof.Proof.Gen.Kernel
import proofs.«164546_j60851096649749_2_alg».proof.Proof.GenPKernelFrame
import proofs.«164546_j60851096649749_2_alg».proof.Proof.Gen.KernelIdeal
import proofs.«164546_j60851096649749_2_alg».proof.Proof.GenPKernelIdealFrame
import proofs.«164546_j60851096649749_2_alg».proof.Proof.Gen.ReferenceIdeal
import proofs.«164546_j60851096649749_2_alg».proof.Proof.Gen.Pre_finite_inputs
import proofs.«164546_j60851096649749_2_alg».proof.Proof.RefRun
import proofs.«164546_j60851096649749_2_alg».proof.Proof.Algebra
import proofs.«164546_j60851096649749_2_alg».proof.Proof.KernelValue
import proofs.«164546_j60851096649749_2_alg».proof.Proof.RefValue
import Idealize.ShloMosaic.Adequacy
import Idealize.ShloMosaic.Init

noncomputable section

namespace Cert.Proof

open Idealize.ShloMosaic Idealize.SL.Sem Cert.MeanAgg

/-- The gathers' index column is one function of the edge list in both programs. -/
theorem srcCol_eq (ei : (⟨Cert.KernelIdeal.S2x1600000, .i32⟩ : BufTy).Contents (Elt Ideal)) :
    Cert.ReferenceIdeal.Read.val_main_v13 (F := Ideal) ei = Cert.MeanAgg.Kernel.srcCol ei := rfl

/-- The scatters' index column is one function of the edge list in both programs. -/
theorem dstCol_eq (ei : (⟨Cert.KernelIdeal.S2x1600000, .i32⟩ : BufTy).Contents (Elt Ideal)) :
    Cert.ReferenceIdeal.Read.val_main_v6 (F := Ideal) ei = Cert.MeanAgg.Kernel.dstCol ei := rfl

theorem frame_kernel : Cert.frame_Kernel :=
  fun m ρ _ => Cert.Kernel.Gen.frame m ρ

theorem frame_kernelIdeal : Cert.frame_KernelIdeal :=
  fun m ρ _ => Cert.KernelIdeal.Gen.frame m ρ

theorem frame_referenceIdeal : Cert.frame_ReferenceIdeal :=
  fun m ρ _ => (θ_run Cert.ReferenceIdeal.defs _ _).mono (fun _ h c => (h c).2)
    (Cert.MeanAgg.Reference.ref_run m ρ)

/-- Both idealized programs end with the network's value: the kernel program in the reciprocal arrangement, the
    reference in the quotient arrangement, of arguments that agree. -/
theorem algebraic : Cert.algebraic_KernelIdeal_ReferenceIdeal := by
  intro m ρ m' ρ' _ hagree
  refine ⟨_, Cert.MeanAgg.Kernel.kernel_run m ρ, ?_⟩
  refine (θ_run Cert.ReferenceIdeal.defs _ _).mono (fun _ h c => ⟨(h c).1.trans ?_, (h c).2⟩)
    (Cert.MeanAgg.Reference.ref_run m' ρ')
  obtain ⟨h0, h1, h2, h3, h4, h5, h6, h7, h8, h9, h10, h11, h12, h13, h14, h15, h16, h17, h18⟩ := hagree c
  rw [h0, h1, h2, h3, h4, h5, h6, h7, h8, h9, h10, h11, h12, h13, h14, h15, h16, h17, h18]
  exact (Cert.MeanAgg.Reference.ref_value _ _ _ _ _ _ _ _ _ _ _ _ _ _ _ _ _ _ _).trans
    ((congrArg₂ (fun s d => netQuot s d _ _ _ _ _ _ _ _ _ _ _ _ _ _ _ _ _ _) (srcCol_eq _) (dstCol_eq _)).trans
      (net_eq _ _ _ _ _ _ _ _ _ _ _ _ _ _ _ _ _ _ _ _).symm)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
